-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v175)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v175) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4 : Shape := ⟨2, ![1024, 4]⟩
abbrev S40000x128 : Shape := ⟨2, ![40000, 128]⟩
abbrev S230x128 : Shape := ⟨2, ![230, 128]⟩
abbrev S365x128 : Shape := ⟨2, ![365, 128]⟩
abbrev S4x128 : Shape := ⟨2, ![4, 128]⟩
abbrev S230 : Shape := ⟨1, ![230]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S230x128 : S_.BroadcastsInDim S230x128 (![] : Fin 0 → Fin S230x128.rank)
  reducesTo_S230x128_S_d0_1 : S230x128.ReducesTo [0, 1] S_
  bcast_S_S365x128 : S_.BroadcastsInDim S365x128 (![] : Fin 0 → Fin S365x128.rank)
  reducesTo_S365x128_S_d0_1 : S365x128.ReducesTo [0, 1] S_
  bcast_S_S4x128 : S_.BroadcastsInDim S4x128 (![] : Fin 0 → Fin S4x128.rank)
  reducesTo_S4x128_S_d0_1 : S4x128.ReducesTo [0, 1] S_
  bcast_S_S230 : S_.BroadcastsInDim S230 (![] : Fin 0 → Fin S230.rank)
  reducesTo_S230_S_d0 : S230.ReducesTo [0] S_

variable [Facts]

def fn_part2 {F : FTy → Type} [FloatOps F] (main_arg8 : FVec F S230x128 .f32) (main_arg9 : FVec F S230 .f32) (main_v33 : IVec S_ 1) : IVec S_ 1 :=
  let main_v34 : FVec F S230x128 .f32 := Host.absf main_arg8
  let main_cst_12 : FVec F S_ .f32 := constant S_ .f32 0x7F800000#32
  let main_v35 : FVec F S230x128 .f32 := broadcastInDim S230x128 ![] bcast_S_S230x128 main_cst_12
  let main_v36 : IVec S230x128 1 := cmpf .olt main_v34 main_v35
  let main_c_13 : IVec S_ 1 := constantI S_ 1 1#1
  let main_v37 : IVec S_ 1 := (fun x v => Host.reduce IntOp.andi x v reducesTo_S230x128_S_d0_1 h_S_) main_v36 main_c_13
  let main_v38 : IVec S_ 1 := andi main_v33 main_v37
  let main_v39 : FVec F S230 .f32 := Host.absf main_arg9
  let main_cst_14 : FVec F S_ .f32 := constant S_ .f32 0x7F800000#32
  let main_v40 : FVec F S230 .f32 := broadcastInDim S230 ![] bcast_S_S230 main_cst_14
  let main_v41 : IVec S230 1 := cmpf .olt main_v39 main_v40
  let main_c_15 : IVec S_ 1 := constantI S_ 1 1#1
  let main_v42 : IVec S_ 1 := (fun x v => Host.reduce IntOp.andi x v reducesTo_S230_S_d0 h_S_) main_v41 main_c_15
  let main_v43 : IVec S_ 1 := andi main_v38 main_v42
  main_v43

def fn_part1 {F : FTy → Type} [FloatOps F] (main_arg5 : FVec F S365x128 .f32) (main_arg6 : FVec F S4x128 .f32) (main_arg7 : FVec F S4x128 .f32) (main_arg8 : FVec F S230x128 .f32) (main_arg9 : FVec F S230 .f32) (main_v13 : IVec S_ 1) (main_v16 : IVec S365x128 1) : IVec S_ 1 :=
  let main_c_5 : IVec S_ 1 := constantI S_ 1 1#1
  let main_v17 : IVec S_ 1 := (fun x v => Host.reduce IntOp.andi x v reducesTo_S365x128_S_d0_1 h_S_) main_v16 main_c_5
  let main_v18 : IVec S_ 1 := andi main_v13 main_v17
  let main_v19 : FVec F S365x128 .f32 := Host.absf main_arg5
  let main_cst_6 : FVec F S_ .f32 := constant S_ .f32 0x7F800000#32
  let main_v20 : FVec F S365x128 .f32 := broadcastInDim S365x128 ![] bcast_S_S365x128 main_cst_6
  let main_v21 : IVec S365x128 1 := cmpf .olt main_v19 main_v20
  let main_c_7 : IVec S_ 1 := constantI S_ 1 1#1
  let main_v22 : IVec S_ 1 := (fun x v => Host.reduce IntOp.andi x v reducesTo_S365x128_S_d0_1 h_S_) main_v21 main_c_7
  let main_v23 : IVec S_ 1 := andi main_v18 main_v22
  let main_v24 : FVec F S4x128 .f32 := Host.absf main_arg6
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg7
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg8 main_arg9 main_v33

def fn {F : FTy → Type} [FloatOps F] (main_arg0 : IVec S1024x4 32) (main_arg1 : FVec F S40000x128 .f32) (main_arg2 : FVec F S230x128 .f32) (main_arg3 : FVec F S365x128 .f32) (main_arg4 : FVec F S365x128 .f32) (main_arg5 : FVec F S365x128 .f32) (main_arg6 : FVec F S4x128 .f32) (main_arg7 : FVec F S4x128 .f32) (main_arg8 : FVec F S230x128 .f32) (main_arg9 : FVec F S230 .f32) (main_arg10 : IVec S230 1) : IVec S_ 1 :=
  let main_v0 : FVec F S40000x128 .f32 := Host.absf main_arg1
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S230x128 .f32 := Host.absf main_arg2
  let main_cst_0 : FVec F S_ .f32 := constant S_ .f32 0x7F800000#32
  let main_v5 : FVec F S230x128 .f32 := broadcastInDim S230x128 ![] bcast_S_S230x128 main_cst_0
  let main_v6 : IVec S230x128 1 := cmpf .olt main_v4 main_v5
  let main_c_1 : IVec S_ 1 := constantI S_ 1 1#1
  let main_v7 : IVec S_ 1 := (fun x v => Host.reduce IntOp.andi x v reducesTo_S230x128_S_d0_1 h_S_) main_v6 main_c_1
  let main_v8 : IVec S_ 1 := andi main_v3 main_v7
  let main_v9 : FVec F S365x128 .f32 := Host.absf main_arg3
  let main_cst_2 : FVec F S_ .f32 := constant S_ .f32 0x7F800000#32
  let main_v10 : FVec F S365x128 .f32 := broadcastInDim S365x128 ![] bcast_S_S365x128 main_cst_2
  let main_v11 : IVec S365x128 1 := cmpf .olt main_v9 main_v10
  let main_c_3 : IVec S_ 1 := constantI S_ 1 1#1
  let main_v12 : IVec S_ 1 := (fun x v => Host.reduce IntOp.andi x v reducesTo_S365x128_S_d0_1 h_S_) main_v11 main_c_3
  let main_v13 : IVec S_ 1 := andi main_v8 main_v12
  let main_v14 : FVec F S365x128 .f32 := Host.absf main_arg4
  let main_cst_4 : FVec F S_ .f32 := constant S_ .f32 0x7F800000#32
  let main_v15 : FVec F S365x128 .f32 := broadcastInDim S365x128 ![] bcast_S_S365x128 main_cst_4
  let main_v16 : IVec S365x128 1 := cmpf .olt main_v14 main_v15
  fn_part1 (F := F) main_arg5 main_arg6 main_arg7 main_arg8 main_arg9 main_v13 main_v16
-- ==== Kernel.lean ====
abbrev S1024x4 : Shape := ⟨2, ![1024, 4]⟩
abbrev S40000x128 : Shape := ⟨2, ![40000, 128]⟩
abbrev S230x128 : Shape := ⟨2, ![230, 128]⟩
abbrev S365x128 : Shape := ⟨2, ![365, 128]⟩
abbrev S4x128 : Shape := ⟨2, ![4, 128]⟩
abbrev S230 : Shape := ⟨1, ![230]⟩
abbrev S1024x1 : Shape := ⟨2, ![1024, 1]⟩
abbrev S1024 : Shape := ⟨1, ![1024]⟩
abbrev S_ : Shape := ⟨0, ![]⟩
abbrev S1024x128 : Shape := ⟨2, ![1024, 128]⟩
abbrev S1024x64 : Shape := ⟨2, ![1024, 64]⟩
abbrev S1024x256 : Shape := ⟨2, ![1024, 256]⟩
abbrev S1024x40000 : Shape := ⟨2, ![1024, 40000]⟩
abbrev S2560x128 : Shape := ⟨2, ![2560, 128]⟩
abbrev S1024x2560 : Shape := ⟨2, ![1024, 2560]⟩

abbrev nBuf : Space → Nat
  | .hbm => 225
  | .vmem => 5
  | .smem => 0
  | _ => 0

abbrev hbmTy0_0 (i : Nat) : BufTy := match i % 128 with
  | 0 => ⟨S1024x4, .i32⟩
  | 1 => ⟨S40000x128, .f32⟩
  | 2 => ⟨S230x128, .f32⟩
  | 3 => ⟨S365x128, .f32⟩
  | 4 => ⟨S365x128, .f32⟩
  | 5 => ⟨S365x128, .f32⟩
  | 6 => ⟨S4x128, .f32⟩
  | 7 => ⟨S4x128, .f32⟩
  | 8 => ⟨S230x128, .f32⟩
  | 9 => ⟨S230, .f32⟩
  | 10 => ⟨S230, .i1⟩
  | 11 => ⟨S1024x1, .i32⟩
  | 12 => ⟨S1024, .i32⟩
  | 13 => ⟨S1024x1, .i32⟩
  | 14 => ⟨S1024, .i32⟩
  | 15 => ⟨S1024x1, .i32⟩
  | 16 => ⟨S1024, .i32⟩
  | 17 => ⟨S_, .i32⟩
  | 18 => ⟨S_, .i32⟩
  | 19 => ⟨S1024, .i32⟩
  | 20 => ⟨S1024, .i32⟩
  | 21 => ⟨S1024, .i32⟩
  | 22 => ⟨S_, .i32⟩
  | 23 => ⟨S1024, .i32⟩
  | 24 => ⟨S1024, .i1⟩
  | 25 => ⟨S1024, .i32⟩
  | 26 => ⟨S1024, .i32⟩
  | 27 => ⟨S_, .i32⟩
  | 28 => ⟨S1024, .i32⟩
  | 29 => ⟨S1024, .i1⟩
  | 30 => ⟨S1024, .i1⟩
  | 31 => ⟨S_, .i32⟩
  | 32 => ⟨S1024, .i32⟩
  | 33 => ⟨S1024, .i32⟩
  | 34 => ⟨S1024, .i32⟩
  | 35 => ⟨S_, .i32⟩
  | 36 => ⟨S1024, .i32⟩
  | 37 => ⟨S1024, .i1⟩
  | 38 => ⟨S_, .i32⟩
  | 39 => ⟨S1024, .i32⟩
  | 40 => ⟨S1024, .i32⟩
  | 41 => ⟨S1024, .i32⟩
  | 42 => ⟨S1024x1, .i32⟩
  | 43 => ⟨S1024x128, .f32⟩
  | 44 => ⟨S_, .i32⟩
  | 45 => ⟨S1024, .i32⟩
  | 46 => ⟨S1024, .i1⟩
  | 47 => ⟨S_, .i32⟩
  | 48 => ⟨S1024, .i32⟩
  | 49 => ⟨S1024, .i32⟩
  | 50 => ⟨S1024, .i32⟩
  | 51 => ⟨S1024x1, .i32⟩
  | 52 => ⟨S1024x128, .f32⟩
  | 53 => ⟨S_, .i32⟩
  | 54 => ⟨S1024, .i32⟩
  | 55 => ⟨S1024, .i1⟩
  | 56 => ⟨S_, .i32⟩
  | 57 => ⟨S1024, .i32⟩
  | 58 => ⟨S1024, .i32⟩
  | 59 => ⟨S1024, .i32⟩
  | 60 => ⟨S1024x1, .i32⟩
  | 61 => ⟨S1024x128, .f32⟩
  | 62 => ⟨S_, .i32⟩
  | 63 => ⟨S1024, .i32⟩
  | 64 => ⟨S1024, .i1⟩
  | 65 => ⟨S_, .i32⟩
  | 66 => ⟨S1024, .i32⟩
  | 67 => ⟨S1024, .i32⟩
  | 68 => ⟨S1024, .i32⟩
  | 69 => ⟨S1024x1, .i32⟩
  | 70 => ⟨S1024x128, .f32⟩
  | 71 => ⟨S_, .i32⟩
  | 72 => ⟨S1024, .i32⟩
  | 73 => ⟨S1024, .i1⟩
  | 74 => ⟨S_, .i32⟩
  | 75 => ⟨S1024, .i32⟩
  | 76 => ⟨S1024, .i32⟩
  | 77 => ⟨S1024, .i32⟩
  | 78 => ⟨S1024x1, .i32⟩
  | 79 => ⟨S1024x128, .f32⟩
  | 80 => ⟨S1024x128, .f32⟩
  | 81 => ⟨S_, .i32⟩
  | 82 => ⟨S1024, .i32⟩
  | 83 => ⟨S1024, .i1⟩
  | 84 => ⟨S_, .i32⟩
  | 85 => ⟨S1024, .i32⟩
  | 86 => ⟨S1024, .i32⟩
  | 87 => ⟨S1024, .i32⟩
  | 88 => ⟨S1024x1, .i32⟩
  | 89 => ⟨S1024x128, .f32⟩
  | 90 => ⟨S_, .i32⟩
  | 91 => ⟨S1024, .i32⟩
  | 92 => ⟨S1024, .i1⟩
  | 93 => ⟨S_, .i32⟩
  | 94 => ⟨S1024, .i32⟩
  | 95 => ⟨S1024, .i32⟩
  | 96 => ⟨S1024, .i32⟩
  | 97 => ⟨S1024x1, .i32⟩
  | 98 => ⟨S1024x128, .f32⟩
  | 99 => ⟨S1024x128, .f32⟩
  | 100 => ⟨S_, .i32⟩
  | 101 => ⟨S1024, .i32⟩
  | 102 => ⟨S1024, .i1⟩
  | 103 => ⟨S_, .i32⟩
  | 104 => ⟨S1024, .i32⟩
  | 105 => ⟨S1024, .i32⟩
  | 106 => ⟨S1024, .i32⟩
  | 107 => ⟨S1024x1, .i32⟩
  | 108 => ⟨S1024, .i1⟩
  | 109 => ⟨S1024x1, .i1⟩
  | 110 => ⟨S_, .i32⟩
  | 111 => ⟨S1024, .i32⟩
  | 112 => ⟨S1024, .i1⟩
  | 113 => ⟨S_, .i32⟩
  | 114 => ⟨S1024, .i32⟩
  | 115 => ⟨S1024, .i32⟩
  | 116 => ⟨S1024, .i32⟩
  | 117 => ⟨S1024x1, .i32⟩
  | 118 => ⟨S1024x128, .f32⟩
  | 119 => ⟨S1024x64, .f32⟩
  | 120 => ⟨S1024x64, .f32⟩
  | 121 => ⟨S1024x64, .f32⟩
  | 122 => ⟨S1024x64, .f32⟩
  | 123 => ⟨S1024x64, .f32⟩
  | 124 => ⟨S1024x64, .f32⟩
  | 125 => ⟨S1024x64, .f32⟩
  | 126 => ⟨S1024x64, .f32⟩
  | 127 => ⟨S1024x64, .f32⟩
  | _ => ⟨S1024x4, .i32⟩

abbrev hbmTy0_1 (i : Nat) : BufTy := match i % 128 with
  | 0 => ⟨S1024x64, .f32⟩
  | 1 => ⟨S1024x128, .f32⟩
  | 2 => ⟨S_, .i32⟩
  | 3 => ⟨S1024, .i32⟩
  | 4 => ⟨S1024, .i1⟩
  | 5 => ⟨S_, .i32⟩
  | 6 => ⟨S1024, .i32⟩
  | 7 => ⟨S1024, .i32⟩
  | 8 => ⟨S1024, .i32⟩
  | 9 => ⟨S1024x1, .i32⟩
  | 10 => ⟨S1024, .f32⟩
  | 11 => ⟨S1024x1, .f32⟩
  | 12 => ⟨S1024x128, .f32⟩
  | 13 => ⟨S1024x128, .f32⟩
  | 14 => ⟨S1024x128, .f32⟩
  | 15 => ⟨S1024x64, .f32⟩
  | 16 => ⟨S1024x64, .f32⟩
  | 17 => ⟨S1024x64, .f32⟩
  | 18 => ⟨S1024x64, .f32⟩
  | 19 => ⟨S1024x64, .f32⟩
  | 20 => ⟨S1024x64, .f32⟩
  | 21 => ⟨S1024x64, .f32⟩
  | 22 => ⟨S1024x64, .f32⟩
  | 23 => ⟨S1024x64, .f32⟩
  | 24 => ⟨S1024x64, .f32⟩
  | 25 => ⟨S1024x128, .f32⟩
  | 26 => ⟨S1024x128, .f32⟩
  | 27 => ⟨S1024x128, .i1⟩
  | 28 => ⟨S1024x128, .f32⟩
  | 29 => ⟨S1024x64, .f32⟩
  | 30 => ⟨S1024x64, .f32⟩
  | 31 => ⟨S1024x64, .f32⟩
  | 32 => ⟨S1024x64, .f32⟩
  | 33 => ⟨S1024x64, .f32⟩
  | 34 => ⟨S1024x64, .f32⟩
  | 35 => ⟨S1024x64, .f32⟩
  | 36 => ⟨S1024x64, .f32⟩
  | 37 => ⟨S1024x64, .f32⟩
  | 38 => ⟨S1024x64, .f32⟩
  | 39 => ⟨S1024x128, .f32⟩
  | 40 => ⟨S1024x128, .f32⟩
  | 41 => ⟨S1024x64, .f32⟩
  | 42 => ⟨S1024x64, .f32⟩
  | 43 => ⟨S1024x64, .f32⟩
  | 44 => ⟨S1024x64, .f32⟩
  | 45 => ⟨S1024x64, .f32⟩
  | 46 => ⟨S1024x64, .f32⟩
  | 47 => ⟨S1024x64, .f32⟩
  | 48 => ⟨S1024x64, .f32⟩
  | 49 => ⟨S1024x64, .f32⟩
  | 50 => ⟨S1024x64, .f32⟩
  | 51 => ⟨S1024x128, .f32⟩
  | 52 => ⟨S1024x128, .f32⟩
  | 53 => ⟨S1024x256, .f32⟩
  | 54 => ⟨S1024x256, .f32⟩
  | 55 => ⟨S1024x64, .f32⟩
  | 56 => ⟨S1024x64, .f32⟩
  | 57 => ⟨S1024x64, .f32⟩
  | 58 => ⟨S1024x64, .f32⟩
  | 59 => ⟨S1024x64, .f32⟩
  | 60 => ⟨S1024x64, .f32⟩
  | 61 => ⟨S1024x64, .f32⟩
  | 62 => ⟨S1024x64, .f32⟩
  | 63 => ⟨S1024x64, .f32⟩
  | 64 => ⟨S1024x64, .f32⟩
  | 65 => ⟨S1024x64, .f32⟩
  | 66 => ⟨S1024x64, .f32⟩
  | 67 => ⟨S1024x64, .f32⟩
  | 68 => ⟨S1024x64, .f32⟩
  | 69 => ⟨S1024x64, .f32⟩
  | 70 => ⟨S1024x64, .f32⟩
  | 71 => ⟨S1024x64, .f32⟩
  | 72 => ⟨S1024x64, .f32⟩
  | 73 => ⟨S1024x64, .f32⟩
  | 74 => ⟨S1024x64, .f32⟩
  | 75 => ⟨S1024x64, .f32⟩
  | 76 => ⟨S1024x64, .f32⟩
  | 77 => ⟨S1024x64, .f32⟩
  | 78 => ⟨S1024x64, .f32⟩
  | 79 => ⟨S1024x64, .f32⟩
  | 80 => ⟨S1024x64, .f32⟩
  | 81 => ⟨S1024x64, .f32⟩
  | 82 => ⟨S1024x64, .f32⟩
  | 83 => ⟨S1024x64, .f32⟩
  | 84 => ⟨S1024x64, .f32⟩
  | 85 => ⟨S1024x64, .f32⟩
  | 86 => ⟨S1024x64, .f32⟩
  | 87 => ⟨S1024x64, .f32⟩
  | 88 => ⟨S1024x64, .f32⟩
  | 89 => ⟨S1024x64, .f32⟩
  | 90 => ⟨S1024x64, .f32⟩
  | 91 => ⟨S1024x256, .f32⟩
  | 92 => ⟨S1024x128, .f32⟩
  | 93 => ⟨S1024x128, .f32⟩
  | 94 => ⟨S1024x128, .f32⟩
  | 95 => ⟨S1024x128, .bf16⟩
  | 96 => ⟨S1024x40000, .f32⟩
  | _ => ⟨S1024x4, .i32⟩

abbrev hbmTy (i : Nat) : BufTy := match i / 128 with
  | 0 => hbmTy0_0 i
  | 1 => hbmTy0_1 i
  | _ => ⟨S1024x4, .i32⟩

abbrev bufTy : (tb : Table) → Fin (tcTables nBuf tb) → BufTy
  | .hbm, ⟨i, _⟩ => hbmTy i
  | .local _ .vmem, ⟨0, _⟩ => ⟨S1024x128, .bf16⟩
  | .local _ .vmem, ⟨1, _⟩ => ⟨S2560x128, .f32⟩
  | .local _ .vmem, ⟨2, _⟩ => ⟨S2560x128, .f32⟩
  | .local _ .vmem, ⟨3, _⟩ => ⟨S1024x2560, .f32⟩
  | .local _ .vmem, ⟨4, _⟩ => ⟨S1024x2560, .f32⟩
  | _, _ => ⟨S1024x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v6 : Ref sig .tc := ⟨.hbm, 34, rfl⟩
abbrev main_c_0 : Ref sig .tc := ⟨.hbm, 35, rfl⟩
abbrev main_v7 : Ref sig .tc := ⟨.hbm, 36, rfl⟩
abbrev main_v8 : Ref sig .tc := ⟨.hbm, 37, rfl⟩
abbrev main_c_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_c_2 : Ref sig .tc := ⟨.hbm, 44, rfl⟩
abbrev main_v14 : Ref sig .tc := ⟨.hbm, 45, rfl⟩
abbrev main_v15 : Ref sig .tc := ⟨.hbm, 46, rfl⟩
abbrev main_c_3 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_c_4 : Ref sig .tc := ⟨.hbm, 53, rfl⟩
abbrev main_v21 : Ref sig .tc := ⟨.hbm, 54, rfl⟩
abbrev main_v22 : Ref sig .tc := ⟨.hbm, 55, rfl⟩
abbrev main_c_5 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_c_6 : Ref sig .tc := ⟨.hbm, 62, rfl⟩
abbrev main_v28 : Ref sig .tc := ⟨.hbm, 63, rfl⟩
abbrev main_v29 : Ref sig .tc := ⟨.hbm, 64, rfl⟩
abbrev main_c_7 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_c_8 : Ref sig .tc := ⟨.hbm, 71, rfl⟩
abbrev main_v35 : Ref sig .tc := ⟨.hbm, 72, rfl⟩
abbrev main_v36 : Ref sig .tc := ⟨.hbm, 73, rfl⟩
abbrev main_c_9 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_c_10 : Ref sig .tc := ⟨.hbm, 81, rfl⟩
abbrev main_v43 : Ref sig .tc := ⟨.hbm, 82, rfl⟩
abbrev main_v44 : Ref sig .tc := ⟨.hbm, 83, rfl⟩
abbrev main_c_11 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_c_12 : Ref sig .tc := ⟨.hbm, 90, rfl⟩
abbrev main_v50 : Ref sig .tc := ⟨.hbm, 91, rfl⟩
abbrev main_v51 : Ref sig .tc := ⟨.hbm, 92, rfl⟩
abbrev main_c_13 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_c_14 : Ref sig .tc := ⟨.hbm, 100, rfl⟩
abbrev main_v58 : Ref sig .tc := ⟨.hbm, 101, rfl⟩
abbrev main_v59 : Ref sig .tc := ⟨.hbm, 102, rfl⟩
abbrev main_c_15 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_c_16 : Ref sig .tc := ⟨.hbm, 110, rfl⟩
abbrev main_v66 : Ref sig .tc := ⟨.hbm, 111, rfl⟩
abbrev main_v67 : Ref sig .tc := ⟨.hbm, 112, rfl⟩
abbrev main_c_17 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_c_18 : Ref sig .tc := ⟨.hbm, 130, rfl⟩
abbrev main_v84 : Ref sig .tc := ⟨.hbm, 131, rfl⟩
abbrev main_v85 : Ref sig .tc := ⟨.hbm, 132, rfl⟩
abbrev main_c_19 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_call1_v0 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2560x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S1024x4_S1024x1_0_0 : S1024x4.Slices ![0, 0] S1024x1
  shapeCasts_S1024x1_S1024 : S1024x1.ShapeCasts S1024
  slices_S1024x4_S1024x1_0_1 : S1024x4.Slices ![0, 1] S1024x1
  slices_S1024x4_S1024x1_0_3 : S1024x4.Slices ![0, 3] S1024x1
  bcast_S_S1024 : S_.BroadcastsInDim S1024 (![] : Fin 0 → Fin S1024.rank)
  bcast_S1024_S1024x1_0 : S1024.BroadcastsInDim S1024x1 (![0] : Fin 1 → Fin S1024x1.rank)
  slices_S1024x128_S1024x64_0_0 : S1024x128.Slices ![0, 0] S1024x64
  slices_S1024x128_S1024x64_0_64 : S1024x128.Slices ![0, 64] S1024x64
  concatenates_S1024x64_S1024x64_S1024x128_d1 : Shape.Concatenates [S1024x64, S1024x64] S1024x128 1
  bcast_S1024x1_S1024x128_0_1 : S1024x1.BroadcastsInDim S1024x128 (![0, 1] : Fin 2 → Fin S1024x128.rank)
  concatenates_S1024x128_S1024x128_S1024x256_d1 : Shape.Concatenates [S1024x128, S1024x128] S1024x256 1
  slices_S1024x256_S1024x64_0_0 : S1024x256.Slices ![0, 0] S1024x64
  slices_S1024x256_S1024x64_0_64 : S1024x256.Slices ![0, 64] S1024x64
  slices_S1024x256_S1024x64_0_128 : S1024x256.Slices ![0, 128] S1024x64
  slices_S1024x256_S1024x64_0_192 : S1024x256.Slices ![0, 192] S1024x64
  concatenates_S1024x64_S1024x64_S1024x64_S1024x64_S1024x256_d1 : Shape.Concatenates [S1024x64, S1024x64, S1024x64, S1024x64] S1024x256 1
  slices_S1024x256_S1024x128_0_0 : S1024x256.Slices ![0, 0] S1024x128
  slices_S1024x256_S1024x128_0_128 : S1024x256.Slices ![0, 128] S1024x128
  bitsLt_bf16_f32 : FTy.bits .bf16 < FTy.bits .f32
  inb_S2560x128_S2560x128_0_0 : ∀ a, (![0, 0] : Fin 2 → Nat) a + S2560x128.size a ≤ S2560x128.size a
  h_S2560x128 : 0 < S2560x128.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2560_S1024x2560_0_0 : ∀ a, (![0, 0] : Fin 2 → Nat) a + S1024x2560.size a ≤ S1024x2560.size a
  h_S1024x2560 : 0 < S1024x2560.numel
  gather_S40000x128_S1024x1_S1024x128_1_0_n_n_0_1_1128_wf : GatherDims.WF S40000x128 S1024x1 S1024x128 [1] [0] [] [0] [] 1 ![1, 128]
  gather_S230x128_S1024x1_S1024x128_1_0_n_n_0_1_1128_wf : GatherDims.WF S230x128 S1024x1 S1024x128 [1] [0] [] [0] [] 1 ![1, 128]
  gather_S365x128_S1024x1_S1024x128_1_0_n_n_0_1_1128_wf : GatherDims.WF S365x128 S1024x1 S1024x128 [1] [0] [] [0] [] 1 ![1, 128]
  gather_S4x128_S1024x1_S1024x128_1_0_n_n_0_1_1128_wf : GatherDims.WF S4x128 S1024x1 S1024x128 [1] [0] [] [0] [] 1 ![1, 128]
  gather_S230_S1024x1_S1024_n_0_n_n_0_1_1_wf : GatherDims.WF S230 S1024x1 S1024 [] [0] [] [0] [] 1 ![1]
  dot_S1024x128_S2560x128_S1024x2560_1_1_0_0_n_n_wf : DotDims.WF S1024x128 S2560x128 S1024x2560 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .bf16 = 32 ∨ (Rect.block (s := S1024x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2560x128.size a < S40000x128.size a
  hwx0_1 : ∀ i : grid0.Coords, EltTy.bits .f32 = 32 ∨ (Rect.unit (s := S40000x128) (fun a => cc0_transform_1 i a * S2560x128.size a) (fun a => (Pipeline.Clip.of (cc0_transform_1 i a) (S2560x128.size a) (S40000x128.size a)).extent (S2560x128.size a)) fun a => Pipeline.Clip.inb (Pipeline.Clip.ok_of (hstart0_1 i a))).WholeWords (EltTy.packing .f32)
  hwxs0_1 : ∀ i : grid0.Coords, EltTy.bits .f32 = 32 ∨ (Rect.unit (s := S2560x128) (fun _ => 0) (fun a => (Pipeline.Clip.of (cc0_transform_1 i a) (S2560x128.size a) (S40000x128.size a)).extent (S2560x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x2560.size a < S1024x40000.size a
  hwx0_2 : ∀ i : grid0.Coords, EltTy.bits .f32 = 32 ∨ (Rect.unit (s := S1024x40000) (fun a => cc0_transform_2 i a * S1024x2560.size a) (fun a => (Pipeline.Clip.of (cc0_transform_2 i a) (S1024x2560.size a) (S1024x40000.size a)).extent (S1024x2560.size a)) fun a => Pipeline.Clip.inb (Pipeline.Clip.ok_of (hstart0_2 i a))).WholeWords (EltTy.packing .f32)
  hwxs0_2 : ∀ i : grid0.Coords, EltTy.bits .f32 = 32 ∨ (Rect.unit (s := S1024x2560) (fun _ => 0) (fun a => (Pipeline.Clip.of (cc0_transform_2 i a) (S1024x2560.size a) (S1024x40000.size a)).extent (S1024x2560.size a)) fun a => (Nat.zero_add _).trans_le (Pipeline.Clip.extent_le (Pipeline.Clip.ok_of (hstart0_2 i a)))).WholeWords (EltTy.packing .f32)

variable [Facts₀]

def gather_S40000x128_S1024x1_S1024x128_1_0_n_n_0_1_1128 : GatherDims S40000x128 S1024x1 S1024x128 where
  offsetDims := [1]
  collapsedSliceDims := [0]
  operandBatchingDims := []
  startIndicesBatchingDims := []
  startIndexMap := [0]
  indexVectorDim := 1
  sliceSizes := ![1, 128]
  wf := gather_S40000x128_S1024x1_S1024x128_1_0_n_n_0_1_1128_wf
def gather_S230x128_S1024x1_S1024x128_1_0_n_n_0_1_1128 : GatherDims S230x128 S1024x1 S1024x128 where
  offsetDims := [1]
  collapsedSliceDims := [0]
  operandBatchingDims := []
  startIndicesBatchingDims := []
  startIndexMap := [0]
  indexVectorDim := 1
  sliceSizes := ![1, 128]
  wf := gather_S230x128_S1024x1_S1024x128_1_0_n_n_0_1_1128_wf
def gather_S365x128_S1024x1_S1024x128_1_0_n_n_0_1_1128 : GatherDims S365x128 S1024x1 S1024x128 where
  offsetDims := [1]
  collapsedSliceDims := [0]
  operandBatchingDims := []
  startIndicesBatchingDims := []
  startIndexMap := [0]
  indexVectorDim := 1
  sliceSizes := ![1, 128]
  wf := gather_S365x128_S1024x1_S1024x128_1_0_n_n_0_1_1128_wf
def gather_S4x128_S1024x1_S1024x128_1_0_n_n_0_1_1128 : GatherDims S4x128 S1024x1 S1024x128 where
  offsetDims := [1]
  collapsedSliceDims := [0]
  operandBatchingDims := []
  startIndicesBatchingDims := []
  startIndexMap := [0]
  indexVectorDim := 1
  sliceSizes := ![1, 128]
  wf := gather_S4x128_S1024x1_S1024x128_1_0_n_n_0_1_1128_wf
def gather_S230_S1024x1_S1024_n_0_n_n_0_1_1 : GatherDims S230 S1024x1 S1024 where
  offsetDims := []
  collapsedSliceDims := [0]
  operandBatchingDims := []
  startIndicesBatchingDims := []
  startIndexMap := [0]
  indexVectorDim := 1
  sliceSizes := ![1]
  wf := gather_S230_S1024x1_S1024_n_0_n_n_0_1_1_wf
def dot_S1024x128_S2560x128_S1024x2560_1_1_0_0_n_n : DotDims S1024x128 S2560x128 S1024x2560 where
  lhsContracting := [1]
  rhsContracting := [1]
  lhsNonContracting := [0]
  rhsNonContracting := [0]
  lhsBatch := []
  rhsBatch := []
  wf := dot_S1024x128_S2560x128_S1024x2560_1_1_0_0_n_n_wf

abbrev win0_0 : Pipeline.Window sig grid0 :=
  Pipeline.Window.ofSpec (Memref.whole main_v174) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S2560x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v175) S1024x2560.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x4 : Shape := ⟨2, ![1024, 4]⟩
abbrev S40000x128 : Shape := ⟨2, ![40000, 128]⟩
abbrev S230x128 : Shape := ⟨2, ![230, 128]⟩
abbrev S365x128 : Shape := ⟨2, ![365, 128]⟩
abbrev S4x128 : Shape := ⟨2, ![4, 128]⟩
abbrev S230 : Shape := ⟨1, ![230]⟩
abbrev S1024x1 : Shape := ⟨2, ![1024, 1]⟩
abbrev S1024 : Shape := ⟨1, ![1024]⟩
abbrev S_ : Shape := ⟨0, ![]⟩
abbrev S1024x128 : Shape := ⟨2, ![1024, 128]⟩
abbrev S1024x64 : Shape := ⟨2, ![1024, 64]⟩
abbrev S1024x256 : Shape := ⟨2, ![1024, 256]⟩
abbrev S128x40000 : Shape := ⟨2, ![128, 40000]⟩
abbrev S1024x40000 : Shape := ⟨2, ![1024, 40000]⟩

abbrev nBuf : Space → Nat
  | .hbm => 225
  | .vmem => 0
  | .smem => 0
  | _ => 0

abbrev hbmTy0_0 (i : Nat) : BufTy := match i % 128 with
  | 0 => ⟨S1024x4, .i32⟩
  | 1 => ⟨S40000x128, .f32⟩
  | 2 => ⟨S230x128, .f32⟩
  | 3 => ⟨S365x128, .f32⟩
  | 4 => ⟨S365x128, .f32⟩
  | 5 => ⟨S365x128, .f32⟩
  | 6 => ⟨S4x128, .f32⟩
  | 7 => ⟨S4x128, .f32⟩
  | 8 => ⟨S230x128, .f32⟩
  | 9 => ⟨S230, .f32⟩
  | 10 => ⟨S230, .i1⟩
  | 11 => ⟨S1024x1, .i32⟩
  | 12 => ⟨S1024, .i32⟩
  | 13 => ⟨S1024x1, .i32⟩
  | 14 => ⟨S1024, .i32⟩
  | 15 => ⟨S1024x1, .i32⟩
  | 16 => ⟨S1024, .i32⟩
  | 17 => ⟨S_, .i32⟩
  | 18 => ⟨S_, .i32⟩
  | 19 => ⟨S1024, .i32⟩
  | 20 => ⟨S1024, .i32⟩
  | 21 => ⟨S1024, .i32⟩
  | 22 => ⟨S_, .i32⟩
  | 23 => ⟨S1024, .i32⟩
  | 24 => ⟨S1024, .i1⟩
  | 25 => ⟨S1024, .i32⟩
  | 26 => ⟨S1024, .i32⟩
  | 27 => ⟨S_, .i32⟩
  | 28 => ⟨S1024, .i32⟩
  | 29 => ⟨S1024, .i1⟩
  | 30 => ⟨S1024, .i1⟩
  | 31 => ⟨S_, .i32⟩
  | 32 => ⟨S1024, .i32⟩
  | 33 => ⟨S1024, .i32⟩
  | 34 => ⟨S1024, .i32⟩
  | 35 => ⟨S_, .i32⟩
  | 36 => ⟨S1024, .i32⟩
  | 37 => ⟨S1024, .i1⟩
  | 38 => ⟨S_, .i32⟩
  | 39 => ⟨S1024, .i32⟩
  | 40 => ⟨S1024, .i32⟩
  | 41 => ⟨S1024, .i32⟩
  | 42 => ⟨S1024x1, .i32⟩
  | 43 => ⟨S1024x128, .f32⟩
  | 44 => ⟨S_, .i32⟩
  | 45 => ⟨S1024, .i32⟩
  | 46 => ⟨S1024, .i1⟩
  | 47 => ⟨S_, .i32⟩
  | 48 => ⟨S1024, .i32⟩
  | 49 => ⟨S1024, .i32⟩
  | 50 => ⟨S1024, .i32⟩
  | 51 => ⟨S1024x1, .i32⟩
  | 52 => ⟨S1024x128, .f32⟩
  | 53 => ⟨S_, .i32⟩
  | 54 => ⟨S1024, .i32⟩
  | 55 => ⟨S1024, .i1⟩
  | 56 => ⟨S_, .i32⟩
  | 57 => ⟨S1024, .i32⟩
  | 58 => ⟨S1024, .i32⟩
  | 59 => ⟨S1024, .i32⟩
  | 60 => ⟨S1024x1, .i32⟩
  | 61 => ⟨S1024x128, .f32⟩
  | 62 => ⟨S_, .i32⟩
  | 63 => ⟨S1024, .i32⟩
  | 64 => ⟨S1024, .i1⟩
  | 65 => ⟨S_, .i32⟩
  | 66 => ⟨S1024, .i32⟩
  | 67 => ⟨S1024, .i32⟩
  | 68 => ⟨S1024, .i32⟩
  | 69 => ⟨S1024x1, .i32⟩
  | 70 => ⟨S1024x128, .f32⟩
  | 71 => ⟨S_, .i32⟩
  | 72 => ⟨S1024, .i32⟩
  | 73 => ⟨S1024, .i1⟩
  | 74 => ⟨S_, .i32⟩
  | 75 => ⟨S1024, .i32⟩
  | 76 => ⟨S1024, .i32⟩
  | 77 => ⟨S1024, .i32⟩
  | 78 => ⟨S1024x1, .i32⟩
  | 79 => ⟨S1024x128, .f32⟩
  | 80 => ⟨S1024x128, .f32⟩
  | 81 => ⟨S_, .i32⟩
  | 82 => ⟨S1024, .i32⟩
  | 83 => ⟨S1024, .i1⟩
  | 84 => ⟨S_, .i32⟩
  | 85 => ⟨S1024, .i32⟩
  | 86 => ⟨S1024, .i32⟩
  | 87 => ⟨S1024, .i32⟩
  | 88 => ⟨S1024x1, .i32⟩
  | 89 => ⟨S1024x128, .f32⟩
  | 90 => ⟨S_, .i32⟩
  | 91 => ⟨S1024, .i32⟩
  | 92 => ⟨S1024, .i1⟩
  | 93 => ⟨S_, .i32⟩
  | 94 => ⟨S1024, .i32⟩
  | 95 => ⟨S1024, .i32⟩
  | 96 => ⟨S1024, .i32⟩
  | 97 => ⟨S1024x1, .i32⟩
  | 98 => ⟨S1024x128, .f32⟩
  | 99 => ⟨S1024x128, .f32⟩
  | 100 => ⟨S_, .i32⟩
  | 101 => ⟨S1024, .i32⟩
  | 102 => ⟨S1024, .i1⟩
  | 103 => ⟨S_, .i32⟩
  | 104 => ⟨S1024, .i32⟩
  | 105 => ⟨S1024, .i32⟩
  | 106 => ⟨S1024, .i32⟩
  | 107 => ⟨S1024x1, .i32⟩
  | 108 => ⟨S1024, .i1⟩
  | 109 => ⟨S1024x1, .i1⟩
  | 110 => ⟨S_, .i32⟩
  | 111 => ⟨S1024, .i32⟩
  | 112 => ⟨S1024, .i1⟩
  | 113 => ⟨S_, .i32⟩
  | 114 => ⟨S1024, .i32⟩
  | 115 => ⟨S1024, .i32⟩
  | 116 => ⟨S1024, .i32⟩
  | 117 => ⟨S1024x1, .i32⟩
  | 118 => ⟨S1024x128, .f32⟩
  | 119 => ⟨S1024x64, .f32⟩
  | 120 => ⟨S1024x64, .f32⟩
  | 121 => ⟨S1024x64, .f32⟩
  | 122 => ⟨S1024x64, .f32⟩
  | 123 => ⟨S1024x64, .f32⟩
  | 124 => ⟨S1024x64, .f32⟩
  | 125 => ⟨S1024x64, .f32⟩
  | 126 => ⟨S1024x64, .f32⟩
  | 127 => ⟨S1024x64, .f32⟩
  | _ => ⟨S1024x4, .i32⟩

abbrev hbmTy0_1 (i : Nat) : BufTy := match i % 128 with
  | 0 => ⟨S1024x64, .f32⟩
  | 1 => ⟨S1024x128, .f32⟩
  | 2 => ⟨S_, .i32⟩
  | 3 => ⟨S1024, .i32⟩
  | 4 => ⟨S1024, .i1⟩
  | 5 => ⟨S_, .i32⟩
  | 6 => ⟨S1024, .i32⟩
  | 7 => ⟨S1024, .i32⟩
  | 8 => ⟨S1024, .i32⟩
  | 9 => ⟨S1024x1, .i32⟩
  | 10 => ⟨S1024, .f32⟩
  | 11 => ⟨S1024x1, .f32⟩
  | 12 => ⟨S1024x128, .f32⟩
  | 13 => ⟨S1024x128, .f32⟩
  | 14 => ⟨S1024x128, .f32⟩
  | 15 => ⟨S1024x64, .f32⟩
  | 16 => ⟨S1024x64, .f32⟩
  | 17 => ⟨S1024x64, .f32⟩
  | 18 => ⟨S1024x64, .f32⟩
  | 19 => ⟨S1024x64, .f32⟩
  | 20 => ⟨S1024x64, .f32⟩
  | 21 => ⟨S1024x64, .f32⟩
  | 22 => ⟨S1024x64, .f32⟩
  | 23 => ⟨S1024x64, .f32⟩
  | 24 => ⟨S1024x64, .f32⟩
  | 25 => ⟨S1024x128, .f32⟩
  | 26 => ⟨S1024x128, .f32⟩
  | 27 => ⟨S1024x128, .i1⟩
  | 28 => ⟨S1024x128, .f32⟩
  | 29 => ⟨S1024x64, .f32⟩
  | 30 => ⟨S1024x64, .f32⟩
  | 31 => ⟨S1024x64, .f32⟩
  | 32 => ⟨S1024x64, .f32⟩
  | 33 => ⟨S1024x64, .f32⟩
  | 34 => ⟨S1024x64, .f32⟩
  | 35 => ⟨S1024x64, .f32⟩
  | 36 => ⟨S1024x64, .f32⟩
  | 37 => ⟨S1024x64, .f32⟩
  | 38 => ⟨S1024x64, .f32⟩
  | 39 => ⟨S1024x128, .f32⟩
  | 40 => ⟨S1024x128, .f32⟩
  | 41 => ⟨S1024x64, .f32⟩
  | 42 => ⟨S1024x64, .f32⟩
  | 43 => ⟨S1024x64, .f32⟩
  | 44 => ⟨S1024x64, .f32⟩
  | 45 => ⟨S1024x64, .f32⟩
  | 46 => ⟨S1024x64, .f32⟩
  | 47 => ⟨S1024x64, .f32⟩
  | 48 => ⟨S1024x64, .f32⟩
  | 49 => ⟨S1024x64, .f32⟩
  | 50 => ⟨S1024x64, .f32⟩
  | 51 => ⟨S1024x128, .f32⟩
  | 52 => ⟨S1024x128, .f32⟩
  | 53 => ⟨S1024x256, .f32⟩
  | 54 => ⟨S1024x256, .f32⟩
  | 55 => ⟨S1024x64, .f32⟩
  | 56 => ⟨S1024x64, .f32⟩
  | 57 => ⟨S1024x64, .f32⟩
  | 58 => ⟨S1024x64, .f32⟩
  | 59 => ⟨S1024x64, .f32⟩
  | 60 => ⟨S1024x64, .f32⟩
  | 61 => ⟨S1024x64, .f32⟩
  | 62 => ⟨S1024x64, .f32⟩
  | 63 => ⟨S1024x64, .f32⟩
  | 64 => ⟨S1024x64, .f32⟩
  | 65 => ⟨S1024x64, .f32⟩
  | 66 => ⟨S1024x64, .f32⟩
  | 67 => ⟨S1024x64, .f32⟩
  | 68 => ⟨S1024x64, .f32⟩
  | 69 => ⟨S1024x64, .f32⟩
  | 70 => ⟨S1024x64, .f32⟩
  | 71 => ⟨S1024x64, .f32⟩
  | 72 => ⟨S1024x64, .f32⟩
  | 73 => ⟨S1024x64, .f32⟩
  | 74 => ⟨S1024x64, .f32⟩
  | 75 => ⟨S1024x64, .f32⟩
  | 76 => ⟨S1024x64, .f32⟩
  | 77 => ⟨S1024x64, .f32⟩
  | 78 => ⟨S1024x64, .f32⟩
  | 79 => ⟨S1024x64, .f32⟩
  | 80 => ⟨S1024x64, .f32⟩
  | 81 => ⟨S1024x64, .f32⟩
  | 82 => ⟨S1024x64, .f32⟩
  | 83 => ⟨S1024x64, .f32⟩
  | 84 => ⟨S1024x64, .f32⟩
  | 85 => ⟨S1024x64, .f32⟩
  | 86 => ⟨S1024x64, .f32⟩
  | 87 => ⟨S1024x64, .f32⟩
  | 88 => ⟨S1024x64, .f32⟩
  | 89 => ⟨S1024x64, .f32⟩
  | 90 => ⟨S1024x64, .f32⟩
  | 91 => ⟨S1024x256, .f32⟩
  | 92 => ⟨S1024x128, .f32⟩
  | 93 => ⟨S1024x128, .f32⟩
  | 94 => ⟨S1024x128, .f32⟩
  | 95 => ⟨S128x40000, .f32⟩
  | 96 => ⟨S1024x40000, .f32⟩
  | _ => ⟨S1024x4, .i32⟩

abbrev hbmTy (i : Nat) : BufTy := match i / 128 with
  | 0 => hbmTy0_0 i
  | 1 => hbmTy0_1 i
  | _ => ⟨S1024x4, .i32⟩

abbrev bufTy : (tb : Table) → Fin (tcTables nBuf tb) → BufTy
  | .hbm, ⟨i, _⟩ => hbmTy i
  | _, _ => ⟨S1024x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v6 : Ref sig .tc := ⟨.hbm, 34, rfl⟩
abbrev main_c_0 : Ref sig .tc := ⟨.hbm, 35, rfl⟩
abbrev main_v7 : Ref sig .tc := ⟨.hbm, 36, rfl⟩
abbrev main_v8 : Ref sig .tc := ⟨.hbm, 37, rfl⟩
abbrev main_c_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_c_2 : Ref sig .tc := ⟨.hbm, 44, rfl⟩
abbrev main_v14 : Ref sig .tc := ⟨.hbm, 45, rfl⟩
abbrev main_v15 : Ref sig .tc := ⟨.hbm, 46, rfl⟩
abbrev main_c_3 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_c_4 : Ref sig .tc := ⟨.hbm, 53, rfl⟩
abbrev main_v21 : Ref sig .tc := ⟨.hbm, 54, rfl⟩
abbrev main_v22 : Ref sig .tc := ⟨.hbm, 55, rfl⟩
abbrev main_c_5 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_c_6 : Ref sig .tc := ⟨.hbm, 62, rfl⟩
abbrev main_v28 : Ref sig .tc := ⟨.hbm, 63, rfl⟩
abbrev main_v29 : Ref sig .tc := ⟨.hbm, 64, rfl⟩
abbrev main_c_7 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_c_8 : Ref sig .tc := ⟨.hbm, 71, rfl⟩
abbrev main_v35 : Ref sig .tc := ⟨.hbm, 72, rfl⟩
abbrev main_v36 : Ref sig .tc := ⟨.hbm, 73, rfl⟩
abbrev main_c_9 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_c_10 : Ref sig .tc := ⟨.hbm, 81, rfl⟩
abbrev main_v43 : Ref sig .tc := ⟨.hbm, 82, rfl⟩
abbrev main_v44 : Ref sig .tc := ⟨.hbm, 83, rfl⟩
abbrev main_c_11 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_c_12 : Ref sig .tc := ⟨.hbm, 90, rfl⟩
abbrev main_v50 : Ref sig .tc := ⟨.hbm, 91, rfl⟩
abbrev main_v51 : Ref sig .tc := ⟨.hbm, 92, rfl⟩
abbrev main_c_13 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_c_14 : Ref sig .tc := ⟨.hbm, 100, rfl⟩
abbrev main_v58 : Ref sig .tc := ⟨.hbm, 101, rfl⟩
abbrev main_v59 : Ref sig .tc := ⟨.hbm, 102, rfl⟩
abbrev main_c_15 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_c_16 : Ref sig .tc := ⟨.hbm, 110, rfl⟩
abbrev main_v66 : Ref sig .tc := ⟨.hbm, 111, rfl⟩
abbrev main_v67 : Ref sig .tc := ⟨.hbm, 112, rfl⟩
abbrev main_c_17 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_c_18 : Ref sig .tc := ⟨.hbm, 130, rfl⟩
abbrev main_v84 : Ref sig .tc := ⟨.hbm, 131, rfl⟩
abbrev main_v85 : Ref sig .tc := ⟨.hbm, 132, rfl⟩
abbrev main_c_19 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_call1_v0 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩

abbrev nD : Nat := 1
abbrev τ : Topo := Topo.v7x

variable {F : FTy → Type} [FloatOps F]

class Facts₀ : Prop where
  slices_S1024x4_S1024x1_0_0 : S1024x4.Slices ![0, 0] S1024x1
  shapeCasts_S1024x1_S1024 : S1024x1.ShapeCasts S1024
  slices_S1024x4_S1024x1_0_1 : S1024x4.Slices ![0, 1] S1024x1
  slices_S1024x4_S1024x1_0_3 : S1024x4.Slices ![0, 3] S1024x1
  bcast_S_S1024 : S_.BroadcastsInDim S1024 (![] : Fin 0 → Fin S1024.rank)
  bcast_S1024_S1024x1_0 : S1024.BroadcastsInDim S1024x1 (![0] : Fin 1 → Fin S1024x1.rank)
  slices_S1024x128_S1024x64_0_0 : S1024x128.Slices ![0, 0] S1024x64
  slices_S1024x128_S1024x64_0_64 : S1024x128.Slices ![0, 64] S1024x64
  concatenates_S1024x64_S1024x64_S1024x128_d1 : Shape.Concatenates [S1024x64, S1024x64] S1024x128 1
  bcast_S1024x1_S1024x128_0_1 : S1024x1.BroadcastsInDim S1024x128 (![0, 1] : Fin 2 → Fin S1024x128.rank)
  concatenates_S1024x128_S1024x128_S1024x256_d1 : Shape.Concatenates [S1024x128, S1024x128] S1024x256 1
  slices_S1024x256_S1024x64_0_0 : S1024x256.Slices ![0, 0] S1024x64
  slices_S1024x256_S1024x64_0_64 : S1024x256.Slices ![0, 64] S1024x64
  slices_S1024x256_S1024x64_0_128 : S1024x256.Slices ![0, 128] S1024x64
  slices_S1024x256_S1024x64_0_192 : S1024x256.Slices ![0, 192] S1024x64
  concatenates_S1024x64_S1024x64_S1024x64_S1024x64_S1024x256_d1 : Shape.Concatenates [S1024x64, S1024x64, S1024x64, S1024x64] S1024x256 1
  slices_S1024x256_S1024x128_0_0 : S1024x256.Slices ![0, 0] S1024x128
  slices_S1024x256_S1024x128_0_128 : S1024x256.Slices ![0, 128] S1024x128
  transposes_S40000x128_S128x40000_1_0 : S40000x128.Transposes [1, 0] S128x40000
  gather_S40000x128_S1024x1_S1024x128_1_0_n_n_0_1_1128_wf : GatherDims.WF S40000x128 S1024x1 S1024x128 [1] [0] [] [0] [] 1 ![1, 128]
  gather_S230x128_S1024x1_S1024x128_1_0_n_n_0_1_1128_wf : GatherDims.WF S230x128 S1024x1 S1024x128 [1] [0] [] [0] [] 1 ![1, 128]
  gather_S365x128_S1024x1_S1024x128_1_0_n_n_0_1_1128_wf : GatherDims.WF S365x128 S1024x1 S1024x128 [1] [0] [] [0] [] 1 ![1, 128]
  gather_S4x128_S1024x1_S1024x128_1_0_n_n_0_1_1128_wf : GatherDims.WF S4x128 S1024x1 S1024x128 [1] [0] [] [0] [] 1 ![1, 128]
  gather_S230_S1024x1_S1024_n_0_n_n_0_1_1_wf : GatherDims.WF S230 S1024x1 S1024 [] [0] [] [0] [] 1 ![1]
  dot_S1024x128_S128x40000_S1024x40000_1_0_0_1_n_n_wf : DotDims.WF S1024x128 S128x40000 S1024x40000 [1] [0] [0] [1] [] []

variable [Facts₀]

def gather_S40000x128_S1024x1_S1024x128_1_0_n_n_0_1_1128 : GatherDims S40000x128 S1024x1 S1024x128 where
  offsetDims := [1]
  collapsedSliceDims := [0]
  operandBatchingDims := []
  startIndicesBatchingDims := []
  startIndexMap := [0]
  indexVectorDim := 1
  sliceSizes := ![1, 128]
  wf := gather_S40000x128_S1024x1_S1024x128_1_0_n_n_0_1_1128_wf
def gather_S230x128_S1024x1_S1024x128_1_0_n_n_0_1_1128 : GatherDims S230x128 S1024x1 S1024x128 where
  offsetDims := [1]
  collapsedSliceDims := [0]
  operandBatchingDims := []
  startIndicesBatchingDims := []
  startIndexMap := [0]
  indexVectorDim := 1
  sliceSizes := ![1, 128]
  wf := gather_S230x128_S1024x1_S1024x128_1_0_n_n_0_1_1128_wf
def gather_S365x128_S1024x1_S1024x128_1_0_n_n_0_1_1128 : GatherDims S365x128 S1024x1 S1024x128 where
  offsetDims := [1]
  collapsedSliceDims := [0]
  operandBatchingDims := []
  startIndicesBatchingDims := []
  startIndexMap := [0]
  indexVectorDim := 1
  sliceSizes := ![1, 128]
  wf := gather_S365x128_S1024x1_S1024x128_1_0_n_n_0_1_1128_wf
def gather_S4x128_S1024x1_S1024x128_1_0_n_n_0_1_1128 : GatherDims S4x128 S1024x1 S1024x128 where
  offsetDims := [1]
  collapsedSliceDims := [0]
  operandBatchingDims := []
  startIndicesBatchingDims := []
  startIndexMap := [0]
  indexVectorDim := 1
  sliceSizes := ![1, 128]
  wf := gather_S4x128_S1024x1_S1024x128_1_0_n_n_0_1_1128_wf
def gather_S230_S1024x1_S1024_n_0_n_n_0_1_1 : GatherDims S230 S1024x1 S1024 where
  offsetDims := []
  collapsedSliceDims := [0]
  operandBatchingDims := []
  startIndicesBatchingDims := []
  startIndexMap := [0]
  indexVectorDim := 1
  sliceSizes := ![1]
  wf := gather_S230_S1024x1_S1024_n_0_n_n_0_1_1_wf
def dot_S1024x128_S128x40000_S1024x40000_1_0_0_1_n_n : DotDims S1024x128 S128x40000 S1024x40000 where
  lhsContracting := [1]
  rhsContracting := [0]
  lhsNonContracting := [0]
  rhsNonContracting := [1]
  lhsBatch := []
  rhsBatch := []
  wf := dot_S1024x128_S128x40000_S1024x40000_1_0_0_1_n_n_wf

class Facts : Prop extends Facts₀ where

variable [Facts]
-- ==== Proof.KernelEntry.lean ====
/-
  The word-level program up to its one region: what every buffer of a core holds when the
  region is entered (the host lines run in order from the launch contents), that the program is those
  lines followed by the region, and that no host line writes an argument array.
-/
import proofs.«108893_j7421703488266_2_alg».proof.Proof.Gen.Kernel.Launch
import proofs.«108893_j7421703488266_2_alg».proof.Proof.Gen.Kernel.Skeleton
import proofs.«108893_j7421703488266_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Entry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The host lines before the region, all of them, in order. -/
abbrev allOps : List (HloOp τ sig (Elt F)) := List.flatten [hostOps0, hostOps0_1, hostOps0_2, hostOps0_3, hostOps0_4]

/-- Core `c`'s buffers when the region is entered. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 40000000 in
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
set_option maxHeartbeats 40000000 in
theorem hostOps0_4_fresh : (hostOps0_4 : List (HloOp τ sig (Elt F))).Forall fun op => op.fresh = ∅ := by
  simp only [List.Forall]; repeat' constructor

/-- The program is the host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

end Cert.Kernel.Entry

end
-- ==== Proof.KernelBody.lean ====
/-
  The kernel body on its three staging buffers: it loads the whole tile of table rows and the whole block of
  left rows, and stores their product (each left row against each table row, contracted over the last axis)
  over the whole result buffer; the two input buffers are left as found.
-/
import proofs.«108893_j7421703488266_2_alg».proof.Proof.KernelEntry
import Idealize.ShloMosaic.Lib.Pipeline.Kit
import Idealize.ShloMosaic.Lib.Tactic

noncomputable section

namespace Cert.Kernel.Body

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel's variants: none. -/
abbrev 𝒱₀ : Variants := Variants.none

/-- The body at whichever staging buffers the point uses: from the three buffers at contents `X0` (left rows),
    `X1` (table rows), `X2` (result, anything) it ends with the first two unchanged and the result buffer
    holding the product of `X0` and `X1`. -/
theorem sound_body (c : Dev nD) (E : Set ℕ) (i : grid0.Coords) (s0 : Fin 1) (s1 : Fin 2) (s2 : Fin 2)
    (X0 : S1024x128.Idx → Elt F .bf16) (X1 : S2560x128.Idx → Elt F .f32) (X2 : S1024x2560.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 X1 X0)) -∗ K ⟨⟩))
      ⊢ wp frame (wpE (defs₀ (F := F)) 𝒱₀ c none) E
          (cc0__matmul_kernel i (stage0_0 s0) (hstage0_0 s0) (stage0_1 s1) (hstage0_1 s1) (stage0_2 s2) (hstage0_2 s2)) K := by
  have hz : (![0, 0] : Fin 2 → Nat) = fun _ => 0 := funext fun a => by fin_cases a <;> rfl
  fin_cases s0 <;> fin_cases s1 <;> fin_cases s2
  · have hr0 : (Memref.whole cc0_stg0_0 : Memref sig .tc _ _ _).view.readAt (Elt F) (Rect.unit (s := S1024x128) ![0, 0] S1024x128.size
        inb_S1024x128_S1024x128_0_0).toLoadRect = id := funext (Memref.readAt_unit_zero (Elt F) cc0_stg0_0 hz _)
    have hr1 : (Memref.whole cc0_stg1_0 : Memref sig .tc _ _ _).view.readAt (Elt F) (Rect.unit (s := S2560x128) ![0, 0] S2560x128.size
        inb_S2560x128_S2560x128_0_0).toLoadRect = id := funext (Memref.readAt_unit_zero (Elt F) cc0_stg1_0 hz _)
    have hw2 : ∀ f w, (((Memref.whole cc0_stg2_0).access (Rect.unit (s := S1024x2560) ![0, 0] S1024x2560.size inb_S1024x2560_S1024x2560_0_0)) :
        View sig .tc _ _ _).write (Elt F) f w Finset.univ = w := Memref.write_access_unit_zero_univ (Elt F) cc0_stg2_0 hz _
    simp only [owns_whole_eq, cc0__matmul_kernel_eq_skeleton]; unfold cc0__matmul_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f1 f0; isplitr; · ipureintro; rw [hf0, hf1]
      iexact H2
  · have hr0 : (Memref.whole cc0_stg0_0 : Memref sig .tc _ _ _).view.readAt (Elt F) (Rect.unit (s := S1024x128) ![0, 0] S1024x128.size
        inb_S1024x128_S1024x128_0_0).toLoadRect = id := funext (Memref.readAt_unit_zero (Elt F) cc0_stg0_0 hz _)
    have hr1 : (Memref.whole cc0_stg1_0 : Memref sig .tc _ _ _).view.readAt (Elt F) (Rect.unit (s := S2560x128) ![0, 0] S2560x128.size
        inb_S2560x128_S2560x128_0_0).toLoadRect = id := funext (Memref.readAt_unit_zero (Elt F) cc0_stg1_0 hz _)
    have hw2 : ∀ f w, (((Memref.whole cc0_stg2_1).access (Rect.unit (s := S1024x2560) ![0, 0] S1024x2560.size inb_S1024x2560_S1024x2560_0_0)) :
        View sig .tc _ _ _).write (Elt F) f w Finset.univ = w := Memref.write_access_unit_zero_univ (Elt F) cc0_stg2_1 hz _
    simp only [owns_whole_eq, cc0__matmul_kernel_eq_skeleton]; unfold cc0__matmul_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f1 f0; isplitr; · ipureintro; rw [hf0, hf1]
      iexact H2
  · have hr0 : (Memref.whole cc0_stg0_0 : Memref sig .tc _ _ _).view.readAt (Elt F) (Rect.unit (s := S1024x128) ![0, 0] S1024x128.size
        inb_S1024x128_S1024x128_0_0).toLoadRect = id := funext (Memref.readAt_unit_zero (Elt F) cc0_stg0_0 hz _)
    have hr1 : (Memref.whole cc0_stg1_1 : Memref sig .tc _ _ _).view.readAt (Elt F) (Rect.unit (s := S2560x128) ![0, 0] S2560x128.size
        inb_S2560x128_S2560x128_0_0).toLoadRect = id := funext (Memref.readAt_unit_zero (Elt F) cc0_stg1_1 hz _)
    have hw2 : ∀ f w, (((Memref.whole cc0_stg2_0).access (Rect.unit (s := S1024x2560) ![0, 0] S1024x2560.size inb_S1024x2560_S1024x2560_0_0)) :
        View sig .tc _ _ _).write (Elt F) f w Finset.univ = w := Memref.write_access_unit_zero_univ (Elt F) cc0_stg2_0 hz _
    simp only [owns_whole_eq, cc0__matmul_kernel_eq_skeleton]; unfold cc0__matmul_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f1 f0; isplitr; · ipureintro; rw [hf0, hf1]
      iexact H2
  · have hr0 : (Memref.whole cc0_stg0_0 : Memref sig .tc _ _ _).view.readAt (Elt F) (Rect.unit (s := S1024x128) ![0, 0] S1024x128.size
        inb_S1024x128_S1024x128_0_0).toLoadRect = id := funext (Memref.readAt_unit_zero (Elt F) cc0_stg0_0 hz _)
    have hr1 : (Memref.whole cc0_stg1_1 : Memref sig .tc _ _ _).view.readAt (Elt F) (Rect.unit (s := S2560x128) ![0, 0] S2560x128.size
        inb_S2560x128_S2560x128_0_0).toLoadRect = id := funext (Memref.readAt_unit_zero (Elt F) cc0_stg1_1 hz _)
    have hw2 : ∀ f w, (((Memref.whole cc0_stg2_1).access (Rect.unit (s := S1024x2560) ![0, 0] S1024x2560.size inb_S1024x2560_S1024x2560_0_0)) :
        View sig .tc _ _ _).write (Elt F) f w Finset.univ = w := Memref.write_access_unit_zero_univ (Elt F) cc0_stg2_1 hz _
    simp only [owns_whole_eq, cc0__matmul_kernel_eq_skeleton]; unfold cc0__matmul_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f1 f0; isplitr; · ipureintro; rw [hf0, hf1]
      iexact H2

end Cert.Kernel.Body

end
-- ==== Proof.KernelArgs.lean ====
/-
  No host line before the region writes an argument array: the region finds each as it was launched.
-/
import proofs.«108893_j7421703488266_2_alg».proof.Proof.KernelEntry

set_option maxRecDepth 16384

noncomputable section

namespace Cert.Kernel.Entry

open Cert.Kernel Cert.Kernel.Gen
open Idealize.ShloMosaic Idealize.ShloMosaic.TcCoe Idealize.ShloMosaic.Tactic
open Idealize.SL Idealize.SL.Sem

variable {F : FTy → Type} [FloatOps F]

variable (m : (ℓ : Loc nD τ sig) → Buf (Elt F) ℓ)

set_option maxHeartbeats 4000000 in
/-- Argument 0 is as launched when the region is entered. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- Argument 1 is as launched when the region is entered. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- Argument 2 is as launched when the region is entered. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- Argument 3 is as launched when the region is entered. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- Argument 4 is as launched when the region is entered. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- Argument 5 is as launched when the region is entered. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- Argument 6 is as launched when the region is entered. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- Argument 7 is as launched when the region is entered. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- Argument 8 is as launched when the region is entered. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- Argument 9 is as launched when the region is entered. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- Argument 10 is as launched when the region is entered. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.Kernel.Entry

end
-- ==== Proof.KernelData.lean ====
/-
  The proof data of the one region. The left rows' block is the whole array and stays in its buffer; a tile of
  table rows is fetched at every point, its part inside the table named and the rest of the buffer (the last
  tile overhangs the table) left to words nothing names; the result's buffer after the body is a parameter
  `o`. Two body obligations follow from the body's triple: one that forgets the result window (enough to
  know the program runs and leaves its arguments alone), and one that names it, given that the product's part
  inside the result array is `o`'s.
-/
import proofs.«108893_j7421703488266_2_alg».proof.Proof.KernelBody
import proofs.«108893_j7421703488266_2_alg».proof.Proof.KernelArgs

noncomputable section

namespace Cert.Kernel.Body

open Cert.Kernel Cert.Kernel.Gen Cert.Kernel.Entry

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, its part inside the array, read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data, the result buffer's contents after the body a parameter. -/
def dats (o : Fin cfg0.N → S1024x2560.Idx → Elt F .f32) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (iblk m c 1 t)
    | ⟨2, _⟩ => o t
  Φ _ := Pipeline.ΦA spec0 c
  q _ := fullShare
  owed _ := 0

variable (o : Fin cfg0.N → S1024x2560.Idx → Elt F .f32)

/-- The left rows' buffer holds the whole array at every point (fetched at the first, kept after). -/
theorem before_0 (c : Dev nD) (t : Fin cfg0.N) (d) : (dats m o 0 c).before (0 : Fin 3) t d = iblk m c 0 t :=
  ((dats m o 0 c).before_in_eq_fetched 0 rfl (fun _ => rfl) (fun _ _ _ => rfl) (fun t => rfl) t d).trans rfl

/-- The table rows' buffer is fetched at every point: the tile's part inside the table, `d` past it. -/
theorem before_1 (c : Dev nD) (t : Fin cfg0.N) (d) :
    (dats m o 0 c).before (1 : Fin 3) t d = win0_1.fill (grid0.coords t) d (iblk m c 1 t) := by
  unfold Dat.before; rw [if_pos (fetch0_1 t)]; rfl

/-- Which windows the frame forgets: the result's. -/
abbrev fgt2 : Fin cfg0.W → Bool := fun | 0 => false | 1 => false | 2 => true | ⟨_ + 3, h⟩ => absurd h (Nat.not_lt.2 (Nat.le_add_left _ _))

/-- The body obligation with the result window forgotten. -/
theorem obligation_forget (c : Dev nD) : BodyObligationLoose (dats m o 0 c) (defs₀ (F := F)) 𝒱₀ () Set.univ fgt2 := fun t => by
  rw [bigSep_W0, bigSep_W0]
  simp only
  rw [show (dats m o 0 c).Φ t.succ = (dats m o 0 c).Φ t.castSucc from rfl,
    show (dats m o 0 c).owesAt () t.succ = (dats m o 0 c).owesAt () t.castSucc from rfl]
  iintro ⟨HΦ, Ho, ⟨%d0, H0⟩, ⟨%d1, H1⟩, ⟨%X2, H2⟩⟩
  rw [before_0 m o c t d0, before_1 m o c t d1]
  iapply (sound_body (F := F) c Set.univ (grid0.coords t) (cfg0.slots t 0) (cfg0.slots t 1) (cfg0.slots t 2)
    (iblk m c 0 t) (win0_1.fill (grid0.coords t) d1 (iblk m c 1 t)) X2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have h1 : win0_1.cut (grid0.coords t) (win0_1.fill (grid0.coords t) (fun _ => Scalar.ofBits .f32 0#32) (iblk m c 1 t)) = iblk m c 1 t :=
    win0_1.cut_fill _ _ _
  isplitl [H0]
  · iexact H0
  isplitl [H1]
  · iexists d1
    change _ ⊢ owns (c : Thread nD τ) (stage0_1 (cfg0.slots t 1)) fullShare (win0_1.fill (grid0.coords t) d1 (win0_1.cut (grid0.coords t) (win0_1.fill (grid0.coords t) (fun _ => Scalar.ofBits .f32 0#32) (iblk m c 1 t))))
    rw [h1]; try iexact H1
  · iexists _; iexact H2

end Cert.Kernel.Body

end
-- ==== Proof.KernelRun.lean ====
/-
  The program runs: every weakly fair execution terminates, faults nowhere, and every argument array ends as it
  was launched — from the region's run with the result window forgotten.
-/
import proofs.«108893_j7421703488266_2_alg».proof.Proof.KernelData

noncomputable section

namespace Cert.Kernel.Body

open Cert.Kernel Cert.Kernel.Gen Cert.Kernel.Entry

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe)

variable {F : FTy → Type} [FloatOps F]

variable (m : (ℓ : Loc nD τ sig) → Buf (Elt F) ℓ) (ρ : Dev nD → PrngReg)

/-- Any contents for the forgotten result buffer. -/
def o₀ : Fin cfg0.N → S1024x2560.Idx → Elt F .f32 := fun _ _ => Scalar.ofBits .f32 0#32

set_option backward.isDefEq.respectTransparency.types false in
/-- The run with the result window forgotten. -/
theorem run_forget : θ_run defs (onTc (τ := τ) (main (F := F))) (s₀ m ρ)
    (RDat.FramePost cfg0 (fun c => (dats m o₀ 0 c).toRForget fgt2) (V m)) :=
  RDat.θ_run_frame cfgs (0 : Fin 1) launch0 defs₀ 𝒱₀ (fun c => (dats m o₀ 0 c).toRForget fgt2) m ρ main
    (fun c => (obligation_forget m o₀ c).toRForget)
    (fun c => (dats m o₀ 0 c).share_full fun _ => rfl) (fun _ _ => rfl)
    (V m) (hmain m 𝒱₀) (fun _ _ => rfl) (fun _ _ => rfl)

/-- The frame: the program runs and leaves its eleven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
    ((h c).2 main_arg0 (Pipeline.mem_restRefs_of main_arg0 (by decide) (by decide))).trans (V_main_arg0 m c),
    (((dats m o₀ 0 c).toRForget_arrAt_iff (fgt := fgt2) (w := (1 : Fin 3)) rfl _ _).mp ((h c).1 1)).trans (((dats m o₀ 0 c).arrAt_in 1 rfl _).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩) (run_forget m ρ)

end Cert.Kernel.Body

end
-- ==== Proof.KernelIdealEntry.lean ====
/-
  The idealized program up to its one region: what every buffer of a core holds when the
  region is entered (the host lines run in order from the launch contents), that the program is those
  lines followed by the region, and that no host line writes an argument array.
-/
import proofs.«108893_j7421703488266_2_alg».proof.Proof.Gen.KernelIdeal.Launch
import proofs.«108893_j7421703488266_2_alg».proof.Proof.Gen.KernelIdeal.Skeleton
import proofs.«108893_j7421703488266_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The host lines before the region, all of them, in order. -/
abbrev allOps : List (HloOp τ sig (Elt F)) := List.flatten [hostOps0, hostOps0_1, hostOps0_2, hostOps0_3, hostOps0_4]

/-- Core `c`'s buffers when the region is entered. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 40000000 in
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
set_option maxHeartbeats 40000000 in
theorem hostOps0_4_fresh : (hostOps0_4 : List (HloOp τ sig (Elt F))).Forall fun op => op.fresh = ∅ := by
  simp only [List.Forall]; repeat' constructor

/-- The program is the host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

end Cert.KernelIdeal.Entry

end
-- ==== Proof.KernelIdealBody.lean ====
/-
  The kernel body on its three staging buffers: it loads the whole tile of table rows and the whole block of
  left rows, and stores their product (each left row against each table row, contracted over the last axis)
  over the whole result buffer; the two input buffers are left as found.
-/
import proofs.«108893_j7421703488266_2_alg».proof.Proof.KernelIdealEntry
import Idealize.ShloMosaic.Lib.Pipeline.Kit
import Idealize.ShloMosaic.Lib.Tactic

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel's variants: none. -/
abbrev 𝒱₀ : Variants := Variants.none

/-- The body at whichever staging buffers the point uses: from the three buffers at contents `X0` (left rows),
    `X1` (table rows), `X2` (result, anything) it ends with the first two unchanged and the result buffer
    holding the product of `X0` and `X1`. -/
theorem sound_body (c : Dev nD) (E : Set ℕ) (i : grid0.Coords) (s0 : Fin 1) (s1 : Fin 2) (s2 : Fin 2)
    (X0 : S1024x128.Idx → Elt F .bf16) (X1 : S2560x128.Idx → Elt F .f32) (X2 : S1024x2560.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 X1 X0)) -∗ K ⟨⟩))
      ⊢ wp frame (wpE (defs₀ (F := F)) 𝒱₀ c none) E
          (cc0__matmul_kernel i (stage0_0 s0) (hstage0_0 s0) (stage0_1 s1) (hstage0_1 s1) (stage0_2 s2) (hstage0_2 s2)) K := by
  have hz : (![0, 0] : Fin 2 → Nat) = fun _ => 0 := funext fun a => by fin_cases a <;> rfl
  fin_cases s0 <;> fin_cases s1 <;> fin_cases s2
  · have hr0 : (Memref.whole cc0_stg0_0 : Memref sig .tc _ _ _).view.readAt (Elt F) (Rect.unit (s := S1024x128) ![0, 0] S1024x128.size
        inb_S1024x128_S1024x128_0_0).toLoadRect = id := funext (Memref.readAt_unit_zero (Elt F) cc0_stg0_0 hz _)
    have hr1 : (Memref.whole cc0_stg1_0 : Memref sig .tc _ _ _).view.readAt (Elt F) (Rect.unit (s := S2560x128) ![0, 0] S2560x128.size
        inb_S2560x128_S2560x128_0_0).toLoadRect = id := funext (Memref.readAt_unit_zero (Elt F) cc0_stg1_0 hz _)
    have hw2 : ∀ f w, (((Memref.whole cc0_stg2_0).access (Rect.unit (s := S1024x2560) ![0, 0] S1024x2560.size inb_S1024x2560_S1024x2560_0_0)) :
        View sig .tc _ _ _).write (Elt F) f w Finset.univ = w := Memref.write_access_unit_zero_univ (Elt F) cc0_stg2_0 hz _
    simp only [owns_whole_eq, cc0__matmul_kernel_eq_skeleton]; unfold cc0__matmul_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f1 f0; isplitr; · ipureintro; rw [hf0, hf1]
      iexact H2
  · have hr0 : (Memref.whole cc0_stg0_0 : Memref sig .tc _ _ _).view.readAt (Elt F) (Rect.unit (s := S1024x128) ![0, 0] S1024x128.size
        inb_S1024x128_S1024x128_0_0).toLoadRect = id := funext (Memref.readAt_unit_zero (Elt F) cc0_stg0_0 hz _)
    have hr1 : (Memref.whole cc0_stg1_0 : Memref sig .tc _ _ _).view.readAt (Elt F) (Rect.unit (s := S2560x128) ![0, 0] S2560x128.size
        inb_S2560x128_S2560x128_0_0).toLoadRect = id := funext (Memref.readAt_unit_zero (Elt F) cc0_stg1_0 hz _)
    have hw2 : ∀ f w, (((Memref.whole cc0_stg2_1).access (Rect.unit (s := S1024x2560) ![0, 0] S1024x2560.size inb_S1024x2560_S1024x2560_0_0)) :
        View sig .tc _ _ _).write (Elt F) f w Finset.univ = w := Memref.write_access_unit_zero_univ (Elt F) cc0_stg2_1 hz _
    simp only [owns_whole_eq, cc0__matmul_kernel_eq_skeleton]; unfold cc0__matmul_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f1 f0; isplitr; · ipureintro; rw [hf0, hf1]
      iexact H2
  · have hr0 : (Memref.whole cc0_stg0_0 : Memref sig .tc _ _ _).view.readAt (Elt F) (Rect.unit (s := S1024x128) ![0, 0] S1024x128.size
        inb_S1024x128_S1024x128_0_0).toLoadRect = id := funext (Memref.readAt_unit_zero (Elt F) cc0_stg0_0 hz _)
    have hr1 : (Memref.whole cc0_stg1_1 : Memref sig .tc _ _ _).view.readAt (Elt F) (Rect.unit (s := S2560x128) ![0, 0] S2560x128.size
        inb_S2560x128_S2560x128_0_0).toLoadRect = id := funext (Memref.readAt_unit_zero (Elt F) cc0_stg1_1 hz _)
    have hw2 : ∀ f w, (((Memref.whole cc0_stg2_0).access (Rect.unit (s := S1024x2560) ![0, 0] S1024x2560.size inb_S1024x2560_S1024x2560_0_0)) :
        View sig .tc _ _ _).write (Elt F) f w Finset.univ = w := Memref.write_access_unit_zero_univ (Elt F) cc0_stg2_0 hz _
    simp only [owns_whole_eq, cc0__matmul_kernel_eq_skeleton]; unfold cc0__matmul_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f1 f0; isplitr; · ipureintro; rw [hf0, hf1]
      iexact H2
  · have hr0 : (Memref.whole cc0_stg0_0 : Memref sig .tc _ _ _).view.readAt (Elt F) (Rect.unit (s := S1024x128) ![0, 0] S1024x128.size
        inb_S1024x128_S1024x128_0_0).toLoadRect = id := funext (Memref.readAt_unit_zero (Elt F) cc0_stg0_0 hz _)
    have hr1 : (Memref.whole cc0_stg1_1 : Memref sig .tc _ _ _).view.readAt (Elt F) (Rect.unit (s := S2560x128) ![0, 0] S2560x128.size
        inb_S2560x128_S2560x128_0_0).toLoadRect = id := funext (Memref.readAt_unit_zero (Elt F) cc0_stg1_1 hz _)
    have hw2 : ∀ f w, (((Memref.whole cc0_stg2_1).access (Rect.unit (s := S1024x2560) ![0, 0] S1024x2560.size inb_S1024x2560_S1024x2560_0_0)) :
        View sig .tc _ _ _).write (Elt F) f w Finset.univ = w := Memref.write_access_unit_zero_univ (Elt F) cc0_stg2_1 hz _
    simp only [owns_whole_eq, cc0__matmul_kernel_eq_skeleton]; unfold cc0__matmul_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f1 f0; isplitr; · ipureintro; rw [hf0, hf1]
      iexact H2

end Cert.KernelIdeal.Body

end
-- ==== Proof.KernelIdealArgs.lean ====
/-
  No host line before the region writes an argument array: the region finds each as it was launched.
-/
import proofs.«108893_j7421703488266_2_alg».proof.Proof.KernelIdealEntry

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.Sem

variable {F : FTy → Type} [FloatOps F]

variable (m : (ℓ : Loc nD τ sig) → Buf (Elt F) ℓ)

set_option maxHeartbeats 4000000 in
/-- Argument 0 is as launched when the region is entered. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- Argument 1 is as launched when the region is entered. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- Argument 2 is as launched when the region is entered. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- Argument 3 is as launched when the region is entered. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- Argument 4 is as launched when the region is entered. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- Argument 5 is as launched when the region is entered. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- Argument 6 is as launched when the region is entered. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- Argument 7 is as launched when the region is entered. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- Argument 8 is as launched when the region is entered. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- Argument 9 is as launched when the region is entered. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- Argument 10 is as launched when the region is entered. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.KernelIdeal.Entry

end
-- ==== Proof.KernelIdealData.lean ====
/-
  The proof data of the one region. The left rows' block is the whole array and stays in its buffer; a tile of
  table rows is fetched at every point, its part inside the table named and the rest of the buffer (the last
  tile overhangs the table) left to words nothing names; the result's buffer after the body is a parameter
  `o`. Two body obligations follow from the body's triple: one that forgets the result window (enough to
  know the program runs and leaves its arguments alone), and one that names it, given that the product's part
  inside the result array is `o`'s.
-/
import proofs.«108893_j7421703488266_2_alg».proof.Proof.KernelIdealBody
import proofs.«108893_j7421703488266_2_alg».proof.Proof.KernelIdealArgs

noncomputable section

namespace Cert.KernelIdeal.Body

open Cert.KernelIdeal Cert.KernelIdeal.Gen Cert.KernelIdeal.Entry

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, its part inside the array, read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data, the result buffer's contents after the body a parameter. -/
def dats (o : Fin cfg0.N → S1024x2560.Idx → Elt F .f32) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (iblk m c 1 t)
    | ⟨2, _⟩ => o t
  Φ _ := Pipeline.ΦA spec0 c
  q _ := fullShare
  owed _ := 0

variable (o : Fin cfg0.N → S1024x2560.Idx → Elt F .f32)

/-- The left rows' buffer holds the whole array at every point (fetched at the first, kept after). -/
theorem before_0 (c : Dev nD) (t : Fin cfg0.N) (d) : (dats m o 0 c).before (0 : Fin 3) t d = iblk m c 0 t :=
  ((dats m o 0 c).before_in_eq_fetched 0 rfl (fun _ => rfl) (fun _ _ _ => rfl) (fun t => rfl) t d).trans rfl

/-- The table rows' buffer is fetched at every point: the tile's part inside the table, `d` past it. -/
theorem before_1 (c : Dev nD) (t : Fin cfg0.N) (d) :
    (dats m o 0 c).before (1 : Fin 3) t d = win0_1.fill (grid0.coords t) d (iblk m c 1 t) := by
  unfold Dat.before; rw [if_pos (fetch0_1 t)]; rfl

/-- Which windows the frame forgets: the result's. -/
abbrev fgt2 : Fin cfg0.W → Bool := fun | 0 => false | 1 => false | 2 => true | ⟨_ + 3, h⟩ => absurd h (Nat.not_lt.2 (Nat.le_add_left _ _))

/-- The body obligation with the result window forgotten. -/
theorem obligation_forget (c : Dev nD) : BodyObligationLoose (dats m o 0 c) (defs₀ (F := F)) 𝒱₀ () Set.univ fgt2 := fun t => by
  rw [bigSep_W0, bigSep_W0]
  simp only
  rw [show (dats m o 0 c).Φ t.succ = (dats m o 0 c).Φ t.castSucc from rfl,
    show (dats m o 0 c).owesAt () t.succ = (dats m o 0 c).owesAt () t.castSucc from rfl]
  iintro ⟨HΦ, Ho, ⟨%d0, H0⟩, ⟨%d1, H1⟩, ⟨%X2, H2⟩⟩
  rw [before_0 m o c t d0, before_1 m o c t d1]
  iapply (sound_body (F := F) c Set.univ (grid0.coords t) (cfg0.slots t 0) (cfg0.slots t 1) (cfg0.slots t 2)
    (iblk m c 0 t) (win0_1.fill (grid0.coords t) d1 (iblk m c 1 t)) X2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have h1 : win0_1.cut (grid0.coords t) (win0_1.fill (grid0.coords t) (fun _ => Scalar.ofBits .f32 0#32) (iblk m c 1 t)) = iblk m c 1 t :=
    win0_1.cut_fill _ _ _
  isplitl [H0]
  · iexact H0
  isplitl [H1]
  · iexists d1
    change _ ⊢ owns (c : Thread nD τ) (stage0_1 (cfg0.slots t 1)) fullShare (win0_1.fill (grid0.coords t) d1 (win0_1.cut (grid0.coords t) (win0_1.fill (grid0.coords t) (fun _ => Scalar.ofBits .f32 0#32) (iblk m c 1 t))))
    rw [h1]; try iexact H1
  · iexists _; iexact H2

end Cert.KernelIdeal.Body

end
-- ==== Proof.KernelIdealRun.lean ====
/-
  The program runs: every weakly fair execution terminates, faults nowhere, and every argument array ends as it
  was launched — from the region's run with the result window forgotten.
-/
import proofs.«108893_j7421703488266_2_alg».proof.Proof.KernelIdealData

noncomputable section

namespace Cert.KernelIdeal.Body

open Cert.KernelIdeal Cert.KernelIdeal.Gen Cert.KernelIdeal.Entry

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe)

variable {F : FTy → Type} [FloatOps F]

variable (m : (ℓ : Loc nD τ sig) → Buf (Elt F) ℓ) (ρ : Dev nD → PrngReg)

/-- Any contents for the forgotten result buffer. -/
def o₀ : Fin cfg0.N → S1024x2560.Idx → Elt F .f32 := fun _ _ => Scalar.ofBits .f32 0#32

set_option backward.isDefEq.respectTransparency.types false in
/-- The run with the result window forgotten. -/
theorem run_forget : θ_run defs (onTc (τ := τ) (main (F := F))) (s₀ m ρ)
    (RDat.FramePost cfg0 (fun c => (dats m o₀ 0 c).toRForget fgt2) (V m)) :=
  RDat.θ_run_frame cfgs (0 : Fin 1) launch0 defs₀ 𝒱₀ (fun c => (dats m o₀ 0 c).toRForget fgt2) m ρ main
    (fun c => (obligation_forget m o₀ c).toRForget)
    (fun c => (dats m o₀ 0 c).share_full fun _ => rfl) (fun _ _ => rfl)
    (V m) (hmain m 𝒱₀) (fun _ _ => rfl) (fun _ _ => rfl)

/-- The frame: the program runs and leaves its eleven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
    ((h c).2 main_arg0 (Pipeline.mem_restRefs_of main_arg0 (by decide) (by decide))).trans (V_main_arg0 m c),
    (((dats m o₀ 0 c).toRForget_arrAt_iff (fgt := fgt2) (w := (1 : Fin 3)) rfl _ _).mp ((h c).1 1)).trans (((dats m o₀ 0 c).arrAt_in 1 rfl _).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩) (run_forget m ρ)

end Cert.KernelIdeal.Body

end
-- ==== Proof.RefLine.lean ====
/-
  The reference as a straight line of host operations: its operations listed window by window (a function the
  tracer outlined is listed at its call, over the call's own buffers), the program as that line, and that every
  operation touches only buffers of the one core.
-/
import proofs.«108893_j7421703488266_2_alg».proof.Proof.Gen.ReferenceIdeal
import Idealize.ShloMosaic.Lib.StableHlo.Run
import Idealize.ShloMosaic.Lib.Pipeline.Regions

set_option maxRecDepth 4096

noncomputable section

namespace Cert.ReferenceIdeal.Line

open Cert.ReferenceIdeal Cert.ReferenceIdeal.Gen Idealize.ShloMosaic Idealize.ShloMosaic.TcCoe Idealize.SL.Sem

variable {F : FTy → Type} [FloatOps F]

set_option maxHeartbeats 40000000 in
abbrev p0a : List (HloOp τ sig (Elt F)) :=
  [ StableHlo.unary main_arg0 main_v0 ((extractStridedSlice S1024x1 ![0, 0] · slices_S1024x4_S1024x1_0_0) : (⟨S1024x4, .i32⟩ : BufTy).Contents (Elt F) → (⟨S1024x1, .i32⟩ : BufTy).Contents (Elt F)),
    StableHlo.reshape main_v0 main_v1 rfl shapeCasts_S1024x1_S1024,
    StableHlo.unary main_arg0 main_v2 ((extractStridedSlice S1024x1 ![0, 1] · slices_S1024x4_S1024x1_0_1) : (⟨S1024x4, .i32⟩ : BufTy).Contents (Elt F) → (⟨S1024x1, .i32⟩ : BufTy).Contents (Elt F)),
    StableHlo.reshape main_v2 main_v3 rfl shapeCasts_S1024x1_S1024,
    StableHlo.unary main_arg0 main_v4 ((extractStridedSlice S1024x1 ![0, 3] · slices_S1024x4_S1024x1_0_3) : (⟨S1024x4, .i32⟩ : BufTy).Contents (Elt F) → (⟨S1024x1, .i32⟩ : BufTy).Contents (Elt F)),
    StableHlo.reshape main_v4 main_v5 rfl shapeCasts_S1024x1_S1024,
    StableHlo.nullary main_c (constantI S_ 32 120#32) ]
set_option maxHeartbeats 40000000 in
theorem p0a_sub : (p0a : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.nullary_bufs_sub ..⟩

set_option maxHeartbeats 40000000 in
abbrev p0b : List (HloOp τ sig (Elt F)) :=
  [ StableHlo.TRef.unary (.of main_c : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S1024, .i32⟩) (broadcastInDim S1024 ![] bcast_S_S1024),
    StableHlo.TRef.binary (.of main_v5 : StableHlo.TRef sig ⟨S1024, .i32⟩) (.of main_call0_v1 : StableHlo.TRef sig ⟨S1024, .i32⟩) (.of main_call0_v2 : StableHlo.TRef sig ⟨S1024, .i32⟩) Host.divsi,
    StableHlo.TRef.unary (.of main_v5 : StableHlo.TRef sig ⟨S1024, .i32⟩) (.of main_call0_v3 : StableHlo.TRef sig ⟨S1024, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S1024, .i32⟩) (broadcastInDim S1024 ![] bcast_S_S1024),
    StableHlo.TRef.binary (.of main_call0_v3 : StableHlo.TRef sig ⟨S1024, .i32⟩) (.of main_call0_v5 : StableHlo.TRef sig ⟨S1024, .i32⟩) (.of main_call0_v6 : StableHlo.TRef sig ⟨S1024, .i1⟩) (cmpi .ne),
    StableHlo.TRef.unary (.of main_call0_v0 : StableHlo.TRef sig ⟨S_, .i32⟩) (.of main_call0_v7 : StableHlo.TRef sig ⟨S1024, .i32⟩) (broadcastInDim S1024 ![] bcast_S_S1024),
    StableHlo.TRef.binary (.of main_v5 : StableHlo.TRef sig ⟨S1024, .i32⟩) (.of main_call0_v7 : StableHlo.TRef sig ⟨S1024, .i32⟩) (.of main_call0_v8 : StableHlo.TRef sig ⟨S1024, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S1024, .i32⟩) (broadcastInDim S1024 ![] bcast_S_S1024),
    StableHlo.TRef.binary (.of main_call0_v8 : StableHlo.TRef sig ⟨S1024, .i32⟩) (.of main_call0_v9 : StableHlo.TRef sig ⟨S1024, .i32⟩) (.of main_call0_v10 : StableHlo.TRef sig ⟨S1024, .i1⟩) (cmpi .ne),
    StableHlo.TRef.binary (.of main_call0_v6 : StableHlo.TRef sig ⟨S1024, .i1⟩) (.of main_call0_v10 : StableHlo.TRef sig ⟨S1024, .i1⟩) (.of main_call0_v11 : StableHlo.TRef sig ⟨S1024, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S1024, .i32⟩) (broadcastInDim S1024 ![] bcast_S_S1024),
    StableHlo.TRef.binary (.of main_call0_v2 : StableHlo.TRef sig ⟨S1024, .i32⟩) (.of main_call0_v12 : StableHlo.TRef sig ⟨S1024, .i32⟩) (.of main_call0_v13 : StableHlo.TRef sig ⟨S1024, .i32⟩) subi,
    StableHlo.TRef.ternary (.of main_call0_v11 : StableHlo.TRef sig ⟨S1024, .i1⟩) (.of main_call0_v13 : StableHlo.TRef sig ⟨S1024, .i32⟩) (.of main_call0_v2 : StableHlo.TRef sig ⟨S1024, .i32⟩) (.of main_v6 : StableHlo.TRef sig ⟨S1024, .i32⟩) select ]
set_option maxHeartbeats 40000000 in
theorem p0b_sub : (p0b : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

set_option maxHeartbeats 40000000 in
abbrev p0c : List (HloOp τ sig (Elt F)) :=
  ( StableHlo.nullary main_c_0 (constantI S_ 32 0#32)
  :: StableHlo.unary main_c_0 main_v7 (broadcastInDim S1024 ![] bcast_S_S1024 : (⟨S_, .i32⟩ : BufTy).Contents (Elt F) → (⟨S1024, .i32⟩ : BufTy).Contents (Elt F))
  :: StableHlo.binary main_v1 main_v7 main_v8 (cmpi .slt : (⟨S1024, .i32⟩ : BufTy).Contents (Elt F) → (⟨S1024, .i32⟩ : BufTy).Contents (Elt F) → (⟨S1024, .i1⟩ : BufTy).Contents (Elt F))
  :: StableHlo.nullary main_c_1 (constantI S_ 32 40000#32)
  :: StableHlo.unary main_c_1 main_v9 (broadcastInDim S1024 ![] bcast_S_S1024 : (⟨S_, .i32⟩ : BufTy).Contents (Elt F) → (⟨S1024, .i32⟩ : BufTy).Contents (Elt F))
  :: StableHlo.binary main_v1 main_v9 main_v10 (addi : (⟨S1024, .i32⟩ : BufTy).Contents (Elt F) → (⟨S1024, .i32⟩ : BufTy).Contents (Elt F) → (⟨S1024, .i32⟩ : BufTy).Contents (Elt F))
  :: StableHlo.ternary main_v8 main_v10 main_v1 main_v11 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v11 main_v12 (broadcastInDim S1024x1 ![0] bcast_S1024_S1024x1_0 : (⟨S1024, .i32⟩ : BufTy).Contents (Elt F) → (⟨S1024x1, .i32⟩ : BufTy).Contents (Elt F))
  :: StableHlo.binary main_arg1 main_v12 main_v13 ((fun x i => Host.gather gather_S40000x128_S1024x1_S1024x128_1_0_n_n_0_1_1128 x i) : (⟨S40000x128, .f32⟩ : BufTy).Contents (Elt F) → (⟨S1024x1, .i32⟩ : BufTy).Contents (Elt F) → (⟨S1024x128, .f32⟩ : BufTy).Contents (Elt F))
  :: StableHlo.nullary main_c_2 (constantI S_ 32 0#32)
  :: StableHlo.unary main_c_2 main_v14 (broadcastInDim S1024 ![] bcast_S_S1024 : (⟨S_, .i32⟩ : BufTy).Contents (Elt F) → (⟨S1024, .i32⟩ : BufTy).Contents (Elt F))
  :: StableHlo.binary main_v3 main_v14 main_v15 (cmpi .slt : (⟨S1024, .i32⟩ : BufTy).Contents (Elt F) → (⟨S1024, .i32⟩ : BufTy).Contents (Elt F) → (⟨S1024, .i1⟩ : BufTy).Contents (Elt F))
  :: StableHlo.nullary main_c_3 (constantI S_ 32 230#32)
  :: StableHlo.unary main_c_3 main_v16 (broadcastInDim S1024 ![] bcast_S_S1024 : (⟨S_, .i32⟩ : BufTy).Contents (Elt F) → (⟨S1024, .i32⟩ : BufTy).Contents (Elt F))
  :: StableHlo.binary main_v3 main_v16 main_v17 (addi : (⟨S1024, .i32⟩ : BufTy).Contents (Elt F) → (⟨S1024, .i32⟩ : BufTy).Contents (Elt F) → (⟨S1024, .i32⟩ : BufTy).Contents (Elt F))
  :: StableHlo.ternary main_v15 main_v17 main_v3 main_v18 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v18 main_v19 (broadcastInDim S1024x1 ![0] bcast_S1024_S1024x1_0 : (⟨S1024, .i32⟩ : BufTy).Contents (Elt F) → (⟨S1024x1, .i32⟩ : BufTy).Contents (Elt F))
  :: StableHlo.binary main_arg2 main_v19 main_v20 ((fun x i => Host.gather gather_S230x128_S1024x1_S1024x128_1_0_n_n_0_1_1128 x i) : (⟨S230x128, .f32⟩ : BufTy).Contents (Elt F) → (⟨S1024x1, .i32⟩ : BufTy).Contents (Elt F) → (⟨S1024x128, .f32⟩ : BufTy).Contents (Elt F))
  :: StableHlo.nullary main_c_4 (constantI S_ 32 0#32)
  :: StableHlo.unary main_c_4 main_v21 (broadcastInDim S1024 ![] bcast_S_S1024 : (⟨S_, .i32⟩ : BufTy).Contents (Elt F) → (⟨S1024, .i32⟩ : BufTy).Contents (Elt F))
  :: StableHlo.binary main_v5 main_v21 main_v22 (cmpi .slt : (⟨S1024, .i32⟩ : BufTy).Contents (Elt F) → (⟨S1024, .i32⟩ : BufTy).Contents (Elt F) → (⟨S1024, .i1⟩ : BufTy).Contents (Elt F))
  :: StableHlo.nullary main_c_5 (constantI S_ 32 365#32)
  :: StableHlo.unary main_c_5 main_v23 (broadcastInDim S1024 ![] bcast_S_S1024 : (⟨S_, .i32⟩ : BufTy).Contents (Elt F) → (⟨S1024, .i32⟩ : BufTy).Contents (Elt F))
  :: StableHlo.binary main_v5 main_v23 main_v24 (addi : (⟨S1024, .i32⟩ : BufTy).Contents (Elt F) → (⟨S1024, .i32⟩ : BufTy).Contents (Elt F) → (⟨S1024, .i32⟩ : BufTy).Contents (Elt F))
  :: StableHlo.ternary main_v22 main_v24 main_v5 main_v25 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v25 main_v26 (broadcastInDim S1024x1 ![0] bcast_S1024_S1024x1_0 : (⟨S1024, .i32⟩ : BufTy).Contents (Elt F) → (⟨S1024x1, .i32⟩ : BufTy).Contents (Elt F))
  :: StableHlo.binary main_arg5 main_v26 main_v27 ((fun x i => Host.gather gather_S365x128_S1024x1_S1024x128_1_0_n_n_0_1_1128 x i) : (⟨S365x128, .f32⟩ : BufTy).Contents (Elt F) → (⟨S1024x1, .i32⟩ : BufTy).Contents (Elt F) → (⟨S1024x128, .f32⟩ : BufTy).Contents (Elt F))
  :: StableHlo.nullary main_c_6 (constantI S_ 32 0#32)
  :: StableHlo.unary main_c_6 main_v28 (broadcastInDim S1024 ![] bcast_S_S1024 : (⟨S_, .i32⟩ : BufTy).Contents (Elt F) → (⟨S1024, .i32⟩ : BufTy).Contents (Elt F))
  :: StableHlo.binary main_v5 main_v28 main_v29 (cmpi .slt : (⟨S1024, .i32⟩ : BufTy).Contents (Elt F) → (⟨S1024, .i32⟩ : BufTy).Contents (Elt F) → (⟨S1024, .i1⟩ : BufTy).Contents (Elt F))
  :: StableHlo.nullary main_c_7 (constantI S_ 32 365#32)
  :: StableHlo.unary main_c_7 main_v30 (broadcastInDim S1024 ![] bcast_S_S1024 : (⟨S_, .i32⟩ : BufTy).Contents (Elt F) → (⟨S1024, .i32⟩ : BufTy).Contents (Elt F))
  :: StableHlo.binary main_v5 main_v30 main_v31 (addi : (⟨S1024, .i32⟩ : BufTy).Contents (Elt F) → (⟨S1024, .i32⟩ : BufTy).Contents (Elt F) → (⟨S1024, .i32⟩ : BufTy).Contents (Elt F))
  :: StableHlo.ternary main_v29 main_v31 main_v5 main_v32 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v32 main_v33 (broadcastInDim S1024x1 ![0] bcast_S1024_S1024x1_0 : (⟨S1024, .i32⟩ : BufTy).Contents (Elt F) → (⟨S1024x1, .i32⟩ : BufTy).Contents (Elt F))
  :: StableHlo.binary main_arg3 main_v33 main_v34 ((fun x i => Host.gather gather_S365x128_S1024x1_S1024x128_1_0_n_n_0_1_1128 x i) : (⟨S365x128, .f32⟩ : BufTy).Contents (Elt F) → (⟨S1024x1, .i32⟩ : BufTy).Contents (Elt F) → (⟨S1024x128, .f32⟩ : BufTy).Contents (Elt F))
  :: StableHlo.nullary main_c_8 (constantI S_ 32 0#32)
  :: StableHlo.unary main_c_8 main_v35 (broadcastInDim S1024 ![] bcast_S_S1024 : (⟨S_, .i32⟩ : BufTy).Contents (Elt F) → (⟨S1024, .i32⟩ : BufTy).Contents (Elt F))
  :: StableHlo.binary main_v6 main_v35 main_v36 (cmpi .slt : (⟨S1024, .i32⟩ : BufTy).Contents (Elt F) → (⟨S1024, .i32⟩ : BufTy).Contents (Elt F) → (⟨S1024, .i1⟩ : BufTy).Contents (Elt F))
  :: StableHlo.nullary main_c_9 (constantI S_ 32 4#32)
  :: StableHlo.unary main_c_9 main_v37 (broadcastInDim S1024 ![] bcast_S_S1024 : (⟨S_, .i32⟩ : BufTy).Contents (Elt F) → (⟨S1024, .i32⟩ : BufTy).Contents (Elt F))
  :: StableHlo.binary main_v6 main_v37 main_v38 (addi : (⟨S1024, .i32⟩ : BufTy).Contents (Elt F) → (⟨S1024, .i32⟩ : BufTy).Contents (Elt F) → (⟨S1024, .i32⟩ : BufTy).Contents (Elt F))
  :: StableHlo.ternary main_v36 main_v38 main_v6 main_v39 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v39 main_v40 (broadcastInDim S1024x1 ![0] bcast_S1024_S1024x1_0 : (⟨S1024, .i32⟩ : BufTy).Contents (Elt F) → (⟨S1024x1, .i32⟩ : BufTy).Contents (Elt F))
  :: StableHlo.binary main_arg6 main_v40 main_v41 ((fun x i => Host.gather gather_S4x128_S1024x1_S1024x128_1_0_n_n_0_1_1128 x i) : (⟨S4x128, .f32⟩ : BufTy).Contents (Elt F) → (⟨S1024x1, .i32⟩ : BufTy).Contents (Elt F) → (⟨S1024x128, .f32⟩ : BufTy).Contents (Elt F))
  :: StableHlo.binary main_v34 main_v41 main_v42 (addf : (⟨S1024x128, .f32⟩ : BufTy).Contents (Elt F) → (⟨S1024x128, .f32⟩ : BufTy).Contents (Elt F) → (⟨S1024x128, .f32⟩ : BufTy).Contents (Elt F))
  :: StableHlo.nullary main_c_10 (constantI S_ 32 0#32)
  :: StableHlo.unary main_c_10 main_v43 (broadcastInDim S1024 ![] bcast_S_S1024 : (⟨S_, .i32⟩ : BufTy).Contents (Elt F) → (⟨S1024, .i32⟩ : BufTy).Contents (Elt F))
  :: StableHlo.binary main_v5 main_v43 main_v44 (cmpi .slt : (⟨S1024, .i32⟩ : BufTy).Contents (Elt F) → (⟨S1024, .i32⟩ : BufTy).Contents (Elt F) → (⟨S1024, .i1⟩ : BufTy).Contents (Elt F))
  :: StableHlo.nullary main_c_11 (constantI S_ 32 365#32)
  :: StableHlo.unary main_c_11 main_v45 (broadcastInDim S1024 ![] bcast_S_S1024 : (⟨S_, .i32⟩ : BufTy).Contents (Elt F) → (⟨S1024, .i32⟩ : BufTy).Contents (Elt F))
  :: StableHlo.binary main_v5 main_v45 main_v46 (addi : (⟨S1024, .i32⟩ : BufTy).Contents (Elt F) → (⟨S1024, .i32⟩ : BufTy).Contents (Elt F) → (⟨S1024, .i32⟩ : BufTy).Contents (Elt F))
  :: [] )
set_option maxHeartbeats 40000000 in
theorem p0c_sub : (p0c : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub ..⟩

set_option maxHeartbeats 40000000 in
abbrev p1a : List (HloOp τ sig (Elt F)) :=
  ( StableHlo.ternary main_v44 main_v46 main_v5 main_v47 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v47 main_v48 (broadcastInDim S1024x1 ![0] bcast_S1024_S1024x1_0 : (⟨S1024, .i32⟩ : BufTy).Contents (Elt F) → (⟨S1024x1, .i32⟩ : BufTy).Contents (Elt F))
  :: StableHlo.binary main_arg4 main_v48 main_v49 ((fun x i => Host.gather gather_S365x128_S1024x1_S1024x128_1_0_n_n_0_1_1128 x i) : (⟨S365x128, .f32⟩ : BufTy).Contents (Elt F) → (⟨S1024x1, .i32⟩ : BufTy).Contents (Elt F) → (⟨S1024x128, .f32⟩ : BufTy).Contents (Elt F))
  :: StableHlo.nullary main_c_12 (constantI S_ 32 0#32)
  :: StableHlo.unary main_c_12 main_v50 (broadcastInDim S1024 ![] bcast_S_S1024 : (⟨S_, .i32⟩ : BufTy).Contents (Elt F) → (⟨S1024, .i32⟩ : BufTy).Contents (Elt F))
  :: StableHlo.binary main_v6 main_v50 main_v51 (cmpi .slt : (⟨S1024, .i32⟩ : BufTy).Contents (Elt F) → (⟨S1024, .i32⟩ : BufTy).Contents (Elt F) → (⟨S1024, .i1⟩ : BufTy).Contents (Elt F))
  :: StableHlo.nullary main_c_13 (constantI S_ 32 4#32)
  :: StableHlo.unary main_c_13 main_v52 (broadcastInDim S1024 ![] bcast_S_S1024 : (⟨S_, .i32⟩ : BufTy).Contents (Elt F) → (⟨S1024, .i32⟩ : BufTy).Contents (Elt F))
  :: StableHlo.binary main_v6 main_v52 main_v53 (addi : (⟨S1024, .i32⟩ : BufTy).Contents (Elt F) → (⟨S1024, .i32⟩ : BufTy).Contents (Elt F) → (⟨S1024, .i32⟩ : BufTy).Contents (Elt F))
  :: StableHlo.ternary main_v51 main_v53 main_v6 main_v54 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v54 main_v55 (broadcastInDim S1024x1 ![0] bcast_S1024_S1024x1_0 : (⟨S1024, .i32⟩ : BufTy).Contents (Elt F) → (⟨S1024x1, .i32⟩ : BufTy).Contents (Elt F))
  :: StableHlo.binary main_arg7 main_v55 main_v56 ((fun x i => Host.gather gather_S4x128_S1024x1_S1024x128_1_0_n_n_0_1_1128 x i) : (⟨S4x128, .f32⟩ : BufTy).Contents (Elt F) → (⟨S1024x1, .i32⟩ : BufTy).Contents (Elt F) → (⟨S1024x128, .f32⟩ : BufTy).Contents (Elt F))
  :: StableHlo.binary main_v49 main_v56 main_v57 (addf : (⟨S1024x128, .f32⟩ : BufTy).Contents (Elt F) → (⟨S1024x128, .f32⟩ : BufTy).Contents (Elt F) → (⟨S1024x128, .f32⟩ : BufTy).Contents (Elt F))
  :: StableHlo.nullary main_c_14 (constantI S_ 32 0#32)
  :: StableHlo.unary main_c_14 main_v58 (broadcastInDim S1024 ![] bcast_S_S1024 : (⟨S_, .i32⟩ : BufTy).Contents (Elt F) → (⟨S1024, .i32⟩ : BufTy).Contents (Elt F))
  :: StableHlo.binary main_v3 main_v58 main_v59 (cmpi .slt : (⟨S1024, .i32⟩ : BufTy).Contents (Elt F) → (⟨S1024, .i32⟩ : BufTy).Contents (Elt F) → (⟨S1024, .i1⟩ : BufTy).Contents (Elt F))
  :: StableHlo.nullary main_c_15 (constantI S_ 32 230#32)
  :: StableHlo.unary main_c_15 main_v60 (broadcastInDim S1024 ![] bcast_S_S1024 : (⟨S_, .i32⟩ : BufTy).Contents (Elt F) → (⟨S1024, .i32⟩ : BufTy).Contents (Elt F))
  :: StableHlo.binary main_v3 main_v60 main_v61 (addi : (⟨S1024, .i32⟩ : BufTy).Contents (Elt F) → (⟨S1024, .i32⟩ : BufTy).Contents (Elt F) → (⟨S1024, .i32⟩ : BufTy).Contents (Elt F))
  :: StableHlo.ternary main_v59 main_v61 main_v3 main_v62 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v62 main_v63 (broadcastInDim S1024x1 ![0] bcast_S1024_S1024x1_0 : (⟨S1024, .i32⟩ : BufTy).Contents (Elt F) → (⟨S1024x1, .i32⟩ : BufTy).Contents (Elt F))
  :: StableHlo.binary main_arg10 main_v63 main_v64 ((fun x i => Host.gather gather_S230_S1024x1_S1024_n_0_n_n_0_1_1 x i) : (⟨S230, .i1⟩ : BufTy).Contents (Elt F) → (⟨S1024x1, .i32⟩ : BufTy).Contents (Elt F) → (⟨S1024, .i1⟩ : BufTy).Contents (Elt F))
  :: StableHlo.unary main_v64 main_v65 (broadcastInDim S1024x1 ![0] bcast_S1024_S1024x1_0 : (⟨S1024, .i1⟩ : BufTy).Contents (Elt F) → (⟨S1024x1, .i1⟩ : BufTy).Contents (Elt F))
  :: StableHlo.nullary main_c_16 (constantI S_ 32 0#32)
  :: StableHlo.unary main_c_16 main_v66 (broadcastInDim S1024 ![] bcast_S_S1024 : (⟨S_, .i32⟩ : BufTy).Contents (Elt F) → (⟨S1024, .i32⟩ : BufTy).Contents (Elt F))
  :: StableHlo.binary main_v3 main_v66 main_v67 (cmpi .slt : (⟨S1024, .i32⟩ : BufTy).Contents (Elt F) → (⟨S1024, .i32⟩ : BufTy).Contents (Elt F) → (⟨S1024, .i1⟩ : BufTy).Contents (Elt F))
  :: StableHlo.nullary main_c_17 (constantI S_ 32 230#32)
  :: StableHlo.unary main_c_17 main_v68 (broadcastInDim S1024 ![] bcast_S_S1024 : (⟨S_, .i32⟩ : BufTy).Contents (Elt F) → (⟨S1024, .i32⟩ : BufTy).Contents (Elt F))
  :: StableHlo.binary main_v3 main_v68 main_v69 (addi : (⟨S1024, .i32⟩ : BufTy).Contents (Elt F) → (⟨S1024, .i32⟩ : BufTy).Contents (Elt F) → (⟨S1024, .i32⟩ : BufTy).Contents (Elt F))
  :: StableHlo.ternary main_v67 main_v69 main_v3 main_v70 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v70 main_v71 (broadcastInDim S1024x1 ![0] bcast_S1024_S1024x1_0 : (⟨S1024, .i32⟩ : BufTy).Contents (Elt F) → (⟨S1024x1, .i32⟩ : BufTy).Contents (Elt F))
  :: StableHlo.binary main_arg8 main_v71 main_v72 ((fun x i => Host.gather gather_S230x128_S1024x1_S1024x128_1_0_n_n_0_1_1128 x i) : (⟨S230x128, .f32⟩ : BufTy).Contents (Elt F) → (⟨S1024x1, .i32⟩ : BufTy).Contents (Elt F) → (⟨S1024x128, .f32⟩ : BufTy).Contents (Elt F))
  :: StableHlo.unary main_v27 main_v73 ((extractStridedSlice S1024x64 ![0, 0] · slices_S1024x128_S1024x64_0_0) : (⟨S1024x128, .f32⟩ : BufTy).Contents (Elt F) → (⟨S1024x64, .f32⟩ : BufTy).Contents (Elt F))
  :: StableHlo.unary main_v27 main_v74 ((extractStridedSlice S1024x64 ![0, 64] · slices_S1024x128_S1024x64_0_64) : (⟨S1024x128, .f32⟩ : BufTy).Contents (Elt F) → (⟨S1024x64, .f32⟩ : BufTy).Contents (Elt F))
  :: StableHlo.unary main_v72 main_v75 ((extractStridedSlice S1024x64 ![0, 0] · slices_S1024x128_S1024x64_0_0) : (⟨S1024x128, .f32⟩ : BufTy).Contents (Elt F) → (⟨S1024x64, .f32⟩ : BufTy).Contents (Elt F))
  :: StableHlo.unary main_v72 main_v76 ((extractStridedSlice S1024x64 ![0, 64] · slices_S1024x128_S1024x64_0_64) : (⟨S1024x128, .f32⟩ : BufTy).Contents (Elt F) → (⟨S1024x64, .f32⟩ : BufTy).Contents (Elt F))
  :: StableHlo.binary main_v73 main_v75 main_v77 (mulf : (⟨S1024x64, .f32⟩ : BufTy).Contents (Elt F) → (⟨S1024x64, .f32⟩ : BufTy).Contents (Elt F) → (⟨S1024x64, .f32⟩ : BufTy).Contents (Elt F))
  :: StableHlo.binary main_v74 main_v76 main_v78 (mulf : (⟨S1024x64, .f32⟩ : BufTy).Contents (Elt F) → (⟨S1024x64, .f32⟩ : BufTy).Contents (Elt F) → (⟨S1024x64, .f32⟩ : BufTy).Contents (Elt F))
  :: StableHlo.binary main_v77 main_v78 main_v79 (subf : (⟨S1024x64, .f32⟩ : BufTy).Contents (Elt F) → (⟨S1024x64, .f32⟩ : BufTy).Contents (Elt F) → (⟨S1024x64, .f32⟩ : BufTy).Contents (Elt F))
  :: StableHlo.binary main_v73 main_v76 main_v80 (mulf : (⟨S1024x64, .f32⟩ : BufTy).Contents (Elt F) → (⟨S1024x64, .f32⟩ : BufTy).Contents (Elt F) → (⟨S1024x64, .f32⟩ : BufTy).Contents (Elt F))
  :: StableHlo.binary main_v74 main_v75 main_v81 (mulf : (⟨S1024x64, .f32⟩ : BufTy).Contents (Elt F) → (⟨S1024x64, .f32⟩ : BufTy).Contents (Elt F) → (⟨S1024x64, .f32⟩ : BufTy).Contents (Elt F))
  :: StableHlo.binary main_v80 main_v81 main_v82 (addf : (⟨S1024x64, .f32⟩ : BufTy).Contents (Elt F) → (⟨S1024x64, .f32⟩ : BufTy).Contents (Elt F) → (⟨S1024x64, .f32⟩ : BufTy).Contents (Elt F))
  :: StableHlo.binary main_v79 main_v82 main_v83 ((fun a b => concatenate S1024x128 1 [⟨S1024x64, a⟩, ⟨S1024x64, b⟩] concatenates_S1024x64_S1024x64_S1024x128_d1) : (⟨S1024x64, .f32⟩ : BufTy).Contents (Elt F) → (⟨S1024x64, .f32⟩ : BufTy).Contents (Elt F) → (⟨S1024x128, .f32⟩ : BufTy).Contents (Elt F))
  :: StableHlo.nullary main_c_18 (constantI S_ 32 0#32)
  :: StableHlo.unary main_c_18 main_v84 (broadcastInDim S1024 ![] bcast_S_S1024 : (⟨S_, .i32⟩ : BufTy).Contents (Elt F) → (⟨S1024, .i32⟩ : BufTy).Contents (Elt F))
  :: StableHlo.binary main_v3 main_v84 main_v85 (cmpi .slt : (⟨S1024, .i32⟩ : BufTy).Contents (Elt F) → (⟨S1024, .i32⟩ : BufTy).Contents (Elt F) → (⟨S1024, .i1⟩ : BufTy).Contents (Elt F))
  :: StableHlo.nullary main_c_19 (constantI S_ 32 230#32)
  :: StableHlo.unary main_c_19 main_v86 (broadcastInDim S1024 ![] bcast_S_S1024 : (⟨S_, .i32⟩ : BufTy).Contents (Elt F) → (⟨S1024, .i32⟩ : BufTy).Contents (Elt F))
  :: StableHlo.binary main_v3 main_v86 main_v87 (addi : (⟨S1024, .i32⟩ : BufTy).Contents (Elt F) → (⟨S1024, .i32⟩ : BufTy).Contents (Elt F) → (⟨S1024, .i32⟩ : BufTy).Contents (Elt F))
  :: StableHlo.ternary main_v85 main_v87 main_v3 main_v88 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v88 main_v89 (broadcastInDim S1024x1 ![0] bcast_S1024_S1024x1_0 : (⟨S1024, .i32⟩ : BufTy).Contents (Elt F) → (⟨S1024x1, .i32⟩ : BufTy).Contents (Elt F))
  :: StableHlo.binary main_arg9 main_v89 main_v90 ((fun x i => Host.gather gather_S230_S1024x1_S1024_n_0_n_n_0_1_1 x i) : (⟨S230, .f32⟩ : BufTy).Contents (Elt F) → (⟨S1024x1, .i32⟩ : BufTy).Contents (Elt F) → (⟨S1024, .f32⟩ : BufTy).Contents (Elt F))
  :: StableHlo.unary main_v90 main_v91 (broadcastInDim S1024x1 ![0] bcast_S1024_S1024x1_0 : (⟨S1024, .f32⟩ : BufTy).Contents (Elt F) → (⟨S1024x1, .f32⟩ : BufTy).Contents (Elt F))
  :: StableHlo.unary main_v91 main_v92 (broadcastInDim S1024x128 ![0, 1] bcast_S1024x1_S1024x128_0_1 : (⟨S1024x1, .f32⟩ : BufTy).Contents (Elt F) → (⟨S1024x128, .f32⟩ : BufTy).Contents (Elt F))
  :: StableHlo.binary main_v92 main_v20 main_v93 (mulf : (⟨S1024x128, .f32⟩ : BufTy).Contents (Elt F) → (⟨S1024x128, .f32⟩ : BufTy).Contents (Elt F) → (⟨S1024x128, .f32⟩ : BufTy).Contents (Elt F))
  :: StableHlo.binary main_v83 main_v93 main_v94 (subf : (⟨S1024x128, .f32⟩ : BufTy).Contents (Elt F) → (⟨S1024x128, .f32⟩ : BufTy).Contents (Elt F) → (⟨S1024x128, .f32⟩ : BufTy).Contents (Elt F))
  :: StableHlo.unary main_v20 main_v95 ((extractStridedSlice S1024x64 ![0, 0] · slices_S1024x128_S1024x64_0_0) : (⟨S1024x128, .f32⟩ : BufTy).Contents (Elt F) → (⟨S1024x64, .f32⟩ : BufTy).Contents (Elt F))
  :: StableHlo.unary main_v20 main_v96 ((extractStridedSlice S1024x64 ![0, 64] · slices_S1024x128_S1024x64_0_64) : (⟨S1024x128, .f32⟩ : BufTy).Contents (Elt F) → (⟨S1024x64, .f32⟩ : BufTy).Contents (Elt F))
  :: StableHlo.unary main_v13 main_v97 ((extractStridedSlice S1024x64 ![0, 0] · slices_S1024x128_S1024x64_0_0) : (⟨S1024x128, .f32⟩ : BufTy).Contents (Elt F) → (⟨S1024x64, .f32⟩ : BufTy).Contents (Elt F))
  :: StableHlo.unary main_v13 main_v98 ((extractStridedSlice S1024x64 ![0, 64] · slices_S1024x128_S1024x64_0_64) : (⟨S1024x128, .f32⟩ : BufTy).Contents (Elt F) → (⟨S1024x64, .f32⟩ : BufTy).Contents (Elt F))
  :: [] )
set_option maxHeartbeats 40000000 in
theorem p1a_sub : (p1a : List (HloOp τ sig (Elt F))).Forall fun op => op.bufs ⊆ StableHlo.tcRefs τ sig :=
  ⟨StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub ..⟩

set_option maxHeartbeats 40000000 in
abbrev p2a : List (HloOp τ sig (Elt F)) :=
  [ StableHlo.binary main_v95 main_v97 main_v99 (mulf : (⟨S1024x64, .f32⟩ : BufTy).Contents (Elt F) → (⟨S1024x64, .f32⟩ : BufTy).Contents (Elt F) → (⟨S1024x64, .f32⟩ : BufTy).Contents (Elt F)),
    StableHlo.binary main_v96 main_v98 main_v100 (mulf : (⟨S1024x64, .f32⟩ : BufTy).Contents (Elt F) → (⟨S1024x64, .f32⟩ : BufTy).Contents (Elt F) → (⟨S1024x64, .f32⟩ : BufTy).Contents (Elt F)),
    StableHlo.binary main_v99 main_v100 main_v101 (subf : (⟨S1024x64, .f32⟩ : BufTy).Contents (Elt F) → (⟨S1024x64, .f32⟩ : BufTy).Contents (Elt F) → (⟨S1024x64, .f32⟩ : BufTy).Contents (Elt F)),
    StableHlo.binary main_v95 main_v98 main_v102 (mulf : (⟨S1024x64, .f32⟩ : BufTy).Contents (Elt F) → (⟨S1024x64, .f32⟩ : BufTy).Contents (Elt F) → (⟨S1024x64, .f32⟩ : BufTy).Contents (Elt F)),
    StableHlo.binary main_v96 main_v97 main_v103 (mulf : (⟨S1024x64, .f32⟩ : BufTy).Contents (Elt F) → (⟨S1024x64, .f32⟩ : BufTy).Contents (Elt F) → (⟨S1024x64, .f32⟩ : BufTy).Contents (Elt F)),
    StableHlo.binary main_v102 main_v103 main_v104 (addf : (⟨S1024x64, .f32⟩ : BufTy).Contents (Elt F) → (⟨S1024x64, .f32⟩ : BufTy).Contents (Elt F) → (⟨S1024x64, .f32⟩ : BufTy).Contents (Elt F)),
    StableHlo.binary main_v101 main_v104 main_v105 ((fun a b => concatenate S1024x128 1 [⟨S1024x64, a⟩, ⟨S1024x64, b⟩] concatenates_S1024x64_S1024x64_S1024x128_d1) : (⟨S1024x64, .f32⟩ : BufTy).Contents (Elt F) → (⟨S1024x64, .f32⟩ : BufTy).Contents (Elt F) → (⟨S1024x128, .f32⟩ : BufTy).Contents (Elt F)),
    StableHlo.binary main_v13 main_v105 main_v106 (addf : (⟨S1024x128, .f32⟩ : BufTy).Contents (Elt F) → (⟨S1024x128, .f32⟩ : BufTy).Contents (Elt F) → (⟨S1024x128, .f32⟩ : BufTy).Contents (Elt F)) ]
set_option maxHeartbeats 40000000 in
theorem p2a_sub : (p2a : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub ..⟩

set_option maxHeartbeats 40000000 in
abbrev p2b : List (HloOp τ sig (Elt F)) :=
  [ StableHlo.TRef.unary (.of main_v65 : StableHlo.TRef sig ⟨S1024x1, .i1⟩) (.of main_call1_v0 : StableHlo.TRef sig ⟨S1024x128, .i1⟩) (broadcastInDim S1024x128 ![0, 1] bcast_S1024x1_S1024x128_0_1),
    StableHlo.TRef.ternary (.of main_call1_v0 : StableHlo.TRef sig ⟨S1024x128, .i1⟩) (.of main_v94 : StableHlo.TRef sig ⟨S1024x128, .f32⟩) (.of main_v106 : StableHlo.TRef sig ⟨S1024x128, .f32⟩) (.of main_v107 : StableHlo.TRef sig ⟨S1024x128, .f32⟩) select ]
set_option maxHeartbeats 40000000 in
theorem p2b_sub : (p2b : List (HloOp τ sig (Elt F))).Forall fun op => op.bufs ⊆ StableHlo.tcRefs τ sig :=
  ⟨StableHlo.unary_bufs_sub .., StableHlo.ternary_bufs_sub ..⟩

set_option maxHeartbeats 40000000 in
abbrev p2c : List (HloOp τ sig (Elt F)) :=
  ( StableHlo.unary main_v20 main_v108 ((extractStridedSlice S1024x64 ![0, 0] · slices_S1024x128_S1024x64_0_0) : (⟨S1024x128, .f32⟩ : BufTy).Contents (Elt F) → (⟨S1024x64, .f32⟩ : BufTy).Contents (Elt F))
  :: StableHlo.unary main_v20 main_v109 ((extractStridedSlice S1024x64 ![0, 64] · slices_S1024x128_S1024x64_0_64) : (⟨S1024x128, .f32⟩ : BufTy).Contents (Elt F) → (⟨S1024x64, .f32⟩ : BufTy).Contents (Elt F))
  :: StableHlo.unary main_v27 main_v110 ((extractStridedSlice S1024x64 ![0, 0] · slices_S1024x128_S1024x64_0_0) : (⟨S1024x128, .f32⟩ : BufTy).Contents (Elt F) → (⟨S1024x64, .f32⟩ : BufTy).Contents (Elt F))
  :: StableHlo.unary main_v27 main_v111 ((extractStridedSlice S1024x64 ![0, 64] · slices_S1024x128_S1024x64_0_64) : (⟨S1024x128, .f32⟩ : BufTy).Contents (Elt F) → (⟨S1024x64, .f32⟩ : BufTy).Contents (Elt F))
  :: StableHlo.binary main_v108 main_v110 main_v112 (mulf : (⟨S1024x64, .f32⟩ : BufTy).Contents (Elt F) → (⟨S1024x64, .f32⟩ : BufTy).Contents (Elt F) → (⟨S1024x64, .f32⟩ : BufTy).Contents (Elt F))
  :: StableHlo.binary main_v109 main_v111 main_v113 (mulf : (⟨S1024x64, .f32⟩ : BufTy).Contents (Elt F) → (⟨S1024x64, .f32⟩ : BufTy).Contents (Elt F) → (⟨S1024x64, .f32⟩ : BufTy).Contents (Elt F))
  :: StableHlo.binary main_v112 main_v113 main_v114 (addf : (⟨S1024x64, .f32⟩ : BufTy).Contents (Elt F) → (⟨S1024x64, .f32⟩ : BufTy).Contents (Elt F) → (⟨S1024x64, .f32⟩ : BufTy).Contents (Elt F))
  :: StableHlo.binary main_v108 main_v111 main_v115 (mulf : (⟨S1024x64, .f32⟩ : BufTy).Contents (Elt F) → (⟨S1024x64, .f32⟩ : BufTy).Contents (Elt F) → (⟨S1024x64, .f32⟩ : BufTy).Contents (Elt F))
  :: StableHlo.binary main_v109 main_v110 main_v116 (mulf : (⟨S1024x64, .f32⟩ : BufTy).Contents (Elt F) → (⟨S1024x64, .f32⟩ : BufTy).Contents (Elt F) → (⟨S1024x64, .f32⟩ : BufTy).Contents (Elt F))
  :: StableHlo.binary main_v115 main_v116 main_v117 (subf : (⟨S1024x64, .f32⟩ : BufTy).Contents (Elt F) → (⟨S1024x64, .f32⟩ : BufTy).Contents (Elt F) → (⟨S1024x64, .f32⟩ : BufTy).Contents (Elt F))
  :: StableHlo.binary main_v114 main_v117 main_v118 ((fun a b => concatenate S1024x128 1 [⟨S1024x64, a⟩, ⟨S1024x64, b⟩] concatenates_S1024x64_S1024x64_S1024x128_d1) : (⟨S1024x64, .f32⟩ : BufTy).Contents (Elt F) → (⟨S1024x64, .f32⟩ : BufTy).Contents (Elt F) → (⟨S1024x128, .f32⟩ : BufTy).Contents (Elt F))
  :: StableHlo.binary main_v20 main_v118 main_v119 (addf : (⟨S1024x128, .f32⟩ : BufTy).Contents (Elt F) → (⟨S1024x128, .f32⟩ : BufTy).Contents (Elt F) → (⟨S1024x128, .f32⟩ : BufTy).Contents (Elt F))
  :: StableHlo.unary main_v20 main_v120 ((extractStridedSlice S1024x64 ![0, 0] · slices_S1024x128_S1024x64_0_0) : (⟨S1024x128, .f32⟩ : BufTy).Contents (Elt F) → (⟨S1024x64, .f32⟩ : BufTy).Contents (Elt F))
  :: StableHlo.unary main_v20 main_v121 ((extractStridedSlice S1024x64 ![0, 64] · slices_S1024x128_S1024x64_0_64) : (⟨S1024x128, .f32⟩ : BufTy).Contents (Elt F) → (⟨S1024x64, .f32⟩ : BufTy).Contents (Elt F))
  :: StableHlo.unary main_v107 main_v122 ((extractStridedSlice S1024x64 ![0, 0] · slices_S1024x128_S1024x64_0_0) : (⟨S1024x128, .f32⟩ : BufTy).Contents (Elt F) → (⟨S1024x64, .f32⟩ : BufTy).Contents (Elt F))
  :: StableHlo.unary main_v107 main_v123 ((extractStridedSlice S1024x64 ![0, 64] · slices_S1024x128_S1024x64_0_64) : (⟨S1024x128, .f32⟩ : BufTy).Contents (Elt F) → (⟨S1024x64, .f32⟩ : BufTy).Contents (Elt F))
  :: StableHlo.binary main_v120 main_v122 main_v124 (mulf : (⟨S1024x64, .f32⟩ : BufTy).Contents (Elt F) → (⟨S1024x64, .f32⟩ : BufTy).Contents (Elt F) → (⟨S1024x64, .f32⟩ : BufTy).Contents (Elt F))
  :: StableHlo.binary main_v121 main_v123 main_v125 (mulf : (⟨S1024x64, .f32⟩ : BufTy).Contents (Elt F) → (⟨S1024x64, .f32⟩ : BufTy).Contents (Elt F) → (⟨S1024x64, .f32⟩ : BufTy).Contents (Elt F))
  :: StableHlo.binary main_v124 main_v125 main_v126 (addf : (⟨S1024x64, .f32⟩ : BufTy).Contents (Elt F) → (⟨S1024x64, .f32⟩ : BufTy).Contents (Elt F) → (⟨S1024x64, .f32⟩ : BufTy).Contents (Elt F))
  :: StableHlo.binary main_v120 main_v123 main_v127 (mulf : (⟨S1024x64, .f32⟩ : BufTy).Contents (Elt F) → (⟨S1024x64, .f32⟩ : BufTy).Contents (Elt F) → (⟨S1024x64, .f32⟩ : BufTy).Contents (Elt F))
  :: StableHlo.binary main_v121 main_v122 main_v128 (mulf : (⟨S1024x64, .f32⟩ : BufTy).Contents (Elt F) → (⟨S1024x64, .f32⟩ : BufTy).Contents (Elt F) → (⟨S1024x64, .f32⟩ : BufTy).Contents (Elt F))
  :: StableHlo.binary main_v127 main_v128 main_v129 (subf : (⟨S1024x64, .f32⟩ : BufTy).Contents (Elt F) → (⟨S1024x64, .f32⟩ : BufTy).Contents (Elt F) → (⟨S1024x64, .f32⟩ : BufTy).Contents (Elt F))
  :: StableHlo.binary main_v126 main_v129 main_v130 ((fun a b => concatenate S1024x128 1 [⟨S1024x64, a⟩, ⟨S1024x64, b⟩] concatenates_S1024x64_S1024x64_S1024x128_d1) : (⟨S1024x64, .f32⟩ : BufTy).Contents (Elt F) → (⟨S1024x64, .f32⟩ : BufTy).Contents (Elt F) → (⟨S1024x128, .f32⟩ : BufTy).Contents (Elt F))
  :: StableHlo.binary main_v119 main_v130 main_v131 (addf : (⟨S1024x128, .f32⟩ : BufTy).Contents (Elt F) → (⟨S1024x128, .f32⟩ : BufTy).Contents (Elt F) → (⟨S1024x128, .f32⟩ : BufTy).Contents (Elt F))
  :: StableHlo.binary main_v13 main_v57 main_v132 ((fun a b => concatenate S1024x256 1 [⟨S1024x128, a⟩, ⟨S1024x128, b⟩] concatenates_S1024x128_S1024x128_S1024x256_d1) : (⟨S1024x128, .f32⟩ : BufTy).Contents (Elt F) → (⟨S1024x128, .f32⟩ : BufTy).Contents (Elt F) → (⟨S1024x256, .f32⟩ : BufTy).Contents (Elt F))
  :: StableHlo.binary main_v131 main_v42 main_v133 ((fun a b => concatenate S1024x256 1 [⟨S1024x128, a⟩, ⟨S1024x128, b⟩] concatenates_S1024x128_S1024x128_S1024x256_d1) : (⟨S1024x128, .f32⟩ : BufTy).Contents (Elt F) → (⟨S1024x128, .f32⟩ : BufTy).Contents (Elt F) → (⟨S1024x256, .f32⟩ : BufTy).Contents (Elt F))
  :: StableHlo.unary main_v132 main_v134 ((extractStridedSlice S1024x64 ![0, 0] · slices_S1024x256_S1024x64_0_0) : (⟨S1024x256, .f32⟩ : BufTy).Contents (Elt F) → (⟨S1024x64, .f32⟩ : BufTy).Contents (Elt F))
  :: StableHlo.unary main_v132 main_v135 ((extractStridedSlice S1024x64 ![0, 64] · slices_S1024x256_S1024x64_0_64) : (⟨S1024x256, .f32⟩ : BufTy).Contents (Elt F) → (⟨S1024x64, .f32⟩ : BufTy).Contents (Elt F))
  :: StableHlo.unary main_v132 main_v136 ((extractStridedSlice S1024x64 ![0, 128] · slices_S1024x256_S1024x64_0_128) : (⟨S1024x256, .f32⟩ : BufTy).Contents (Elt F) → (⟨S1024x64, .f32⟩ : BufTy).Contents (Elt F))
  :: StableHlo.unary main_v132 main_v137 ((extractStridedSlice S1024x64 ![0, 192] · slices_S1024x256_S1024x64_0_192) : (⟨S1024x256, .f32⟩ : BufTy).Contents (Elt F) → (⟨S1024x64, .f32⟩ : BufTy).Contents (Elt F))
  :: StableHlo.unary main_v133 main_v138 ((extractStridedSlice S1024x64 ![0, 0] · slices_S1024x256_S1024x64_0_0) : (⟨S1024x256, .f32⟩ : BufTy).Contents (Elt F) → (⟨S1024x64, .f32⟩ : BufTy).Contents (Elt F))
  :: StableHlo.unary main_v133 main_v139 ((extractStridedSlice S1024x64 ![0, 64] · slices_S1024x256_S1024x64_0_64) : (⟨S1024x256, .f32⟩ : BufTy).Contents (Elt F) → (⟨S1024x64, .f32⟩ : BufTy).Contents (Elt F))
  :: StableHlo.unary main_v133 main_v140 ((extractStridedSlice S1024x64 ![0, 128] · slices_S1024x256_S1024x64_0_128) : (⟨S1024x256, .f32⟩ : BufTy).Contents (Elt F) → (⟨S1024x64, .f32⟩ : BufTy).Contents (Elt F))
  :: StableHlo.unary main_v133 main_v141 ((extractStridedSlice S1024x64 ![0, 192] · slices_S1024x256_S1024x64_0_192) : (⟨S1024x256, .f32⟩ : BufTy).Contents (Elt F) → (⟨S1024x64, .f32⟩ : BufTy).Contents (Elt F))
  :: StableHlo.binary main_v134 main_v138 main_v142 (mulf : (⟨S1024x64, .f32⟩ : BufTy).Contents (Elt F) → (⟨S1024x64, .f32⟩ : BufTy).Contents (Elt F) → (⟨S1024x64, .f32⟩ : BufTy).Contents (Elt F))
  :: StableHlo.binary main_v135 main_v139 main_v143 (mulf : (⟨S1024x64, .f32⟩ : BufTy).Contents (Elt F) → (⟨S1024x64, .f32⟩ : BufTy).Contents (Elt F) → (⟨S1024x64, .f32⟩ : BufTy).Contents (Elt F))
  :: StableHlo.binary main_v142 main_v143 main_v144 (subf : (⟨S1024x64, .f32⟩ : BufTy).Contents (Elt F) → (⟨S1024x64, .f32⟩ : BufTy).Contents (Elt F) → (⟨S1024x64, .f32⟩ : BufTy).Contents (Elt F))
  :: StableHlo.binary main_v136 main_v140 main_v145 (mulf : (⟨S1024x64, .f32⟩ : BufTy).Contents (Elt F) → (⟨S1024x64, .f32⟩ : BufTy).Contents (Elt F) → (⟨S1024x64, .f32⟩ : BufTy).Contents (Elt F))
  :: StableHlo.binary main_v144 main_v145 main_v146 (subf : (⟨S1024x64, .f32⟩ : BufTy).Contents (Elt F) → (⟨S1024x64, .f32⟩ : BufTy).Contents (Elt F) → (⟨S1024x64, .f32⟩ : BufTy).Contents (Elt F))
  :: StableHlo.binary main_v137 main_v141 main_v147 (mulf : (⟨S1024x64, .f32⟩ : BufTy).Contents (Elt F) → (⟨S1024x64, .f32⟩ : BufTy).Contents (Elt F) → (⟨S1024x64, .f32⟩ : BufTy).Contents (Elt F))
  :: StableHlo.binary main_v146 main_v147 main_v148 (subf : (⟨S1024x64, .f32⟩ : BufTy).Contents (Elt F) → (⟨S1024x64, .f32⟩ : BufTy).Contents (Elt F) → (⟨S1024x64, .f32⟩ : BufTy).Contents (Elt F))
  :: StableHlo.binary main_v135 main_v138 main_v149 (mulf : (⟨S1024x64, .f32⟩ : BufTy).Contents (Elt F) → (⟨S1024x64, .f32⟩ : BufTy).Contents (Elt F) → (⟨S1024x64, .f32⟩ : BufTy).Contents (Elt F))
  :: StableHlo.binary main_v134 main_v139 main_v150 (mulf : (⟨S1024x64, .f32⟩ : BufTy).Contents (Elt F) → (⟨S1024x64, .f32⟩ : BufTy).Contents (Elt F) → (⟨S1024x64, .f32⟩ : BufTy).Contents (Elt F))
  :: StableHlo.binary main_v149 main_v150 main_v151 (addf : (⟨S1024x64, .f32⟩ : BufTy).Contents (Elt F) → (⟨S1024x64, .f32⟩ : BufTy).Contents (Elt F) → (⟨S1024x64, .f32⟩ : BufTy).Contents (Elt F))
  :: StableHlo.binary main_v136 main_v141 main_v152 (mulf : (⟨S1024x64, .f32⟩ : BufTy).Contents (Elt F) → (⟨S1024x64, .f32⟩ : BufTy).Contents (Elt F) → (⟨S1024x64, .f32⟩ : BufTy).Contents (Elt F))
  :: StableHlo.binary main_v151 main_v152 main_v153 (addf : (⟨S1024x64, .f32⟩ : BufTy).Contents (Elt F) → (⟨S1024x64, .f32⟩ : BufTy).Contents (Elt F) → (⟨S1024x64, .f32⟩ : BufTy).Contents (Elt F))
  :: StableHlo.binary main_v137 main_v140 main_v154 (mulf : (⟨S1024x64, .f32⟩ : BufTy).Contents (Elt F) → (⟨S1024x64, .f32⟩ : BufTy).Contents (Elt F) → (⟨S1024x64, .f32⟩ : BufTy).Contents (Elt F))
  :: StableHlo.binary main_v153 main_v154 main_v155 (subf : (⟨S1024x64, .f32⟩ : BufTy).Contents (Elt F) → (⟨S1024x64, .f32⟩ : BufTy).Contents (Elt F) → (⟨S1024x64, .f32⟩ : BufTy).Contents (Elt F))
  :: StableHlo.binary main_v136 main_v138 main_v156 (mulf : (⟨S1024x64, .f32⟩ : BufTy).Contents (Elt F) → (⟨S1024x64, .f32⟩ : BufTy).Contents (Elt F) → (⟨S1024x64, .f32⟩ : BufTy).Contents (Elt F))
  :: StableHlo.binary main_v134 main_v140 main_v157 (mulf : (⟨S1024x64, .f32⟩ : BufTy).Contents (Elt F) → (⟨S1024x64, .f32⟩ : BufTy).Contents (Elt F) → (⟨S1024x64, .f32⟩ : BufTy).Contents (Elt F))
  :: StableHlo.binary main_v156 main_v157 main_v158 (addf : (⟨S1024x64, .f32⟩ : BufTy).Contents (Elt F) → (⟨S1024x64, .f32⟩ : BufTy).Contents (Elt F) → (⟨S1024x64, .f32⟩ : BufTy).Contents (Elt F))
  :: [] )
set_option maxHeartbeats 40000000 in
theorem p2c_sub : (p2c : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub ..⟩

set_option maxHeartbeats 40000000 in
abbrev p3a : List (HloOp τ sig (Elt F)) :=
  [ StableHlo.binary main_v137 main_v139 main_v159 (mulf : (⟨S1024x64, .f32⟩ : BufTy).Contents (Elt F) → (⟨S1024x64, .f32⟩ : BufTy).Contents (Elt F) → (⟨S1024x64, .f32⟩ : BufTy).Contents (Elt F)),
    StableHlo.binary main_v158 main_v159 main_v160 (addf : (⟨S1024x64, .f32⟩ : BufTy).Contents (Elt F) → (⟨S1024x64, .f32⟩ : BufTy).Contents (Elt F) → (⟨S1024x64, .f32⟩ : BufTy).Contents (Elt F)),
    StableHlo.binary main_v135 main_v141 main_v161 (mulf : (⟨S1024x64, .f32⟩ : BufTy).Contents (Elt F) → (⟨S1024x64, .f32⟩ : BufTy).Contents (Elt F) → (⟨S1024x64, .f32⟩ : BufTy).Contents (Elt F)),
    StableHlo.binary main_v160 main_v161 main_v162 (subf : (⟨S1024x64, .f32⟩ : BufTy).Contents (Elt F) → (⟨S1024x64, .f32⟩ : BufTy).Contents (Elt F) → (⟨S1024x64, .f32⟩ : BufTy).Contents (Elt F)),
    StableHlo.binary main_v137 main_v138 main_v163 (mulf : (⟨S1024x64, .f32⟩ : BufTy).Contents (Elt F) → (⟨S1024x64, .f32⟩ : BufTy).Contents (Elt F) → (⟨S1024x64, .f32⟩ : BufTy).Contents (Elt F)),
    StableHlo.binary main_v134 main_v141 main_v164 (mulf : (⟨S1024x64, .f32⟩ : BufTy).Contents (Elt F) → (⟨S1024x64, .f32⟩ : BufTy).Contents (Elt F) → (⟨S1024x64, .f32⟩ : BufTy).Contents (Elt F)),
    StableHlo.binary main_v163 main_v164 main_v165 (addf : (⟨S1024x64, .f32⟩ : BufTy).Contents (Elt F) → (⟨S1024x64, .f32⟩ : BufTy).Contents (Elt F) → (⟨S1024x64, .f32⟩ : BufTy).Contents (Elt F)),
    StableHlo.binary main_v135 main_v140 main_v166 (mulf : (⟨S1024x64, .f32⟩ : BufTy).Contents (Elt F) → (⟨S1024x64, .f32⟩ : BufTy).Contents (Elt F) → (⟨S1024x64, .f32⟩ : BufTy).Contents (Elt F)),
    StableHlo.binary main_v165 main_v166 main_v167 (addf : (⟨S1024x64, .f32⟩ : BufTy).Contents (Elt F) → (⟨S1024x64, .f32⟩ : BufTy).Contents (Elt F) → (⟨S1024x64, .f32⟩ : BufTy).Contents (Elt F)),
    StableHlo.binary main_v136 main_v139 main_v168 (mulf : (⟨S1024x64, .f32⟩ : BufTy).Contents (Elt F) → (⟨S1024x64, .f32⟩ : BufTy).Contents (Elt F) → (⟨S1024x64, .f32⟩ : BufTy).Contents (Elt F)),
    StableHlo.binary main_v167 main_v168 main_v169 (subf : (⟨S1024x64, .f32⟩ : BufTy).Contents (Elt F) → (⟨S1024x64, .f32⟩ : BufTy).Contents (Elt F) → (⟨S1024x64, .f32⟩ : BufTy).Contents (Elt F)),
    StableHlo.nary ![main_v148, main_v155, main_v162, main_v169] main_v170 (fun u => concatenate S1024x256 1 [⟨S1024x64, u 0⟩, ⟨S1024x64, u 1⟩, ⟨S1024x64, u 2⟩, ⟨S1024x64, u 3⟩] concatenates_S1024x64_S1024x64_S1024x64_S1024x64_S1024x256_d1),
    StableHlo.unary main_v170 main_v171 ((extractStridedSlice S1024x128 ![0, 0] · slices_S1024x256_S1024x128_0_0) : (⟨S1024x256, .f32⟩ : BufTy).Contents (Elt F) → (⟨S1024x128, .f32⟩ : BufTy).Contents (Elt F)),
    StableHlo.unary main_v170 main_v172 ((extractStridedSlice S1024x128 ![0, 128] · slices_S1024x256_S1024x128_0_128) : (⟨S1024x256, .f32⟩ : BufTy).Contents (Elt F) → (⟨S1024x128, .f32⟩ : BufTy).Contents (Elt F)),
    StableHlo.binary main_v171 main_v172 main_v173 (addf : (⟨S1024x128, .f32⟩ : BufTy).Contents (Elt F) → (⟨S1024x128, .f32⟩ : BufTy).Contents (Elt F) → (⟨S1024x128, .f32⟩ : BufTy).Contents (Elt F)),
    StableHlo.unary main_arg1 main_v174 ((transpose S128x40000 [1, 0] · transposes_S40000x128_S128x40000_1_0) : (⟨S40000x128, .f32⟩ : BufTy).Contents (Elt F) → (⟨S128x40000, .f32⟩ : BufTy).Contents (Elt F)),
    StableHlo.binary main_v173 main_v174 main_v175 ((fun l r => Host.dotGeneral dot_S1024x128_S128x40000_S1024x40000_1_0_0_1_n_n none l r) : (⟨S1024x128, .f32⟩ : BufTy).Contents (Elt F) → (⟨S128x40000, .f32⟩ : BufTy).Contents (Elt F) → (⟨S1024x40000, .f32⟩ : BufTy).Contents (Elt F)) ]
set_option maxHeartbeats 40000000 in
theorem p3a_sub : (p3a : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.nary_bufs_sub .., StableHlo.unary_bufs_sub .., StableHlo.unary_bufs_sub .., StableHlo.binary_bufs_sub .., StableHlo.unary_bufs_sub .., StableHlo.binary_bufs_sub ..⟩

theorem part0_chain (c : Dev nD) : main_part0 (F := F) c = (Pipeline.chainK [StableHlo.seq p0a, StableHlo.seq p0b] (StableHlo.seq p0c) : Prog (TpuEff nD τ sig (Elt F) (Pipeline.Sig Λ₀ (Fin 0) fun p => (pcfgs (F := F) p).Adm) .tc) PUnit) := by
  chain_rfl
theorem part1_chain (c : Dev nD) : main_part1 (F := F) c = (Pipeline.chainK [] (StableHlo.seq p1a) : Prog (TpuEff nD τ sig (Elt F) (Pipeline.Sig Λ₀ (Fin 0) fun p => (pcfgs (F := F) p).Adm) .tc) PUnit) := by
  chain_rfl
theorem part2_chain (c : Dev nD) : main_part2 (F := F) c = (Pipeline.chainK [StableHlo.seq p2a, StableHlo.seq p2b] (StableHlo.seq p2c) : Prog (TpuEff nD τ sig (Elt F) (Pipeline.Sig Λ₀ (Fin 0) fun p => (pcfgs (F := F) p).Adm) .tc) PUnit) := by
  chain_rfl
theorem part3_chain (c : Dev nD) : main_part3 (F := F) c = (Pipeline.chain [StableHlo.seq p3a] : Prog (TpuEff nD τ sig (Elt F) (Pipeline.Sig Λ₀ (Fin 0) fun p => (pcfgs (F := F) p).Adm) .tc) PUnit) := by
  chain_rfl

/-- A chain of straight lines is the straight line of their concatenation. -/
theorem chain_seq {nD' : Nat} {τ' : Topo} {sig' : RefSig} {Val : EltTy → Type} {Λ : Labels}
    (opss : List (List (HloOp τ' sig' Val))) :
    (Pipeline.chain (opss.map StableHlo.seq) : Prog (TpuEff nD' τ' sig' Val Λ .tc) PUnit) = StableHlo.seq opss.flatten := by
  induction opss with
  | nil => rfl
  | cons l ls ih => rw [List.map_cons, Pipeline.chain_cons, ih, List.flatten_cons, StableHlo.seq_append]

/-- All the operations, in order. -/
abbrev ops : List (HloOp τ sig (Elt F)) := List.flatten [p0a, p0b, p0c, p1a, p2a, p2b, p2c, p3a]

set_option maxHeartbeats 40000000 in
/-- The last window's operations before the transpose and the product. -/
abbrev p3pre : List (HloOp τ sig (Elt F)) :=
  [ StableHlo.binary main_v137 main_v139 main_v159 (mulf : (⟨S1024x64, .f32⟩ : BufTy).Contents (Elt F) → (⟨S1024x64, .f32⟩ : BufTy).Contents (Elt F) → (⟨S1024x64, .f32⟩ : BufTy).Contents (Elt F)),
    StableHlo.binary main_v158 main_v159 main_v160 (addf : (⟨S1024x64, .f32⟩ : BufTy).Contents (Elt F) → (⟨S1024x64, .f32⟩ : BufTy).Contents (Elt F) → (⟨S1024x64, .f32⟩ : BufTy).Contents (Elt F)),
    StableHlo.binary main_v135 main_v141 main_v161 (mulf : (⟨S1024x64, .f32⟩ : BufTy).Contents (Elt F) → (⟨S1024x64, .f32⟩ : BufTy).Contents (Elt F) → (⟨S1024x64, .f32⟩ : BufTy).Contents (Elt F)),
    StableHlo.binary main_v160 main_v161 main_v162 (subf : (⟨S1024x64, .f32⟩ : BufTy).Contents (Elt F) → (⟨S1024x64, .f32⟩ : BufTy).Contents (Elt F) → (⟨S1024x64, .f32⟩ : BufTy).Contents (Elt F)),
    StableHlo.binary main_v137 main_v138 main_v163 (mulf : (⟨S1024x64, .f32⟩ : BufTy).Contents (Elt F) → (⟨S1024x64, .f32⟩ : BufTy).Contents (Elt F) → (⟨S1024x64, .f32⟩ : BufTy).Contents (Elt F)),
    StableHlo.binary main_v134 main_v141 main_v164 (mulf : (⟨S1024x64, .f32⟩ : BufTy).Contents (Elt F) → (⟨S1024x64, .f32⟩ : BufTy).Contents (Elt F) → (⟨S1024x64, .f32⟩ : BufTy).Contents (Elt F)),
    StableHlo.binary main_v163 main_v164 main_v165 (addf : (⟨S1024x64, .f32⟩ : BufTy).Contents (Elt F) → (⟨S1024x64, .f32⟩ : BufTy).Contents (Elt F) → (⟨S1024x64, .f32⟩ : BufTy).Contents (Elt F)),
    StableHlo.binary main_v135 main_v140 main_v166 (mulf : (⟨S1024x64, .f32⟩ : BufTy).Contents (Elt F) → (⟨S1024x64, .f32⟩ : BufTy).Contents (Elt F) → (⟨S1024x64, .f32⟩ : BufTy).Contents (Elt F)),
    StableHlo.binary main_v165 main_v166 main_v167 (addf : (⟨S1024x64, .f32⟩ : BufTy).Contents (Elt F) → (⟨S1024x64, .f32⟩ : BufTy).Contents (Elt F) → (⟨S1024x64, .f32⟩ : BufTy).Contents (Elt F)),
    StableHlo.binary main_v136 main_v139 main_v168 (mulf : (⟨S1024x64, .f32⟩ : BufTy).Contents (Elt F) → (⟨S1024x64, .f32⟩ : BufTy).Contents (Elt F) → (⟨S1024x64, .f32⟩ : BufTy).Contents (Elt F)),
    StableHlo.binary main_v167 main_v168 main_v169 (subf : (⟨S1024x64, .f32⟩ : BufTy).Contents (Elt F) → (⟨S1024x64, .f32⟩ : BufTy).Contents (Elt F) → (⟨S1024x64, .f32⟩ : BufTy).Contents (Elt F)),
    StableHlo.nary ![main_v148, main_v155, main_v162, main_v169] main_v170 (fun u => concatenate S1024x256 1 [⟨S1024x64, u 0⟩, ⟨S1024x64, u 1⟩, ⟨S1024x64, u 2⟩, ⟨S1024x64, u 3⟩] concatenates_S1024x64_S1024x64_S1024x64_S1024x64_S1024x256_d1),
    StableHlo.unary main_v170 main_v171 ((extractStridedSlice S1024x128 ![0, 0] · slices_S1024x256_S1024x128_0_0) : (⟨S1024x256, .f32⟩ : BufTy).Contents (Elt F) → (⟨S1024x128, .f32⟩ : BufTy).Contents (Elt F)),
    StableHlo.unary main_v170 main_v172 ((extractStridedSlice S1024x128 ![0, 128] · slices_S1024x256_S1024x128_0_128) : (⟨S1024x256, .f32⟩ : BufTy).Contents (Elt F) → (⟨S1024x128, .f32⟩ : BufTy).Contents (Elt F)),
    StableHlo.binary main_v171 main_v172 main_v173 (addf : (⟨S1024x128, .f32⟩ : BufTy).Contents (Elt F) → (⟨S1024x128, .f32⟩ : BufTy).Contents (Elt F) → (⟨S1024x128, .f32⟩ : BufTy).Contents (Elt F)) ]
/-- The transpose of the table and the product. -/
abbrev p3tail : List (HloOp τ sig (Elt F)) :=
  [ StableHlo.unary main_arg1 main_v174 ((transpose S128x40000 [1, 0] · transposes_S40000x128_S128x40000_1_0) : (⟨S40000x128, .f32⟩ : BufTy).Contents (Elt F) → (⟨S128x40000, .f32⟩ : BufTy).Contents (Elt F)),
    StableHlo.binary main_v173 main_v174 main_v175 ((fun l r => Host.dotGeneral dot_S1024x128_S128x40000_S1024x40000_1_0_0_1_n_n none l r) : (⟨S1024x128, .f32⟩ : BufTy).Contents (Elt F) → (⟨S128x40000, .f32⟩ : BufTy).Contents (Elt F) → (⟨S1024x40000, .f32⟩ : BufTy).Contents (Elt F)) ]
theorem p3a_split : (p3a : List (HloOp τ sig (Elt F))) = p3pre ++ p3tail := rfl

/-- All the operations up to the left rows. -/
abbrev pre : List (HloOp τ sig (Elt F)) := List.flatten [p0a, p0b, p0c, p1a, p2a, p2b, p2c, p3pre]

theorem ops_split : (ops : List (HloOp τ sig (Elt F))) = pre ++ p3tail := by
  simp only [ops, pre, p3a_split, List.flatten_cons, List.flatten_nil, List.append_nil, List.append_assoc]

/-- A line run after another is their concatenation's fold. -/
theorem after_append {τ' : Topo} {sig' : RefSig} {Val : EltTy → Type} (l₁ l₂ : List (HloOp τ' sig' Val)) (V : Valuation τ' sig' Val) :
    StableHlo.after (l₁ ++ l₂) V = StableHlo.after l₂ (StableHlo.after l₁ V) := by
  induction l₁ generalizing V with
  | nil => rfl
  | cons op l ih => exact ih _

theorem main_eq (c : Dev nD) : main (F := F) c = StableHlo.seq ops := by
  show (main_part0 (F := F) c >>= fun _ => main_part1 (F := F) c >>= fun _ => main_part2 (F := F) c >>= fun _ => main_part3 (F := F) c) = _
  rewrite [part3_chain, part2_chain, Pipeline.chainK_bind_chain, part1_chain, Pipeline.chainK_bind_chain, part0_chain, Pipeline.chainK_bind_chain]
  exact chain_seq [p0a, p0b, p0c, p1a, p2a, p2b, p2c, p3a]

theorem ops_sub : (ops : List (HloOp τ sig (Elt F))).Forall fun op => op.bufs ⊆ StableHlo.tcRefs τ sig := by
  rw [List.forall_iff_forall_mem]
  intro op hop
  simp only [ops, List.mem_flatten, List.mem_cons, List.not_mem_nil, or_false] at hop
  obtain ⟨l, hl, hm⟩ := hop
  rcases hl with rfl | rfl | rfl | rfl | rfl | rfl | rfl | rfl
  · exact List.forall_iff_forall_mem.mp p0a_sub op hm
  · exact List.forall_iff_forall_mem.mp p0b_sub op hm
  · exact List.forall_iff_forall_mem.mp p0c_sub op hm
  · exact List.forall_iff_forall_mem.mp p1a_sub op hm
  · exact List.forall_iff_forall_mem.mp p2a_sub op hm
  · exact List.forall_iff_forall_mem.mp p2b_sub op hm
  · exact List.forall_iff_forall_mem.mp p2c_sub op hm
  · exact List.forall_iff_forall_mem.mp p3a_sub op hm

theorem scopedRefs_eq : (Finset.univ.filter fun b : Ref sig .tc => b.isScoped) = ∅ := by decide
theorem scopedSems_eq : (Finset.univ.filter fun sm : SemLoc sig => sm.isScoped .tc) = ∅ := by decide

/-- Every weakly fair execution of the reference terminates, each buffer of each core ending at the line's
    fold over the launch contents. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ

end Cert.ReferenceIdeal.Line

end
-- ==== Proof.LibFoldConcat.lean ====
/-
  Folding a straight line of host operations through concatenations.

  The contents a buffer holds after a line of host operations are a fold of the operations' results over the launch
  contents, and the library's result lemmas rewrite that fold one operation at a time. Two kinds of concatenation stop
  the rewriting, and the two facts here let it go on:

  * an operation on a LITERAL family of three references (three arrays laid end to end): the library states such an
    operation's result with the operands read under a binder, `fun k => V ↑(![x, a, b] k)`, where no result lemma
    applies; `nary3_result'` states it with each operand's contents at its own reference (the three-operand analogue of
    the library's lemma for four);
  * a two-piece concatenation `concatenate t a [⟨s1, x1⟩, ⟨s2, x2⟩] hc`: its side condition `hc` is stated over the list
    of pieces, so a rewriting pass cannot enter the pieces; `cat2` is the same value with each piece an argument of its
    own, and `cat2_fold` turns the one into the other (by definition), after which the pieces are rewritten like any
    other argument.

  Use: add `nary3_result'` and `cat2_fold` to the `simp (disch := decide) only [after_cons, after_nil, …_result', …_result_ne']`
  pass that computes `StableHlo.after ops V ↑b`, and close against the composed term by `rfl` (`cat2` unfolds).
-/
import Idealize.ShloMosaic.Lib.StableHlo.Run

noncomputable section

namespace Cert.Lib.FoldConcat

open Idealize.ShloMosaic Idealize.ShloMosaic.TcCoe Idealize.ShloMosaic.StableHlo

variable {τ : Topo} {sig : RefSig} {Val : EltTy → Type}

/-- An operation on a literal family of three references: its result with each operand's contents at its own reference. -/
theorem nary3_result' {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) := by
  rw [nary_result]; congr 1; funext k; fin_cases k <;> rfl

/-- Two pieces laid side by side along an axis, each piece an argument of its own. -/
def cat2 {α : Type} (t : Shape) (a : Fin t.rank) (s1 s2 : Shape) (x1 : s1.Idx → α) (x2 : s2.Idx → α)
    (hc : Shape.Concatenates [s1, s2] t a) : t.Idx → α :=
  concatenate t a [⟨s1, x1⟩, ⟨s2, x2⟩] hc

/-- The library's two-piece concatenation is `cat2` of its pieces. -/
theorem cat2_fold {α : Type} (t : Shape) (a : Fin t.rank) (s1 s2 : Shape) (x1 : s1.Idx → α) (x2 : s2.Idx → α)
    (hc : Shape.Concatenates [s1, s2] t a) : concatenate t a [⟨s1, x1⟩, ⟨s2, x2⟩] hc = cat2 t a s1 s2 x1 x2 hc := rfl

end Cert.Lib.FoldConcat

end
-- ==== Proof.LibFoldConcat4.lean ====
/-
  A four-piece concatenation with each piece an argument of its own.

  `concatenate t a [⟨s1, x1⟩, ⟨s2, x2⟩, ⟨s3, x3⟩, ⟨s4, x4⟩] hc` carries its side condition over the list of pieces, so a
  rewriting pass cannot enter the pieces; `cat4` is the same value with the pieces as separate arguments, and
  `cat4_fold` turns the one into the other (by definition).
-/
import Idealize.ShloMosaic.Lib.StableHlo.Run

noncomputable section

namespace Cert.Lib.FoldConcat4

open Idealize.ShloMosaic

/-- Four pieces laid side by side along an axis, each piece an argument of its own. -/
def cat4 {α : Type} (t : Shape) (a : Fin t.rank) (s1 s2 s3 s4 : Shape) (x1 : s1.Idx → α) (x2 : s2.Idx → α) (x3 : s3.Idx → α) (x4 : s4.Idx → α)
    (hc : Shape.Concatenates [s1, s2, s3, s4] t a) : t.Idx → α :=
  concatenate t a [⟨s1, x1⟩, ⟨s2, x2⟩, ⟨s3, x3⟩, ⟨s4, x4⟩] hc

/-- The library's four-piece concatenation is `cat4` of its pieces. -/
theorem cat4_fold {α : Type} (t : Shape) (a : Fin t.rank) (s1 s2 s3 s4 : Shape) (x1 : s1.Idx → α) (x2 : s2.Idx → α) (x3 : s3.Idx → α) (x4 : s4.Idx → α)
    (hc : Shape.Concatenates [s1, s2, s3, s4] t a) :
    concatenate t a [⟨s1, x1⟩, ⟨s2, x2⟩, ⟨s3, x3⟩, ⟨s4, x4⟩] hc = cat4 t a s1 s2 s3 s4 x1 x2 x3 x4 hc := rfl

end Cert.Lib.FoldConcat4

end
-- ==== Proof.Bridge.lean ====
/-
  The two programs compute the left rows alike. Both run the same host lines up to them; the lines are compared
  in five stretches, each a function of a few arrays the stretch before it left: the index columns; the floor
  division of the time index; the gathered rows and the two candidate rule scores; the choice between them; the
  relation vector, the four-part product and its two halves' sum. Within a stretch the two programs' folds are
  the same composition of the same operations, so equal inputs give equal outputs.
-/
import proofs.«108893_j7421703488266_2_alg».proof.Proof.RefLine
import proofs.«108893_j7421703488266_2_alg».proof.Proof.KernelIdealEntry
import proofs.«108893_j7421703488266_2_alg».proof.Proof.LibFoldConcat
import proofs.«108893_j7421703488266_2_alg».proof.Proof.LibFoldConcat4
import Idealize.ShloMosaic.PureOps.Ideal
import Idealize.ShloMosaic.PureOps.Ideal.Laws

set_option maxRecDepth 16384

noncomputable section

namespace Cert.Bridge

open Idealize.ShloMosaic Idealize.ShloMosaic.TcCoe Idealize.SL.Sem Idealize.ShloMosaic.StableHlo

section
open Cert.ReferenceIdeal Cert.ReferenceIdeal.Gen
theorem ref_v170 (V : Valuation τ sig (Elt Ideal)) (hxs) (hy) :
    (StableHlo.nary ![main_v148, main_v155, main_v162, main_v169] main_v170 (fun u => concatenate S1024x256 1 [⟨S1024x64, u 0⟩, ⟨S1024x64, u 1⟩, ⟨S1024x64, u 2⟩, ⟨S1024x64, u 3⟩] concatenates_S1024x64_S1024x64_S1024x64_S1024x64_S1024x256_d1) hxs hy).result V (no_index (Proc.devRef .tc main_v170))
      = Cert.Lib.FoldConcat4.cat4 S1024x256 1 S1024x64 S1024x64 S1024x64 S1024x64 (V (Proc.devRef .tc main_v148)) (V (Proc.devRef .tc main_v155)) (V (Proc.devRef .tc main_v162)) (V (Proc.devRef .tc main_v169)) concatenates_S1024x64_S1024x64_S1024x64_S1024x64_S1024x256_d1 := by
  rw [nary4_result]; rfl
end

section
open Cert.KernelIdeal Cert.KernelIdeal.Gen
theorem ker_v170 (V : Valuation τ sig (Elt Ideal)) (hxs) (hy) :
    (StableHlo.nary ![main_v148, main_v155, main_v162, main_v169] main_v170 (fun u => concatenate S1024x256 1 [⟨S1024x64, u 0⟩, ⟨S1024x64, u 1⟩, ⟨S1024x64, u 2⟩, ⟨S1024x64, u 3⟩] concatenates_S1024x64_S1024x64_S1024x64_S1024x64_S1024x256_d1) hxs hy).result V (no_index (Proc.devRef .tc main_v170))
      = Cert.Lib.FoldConcat4.cat4 S1024x256 1 S1024x64 S1024x64 S1024x64 S1024x64 (V (Proc.devRef .tc main_v148)) (V (Proc.devRef .tc main_v155)) (V (Proc.devRef .tc main_v162)) (V (Proc.devRef .tc main_v169)) concatenates_S1024x64_S1024x64_S1024x64_S1024x64_S1024x256_d1 := by
  rw [nary4_result]; rfl
end

set_option maxHeartbeats 40000000 in
/-- The three index columns and the cycle length. -/
theorem stage1 (W : Valuation Cert.KernelIdeal.τ Cert.KernelIdeal.sig (Elt Ideal)) (W' : Valuation Cert.ReferenceIdeal.τ Cert.ReferenceIdeal.sig (Elt Ideal))
    (h_main_arg0 : (W' (Proc.devRef .tc Cert.ReferenceIdeal.main_arg0) : (Proc.devRef (τ := Cert.KernelIdeal.τ) .tc Cert.KernelIdeal.main_arg0).ty.Contents (Elt Ideal)) = W (Proc.devRef .tc Cert.KernelIdeal.main_arg0))
    (h_main_arg1 : (W' (Proc.devRef .tc Cert.ReferenceIdeal.main_arg1) : (Proc.devRef (τ := Cert.KernelIdeal.τ) .tc Cert.KernelIdeal.main_arg1).ty.Contents (Elt Ideal)) = W (Proc.devRef .tc Cert.KernelIdeal.main_arg1))
    (h_main_arg2 : (W' (Proc.devRef .tc Cert.ReferenceIdeal.main_arg2) : (Proc.devRef (τ := Cert.KernelIdeal.τ) .tc Cert.KernelIdeal.main_arg2).ty.Contents (Elt Ideal)) = W (Proc.devRef .tc Cert.KernelIdeal.main_arg2))
    (h_main_arg3 : (W' (Proc.devRef .tc Cert.ReferenceIdeal.main_arg3) : (Proc.devRef (τ := Cert.KernelIdeal.τ) .tc Cert.KernelIdeal.main_arg3).ty.Contents (Elt Ideal)) = W (Proc.devRef .tc Cert.KernelIdeal.main_arg3))
    (h_main_arg4 : (W' (Proc.devRef .tc Cert.ReferenceIdeal.main_arg4) : (Proc.devRef (τ := Cert.KernelIdeal.τ) .tc Cert.KernelIdeal.main_arg4).ty.Contents (Elt Ideal)) = W (Proc.devRef .tc Cert.KernelIdeal.main_arg4))
    (h_main_arg5 : (W' (Proc.devRef .tc Cert.ReferenceIdeal.main_arg5) : (Proc.devRef (τ := Cert.KernelIdeal.τ) .tc Cert.KernelIdeal.main_arg5).ty.Contents (Elt Ideal)) = W (Proc.devRef .tc Cert.KernelIdeal.main_arg5))
    (h_main_arg6 : (W' (Proc.devRef .tc Cert.ReferenceIdeal.main_arg6) : (Proc.devRef (τ := Cert.KernelIdeal.τ) .tc Cert.KernelIdeal.main_arg6).ty.Contents (Elt Ideal)) = W (Proc.devRef .tc Cert.KernelIdeal.main_arg6))
    (h_main_arg7 : (W' (Proc.devRef .tc Cert.ReferenceIdeal.main_arg7) : (Proc.devRef (τ := Cert.KernelIdeal.τ) .tc Cert.KernelIdeal.main_arg7).ty.Contents (Elt Ideal)) = W (Proc.devRef .tc Cert.KernelIdeal.main_arg7))
    (h_main_arg8 : (W' (Proc.devRef .tc Cert.ReferenceIdeal.main_arg8) : (Proc.devRef (τ := Cert.KernelIdeal.τ) .tc Cert.KernelIdeal.main_arg8).ty.Contents (Elt Ideal)) = W (Proc.devRef .tc Cert.KernelIdeal.main_arg8))
    (h_main_arg9 : (W' (Proc.devRef .tc Cert.ReferenceIdeal.main_arg9) : (Proc.devRef (τ := Cert.KernelIdeal.τ) .tc Cert.KernelIdeal.main_arg9).ty.Contents (Elt Ideal)) = W (Proc.devRef .tc Cert.KernelIdeal.main_arg9))
    (h_main_arg10 : (W' (Proc.devRef .tc Cert.ReferenceIdeal.main_arg10) : (Proc.devRef (τ := Cert.KernelIdeal.τ) .tc Cert.KernelIdeal.main_arg10).ty.Contents (Elt Ideal)) = W (Proc.devRef .tc Cert.KernelIdeal.main_arg10)) :
    (StableHlo.after (List.flatten [Cert.ReferenceIdeal.Line.p0a]) W' (Proc.devRef .tc Cert.ReferenceIdeal.main_v1) : (Proc.devRef (τ := Cert.KernelIdeal.τ) .tc Cert.KernelIdeal.main_v1).ty.Contents (Elt Ideal)) = StableHlo.after (List.flatten [Cert.KernelIdeal.Gen.hostOps0]) W (Proc.devRef .tc Cert.KernelIdeal.main_v1)
    ∧ (StableHlo.after (List.flatten [Cert.ReferenceIdeal.Line.p0a]) W' (Proc.devRef .tc Cert.ReferenceIdeal.main_v3) : (Proc.devRef (τ := Cert.KernelIdeal.τ) .tc Cert.KernelIdeal.main_v3).ty.Contents (Elt Ideal)) = StableHlo.after (List.flatten [Cert.KernelIdeal.Gen.hostOps0]) W (Proc.devRef .tc Cert.KernelIdeal.main_v3)
    ∧ (StableHlo.after (List.flatten [Cert.ReferenceIdeal.Line.p0a]) W' (Proc.devRef .tc Cert.ReferenceIdeal.main_v5) : (Proc.devRef (τ := Cert.KernelIdeal.τ) .tc Cert.KernelIdeal.main_v5).ty.Contents (Elt Ideal)) = StableHlo.after (List.flatten [Cert.KernelIdeal.Gen.hostOps0]) W (Proc.devRef .tc Cert.KernelIdeal.main_v5)
    ∧ (StableHlo.after (List.flatten [Cert.ReferenceIdeal.Line.p0a]) W' (Proc.devRef .tc Cert.ReferenceIdeal.main_c) : (Proc.devRef (τ := Cert.KernelIdeal.τ) .tc Cert.KernelIdeal.main_c).ty.Contents (Elt Ideal)) = StableHlo.after (List.flatten [Cert.KernelIdeal.Gen.hostOps0]) W (Proc.devRef .tc Cert.KernelIdeal.main_c)
    ∧ (StableHlo.after (List.flatten [Cert.ReferenceIdeal.Line.p0a]) W' (Proc.devRef .tc Cert.ReferenceIdeal.main_arg0) : (Proc.devRef (τ := Cert.KernelIdeal.τ) .tc Cert.KernelIdeal.main_arg0).ty.Contents (Elt Ideal)) = StableHlo.after (List.flatten [Cert.KernelIdeal.Gen.hostOps0]) W (Proc.devRef .tc Cert.KernelIdeal.main_arg0)
    ∧ (StableHlo.after (List.flatten [Cert.ReferenceIdeal.Line.p0a]) W' (Proc.devRef .tc Cert.ReferenceIdeal.main_arg1) : (Proc.devRef (τ := Cert.KernelIdeal.τ) .tc Cert.KernelIdeal.main_arg1).ty.Contents (Elt Ideal)) = StableHlo.after (List.flatten [Cert.KernelIdeal.Gen.hostOps0]) W (Proc.devRef .tc Cert.KernelIdeal.main_arg1)
    ∧ (StableHlo.after (List.flatten [Cert.ReferenceIdeal.Line.p0a]) W' (Proc.devRef .tc Cert.ReferenceIdeal.main_arg2) : (Proc.devRef (τ := Cert.KernelIdeal.τ) .tc Cert.KernelIdeal.main_arg2).ty.Contents (Elt Ideal)) = StableHlo.after (List.flatten [Cert.KernelIdeal.Gen.hostOps0]) W (Proc.devRef .tc Cert.KernelIdeal.main_arg2)
    ∧ (StableHlo.after (List.flatten [Cert.ReferenceIdeal.Line.p0a]) W' (Proc.devRef .tc Cert.ReferenceIdeal.main_arg3) : (Proc.devRef (τ := Cert.KernelIdeal.τ) .tc Cert.KernelIdeal.main_arg3).ty.Contents (Elt Ideal)) = StableHlo.after (List.flatten [Cert.KernelIdeal.Gen.hostOps0]) W (Proc.devRef .tc Cert.KernelIdeal.main_arg3)
    ∧ (StableHlo.after (List.flatten [Cert.ReferenceIdeal.Line.p0a]) W' (Proc.devRef .tc Cert.ReferenceIdeal.main_arg4) : (Proc.devRef (τ := Cert.KernelIdeal.τ) .tc Cert.KernelIdeal.main_arg4).ty.Contents (Elt Ideal)) = StableHlo.after (List.flatten [Cert.KernelIdeal.Gen.hostOps0]) W (Proc.devRef .tc Cert.KernelIdeal.main_arg4)
    ∧ (StableHlo.after (List.flatten [Cert.ReferenceIdeal.Line.p0a]) W' (Proc.devRef .tc Cert.ReferenceIdeal.main_arg5) : (Proc.devRef (τ := Cert.KernelIdeal.τ) .tc Cert.KernelIdeal.main_arg5).ty.Contents (Elt Ideal)) = StableHlo.after (List.flatten [Cert.KernelIdeal.Gen.hostOps0]) W (Proc.devRef .tc Cert.KernelIdeal.main_arg5)
    ∧ (StableHlo.after (List.flatten [Cert.ReferenceIdeal.Line.p0a]) W' (Proc.devRef .tc Cert.ReferenceIdeal.main_arg6) : (Proc.devRef (τ := Cert.KernelIdeal.τ) .tc Cert.KernelIdeal.main_arg6).ty.Contents (Elt Ideal)) = StableHlo.after (List.flatten [Cert.KernelIdeal.Gen.hostOps0]) W (Proc.devRef .tc Cert.KernelIdeal.main_arg6)
    ∧ (StableHlo.after (List.flatten [Cert.ReferenceIdeal.Line.p0a]) W' (Proc.devRef .tc Cert.ReferenceIdeal.main_arg7) : (Proc.devRef (τ := Cert.KernelIdeal.τ) .tc Cert.KernelIdeal.main_arg7).ty.Contents (Elt Ideal)) = StableHlo.after (List.flatten [Cert.KernelIdeal.Gen.hostOps0]) W (Proc.devRef .tc Cert.KernelIdeal.main_arg7)
    ∧ (StableHlo.after (List.flatten [Cert.ReferenceIdeal.Line.p0a]) W' (Proc.devRef .tc Cert.ReferenceIdeal.main_arg8) : (Proc.devRef (τ := Cert.KernelIdeal.τ) .tc Cert.KernelIdeal.main_arg8).ty.Contents (Elt Ideal)) = StableHlo.after (List.flatten [Cert.KernelIdeal.Gen.hostOps0]) W (Proc.devRef .tc Cert.KernelIdeal.main_arg8)
    ∧ (StableHlo.after (List.flatten [Cert.ReferenceIdeal.Line.p0a]) W' (Proc.devRef .tc Cert.ReferenceIdeal.main_arg9) : (Proc.devRef (τ := Cert.KernelIdeal.τ) .tc Cert.KernelIdeal.main_arg9).ty.Contents (Elt Ideal)) = StableHlo.after (List.flatten [Cert.KernelIdeal.Gen.hostOps0]) W (Proc.devRef .tc Cert.KernelIdeal.main_arg9)
    ∧ (StableHlo.after (List.flatten [Cert.ReferenceIdeal.Line.p0a]) W' (Proc.devRef .tc Cert.ReferenceIdeal.main_arg10) : (Proc.devRef (τ := Cert.KernelIdeal.τ) .tc Cert.KernelIdeal.main_arg10).ty.Contents (Elt Ideal)) = StableHlo.after (List.flatten [Cert.KernelIdeal.Gen.hostOps0]) W (Proc.devRef .tc Cert.KernelIdeal.main_arg10) := by
  simp (disch := decide) only [Cert.KernelIdeal.Gen.hostOps0, Cert.ReferenceIdeal.Line.p0a, List.flatten_cons, List.flatten_nil, List.append_nil, List.cons_append, List.nil_append,
      StableHlo.TRef.nullary, StableHlo.TRef.unary, StableHlo.TRef.binary, StableHlo.TRef.ternary,
      Cert.Lib.FoldConcat.cat2_fold, ref_v170, ker_v170,
      after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne']
  (try simp only [h_main_arg0, h_main_arg1, h_main_arg2, h_main_arg3, h_main_arg4, h_main_arg5, h_main_arg6, h_main_arg7, h_main_arg8, h_main_arg9, h_main_arg10])
  (try (refine ⟨?_, ?_, ?_, ?_, ?_, ?_, ?_, ?_, ?_, ?_, ?_, ?_, ?_, ?_, ?_⟩)) <;> first | trivial | rfl

set_option maxHeartbeats 40000000 in
/-- The time index's floor division by the cycle length. -/
theorem stage2 (W : Valuation Cert.KernelIdeal.τ Cert.KernelIdeal.sig (Elt Ideal)) (W' : Valuation Cert.ReferenceIdeal.τ Cert.ReferenceIdeal.sig (Elt Ideal))
    (h_main_v1 : (W' (Proc.devRef .tc Cert.ReferenceIdeal.main_v1) : (Proc.devRef (τ := Cert.KernelIdeal.τ) .tc Cert.KernelIdeal.main_v1).ty.Contents (Elt Ideal)) = W (Proc.devRef .tc Cert.KernelIdeal.main_v1))
    (h_main_v3 : (W' (Proc.devRef .tc Cert.ReferenceIdeal.main_v3) : (Proc.devRef (τ := Cert.KernelIdeal.τ) .tc Cert.KernelIdeal.main_v3).ty.Contents (Elt Ideal)) = W (Proc.devRef .tc Cert.KernelIdeal.main_v3))
    (h_main_v5 : (W' (Proc.devRef .tc Cert.ReferenceIdeal.main_v5) : (Proc.devRef (τ := Cert.KernelIdeal.τ) .tc Cert.KernelIdeal.main_v5).ty.Contents (Elt Ideal)) = W (Proc.devRef .tc Cert.KernelIdeal.main_v5))
    (h_main_c : (W' (Proc.devRef .tc Cert.ReferenceIdeal.main_c) : (Proc.devRef (τ := Cert.KernelIdeal.τ) .tc Cert.KernelIdeal.main_c).ty.Contents (Elt Ideal)) = W (Proc.devRef .tc Cert.KernelIdeal.main_c))
    (h_main_arg0 : (W' (Proc.devRef .tc Cert.ReferenceIdeal.main_arg0) : (Proc.devRef (τ := Cert.KernelIdeal.τ) .tc Cert.KernelIdeal.main_arg0).ty.Contents (Elt Ideal)) = W (Proc.devRef .tc Cert.KernelIdeal.main_arg0))
    (h_main_arg1 : (W' (Proc.devRef .tc Cert.ReferenceIdeal.main_arg1) : (Proc.devRef (τ := Cert.KernelIdeal.τ) .tc Cert.KernelIdeal.main_arg1).ty.Contents (Elt Ideal)) = W (Proc.devRef .tc Cert.KernelIdeal.main_arg1))
    (h_main_arg2 : (W' (Proc.devRef .tc Cert.ReferenceIdeal.main_arg2) : (Proc.devRef (τ := Cert.KernelIdeal.τ) .tc Cert.KernelIdeal.main_arg2).ty.Contents (Elt Ideal)) = W (Proc.devRef .tc Cert.KernelIdeal.main_arg2))
    (h_main_arg3 : (W' (Proc.devRef .tc Cert.ReferenceIdeal.main_arg3) : (Proc.devRef (τ := Cert.KernelIdeal.τ) .tc Cert.KernelIdeal.main_arg3).ty.Contents (Elt Ideal)) = W (Proc.devRef .tc Cert.KernelIdeal.main_arg3))
    (h_main_arg4 : (W' (Proc.devRef .tc Cert.ReferenceIdeal.main_arg4) : (Proc.devRef (τ := Cert.KernelIdeal.τ) .tc Cert.KernelIdeal.main_arg4).ty.Contents (Elt Ideal)) = W (Proc.devRef .tc Cert.KernelIdeal.main_arg4))
    (h_main_arg5 : (W' (Proc.devRef .tc Cert.ReferenceIdeal.main_arg5) : (Proc.devRef (τ := Cert.KernelIdeal.τ) .tc Cert.KernelIdeal.main_arg5).ty.Contents (Elt Ideal)) = W (Proc.devRef .tc Cert.KernelIdeal.main_arg5))
    (h_main_arg6 : (W' (Proc.devRef .tc Cert.ReferenceIdeal.main_arg6) : (Proc.devRef (τ := Cert.KernelIdeal.τ) .tc Cert.KernelIdeal.main_arg6).ty.Contents (Elt Ideal)) = W (Proc.devRef .tc Cert.KernelIdeal.main_arg6))
    (h_main_arg7 : (W' (Proc.devRef .tc Cert.ReferenceIdeal.main_arg7) : (Proc.devRef (τ := Cert.KernelIdeal.τ) .tc Cert.KernelIdeal.main_arg7).ty.Contents (Elt Ideal)) = W (Proc.devRef .tc Cert.KernelIdeal.main_arg7))
    (h_main_arg8 : (W' (Proc.devRef .tc Cert.ReferenceIdeal.main_arg8) : (Proc.devRef (τ := Cert.KernelIdeal.τ) .tc Cert.KernelIdeal.main_arg8).ty.Contents (Elt Ideal)) = W (Proc.devRef .tc Cert.KernelIdeal.main_arg8))
    (h_main_arg9 : (W' (Proc.devRef .tc Cert.ReferenceIdeal.main_arg9) : (Proc.devRef (τ := Cert.KernelIdeal.τ) .tc Cert.KernelIdeal.main_arg9).ty.Contents (Elt Ideal)) = W (Proc.devRef .tc Cert.KernelIdeal.main_arg9))
    (h_main_arg10 : (W' (Proc.devRef .tc Cert.ReferenceIdeal.main_arg10) : (Proc.devRef (τ := Cert.KernelIdeal.τ) .tc Cert.KernelIdeal.main_arg10).ty.Contents (Elt Ideal)) = W (Proc.devRef .tc Cert.KernelIdeal.main_arg10)) :
    (StableHlo.after (List.flatten [Cert.ReferenceIdeal.Line.p0b]) W' (Proc.devRef .tc Cert.ReferenceIdeal.main_v1) : (Proc.devRef (τ := Cert.KernelIdeal.τ) .tc Cert.KernelIdeal.main_v1).ty.Contents (Elt Ideal)) = StableHlo.after (List.flatten [Cert.KernelIdeal.Gen.hostOps0_1]) W (Proc.devRef .tc Cert.KernelIdeal.main_v1)
    ∧ (StableHlo.after (List.flatten [Cert.ReferenceIdeal.Line.p0b]) W' (Proc.devRef .tc Cert.ReferenceIdeal.main_v3) : (Proc.devRef (τ := Cert.KernelIdeal.τ) .tc Cert.KernelIdeal.main_v3).ty.Contents (Elt Ideal)) = StableHlo.after (List.flatten [Cert.KernelIdeal.Gen.hostOps0_1]) W (Proc.devRef .tc Cert.KernelIdeal.main_v3)
    ∧ (StableHlo.after (List.flatten [Cert.ReferenceIdeal.Line.p0b]) W' (Proc.devRef .tc Cert.ReferenceIdeal.main_v5) : (Proc.devRef (τ := Cert.KernelIdeal.τ) .tc Cert.KernelIdeal.main_v5).ty.Contents (Elt Ideal)) = StableHlo.after (List.flatten [Cert.KernelIdeal.Gen.hostOps0_1]) W (Proc.devRef .tc Cert.KernelIdeal.main_v5)
    ∧ (StableHlo.after (List.flatten [Cert.ReferenceIdeal.Line.p0b]) W' (Proc.devRef .tc Cert.ReferenceIdeal.main_v6) : (Proc.devRef (τ := Cert.KernelIdeal.τ) .tc Cert.KernelIdeal.main_v6).ty.Contents (Elt Ideal)) = StableHlo.after (List.flatten [Cert.KernelIdeal.Gen.hostOps0_1]) W (Proc.devRef .tc Cert.KernelIdeal.main_v6)
    ∧ (StableHlo.after (List.flatten [Cert.ReferenceIdeal.Line.p0b]) W' (Proc.devRef .tc Cert.ReferenceIdeal.main_arg0) : (Proc.devRef (τ := Cert.KernelIdeal.τ) .tc Cert.KernelIdeal.main_arg0).ty.Contents (Elt Ideal)) = StableHlo.after (List.flatten [Cert.KernelIdeal.Gen.hostOps0_1]) W (Proc.devRef .tc Cert.KernelIdeal.main_arg0)
    ∧ (StableHlo.after (List.flatten [Cert.ReferenceIdeal.Line.p0b]) W' (Proc.devRef .tc Cert.ReferenceIdeal.main_arg1) : (Proc.devRef (τ := Cert.KernelIdeal.τ) .tc Cert.KernelIdeal.main_arg1).ty.Contents (Elt Ideal)) = StableHlo.after (List.flatten [Cert.KernelIdeal.Gen.hostOps0_1]) W (Proc.devRef .tc Cert.KernelIdeal.main_arg1)
    ∧ (StableHlo.after (List.flatten [Cert.ReferenceIdeal.Line.p0b]) W' (Proc.devRef .tc Cert.ReferenceIdeal.main_arg2) : (Proc.devRef (τ := Cert.KernelIdeal.τ) .tc Cert.KernelIdeal.main_arg2).ty.Contents (Elt Ideal)) = StableHlo.after (List.flatten [Cert.KernelIdeal.Gen.hostOps0_1]) W (Proc.devRef .tc Cert.KernelIdeal.main_arg2)
    ∧ (StableHlo.after (List.flatten [Cert.ReferenceIdeal.Line.p0b]) W' (Proc.devRef .tc Cert.ReferenceIdeal.main_arg3) : (Proc.devRef (τ := Cert.KernelIdeal.τ) .tc Cert.KernelIdeal.main_arg3).ty.Contents (Elt Ideal)) = StableHlo.after (List.flatten [Cert.KernelIdeal.Gen.hostOps0_1]) W (Proc.devRef .tc Cert.KernelIdeal.main_arg3)
    ∧ (StableHlo.after (List.flatten [Cert.ReferenceIdeal.Line.p0b]) W' (Proc.devRef .tc Cert.ReferenceIdeal.main_arg4) : (Proc.devRef (τ := Cert.KernelIdeal.τ) .tc Cert.KernelIdeal.main_arg4).ty.Contents (Elt Ideal)) = StableHlo.after (List.flatten [Cert.KernelIdeal.Gen.hostOps0_1]) W (Proc.devRef .tc Cert.KernelIdeal.main_arg4)
    ∧ (StableHlo.after (List.flatten [Cert.ReferenceIdeal.Line.p0b]) W' (Proc.devRef .tc Cert.ReferenceIdeal.main_arg5) : (Proc.devRef (τ := Cert.KernelIdeal.τ) .tc Cert.KernelIdeal.main_arg5).ty.Contents (Elt Ideal)) = StableHlo.after (List.flatten [Cert.KernelIdeal.Gen.hostOps0_1]) W (Proc.devRef .tc Cert.KernelIdeal.main_arg5)
    ∧ (StableHlo.after (List.flatten [Cert.ReferenceIdeal.Line.p0b]) W' (Proc.devRef .tc Cert.ReferenceIdeal.main_arg6) : (Proc.devRef (τ := Cert.KernelIdeal.τ) .tc Cert.KernelIdeal.main_arg6).ty.Contents (Elt Ideal)) = StableHlo.after (List.flatten [Cert.KernelIdeal.Gen.hostOps0_1]) W (Proc.devRef .tc Cert.KernelIdeal.main_arg6)
    ∧ (StableHlo.after (List.flatten [Cert.ReferenceIdeal.Line.p0b]) W' (Proc.devRef .tc Cert.ReferenceIdeal.main_arg7) : (Proc.devRef (τ := Cert.KernelIdeal.τ) .tc Cert.KernelIdeal.main_arg7).ty.Contents (Elt Ideal)) = StableHlo.after (List.flatten [Cert.KernelIdeal.Gen.hostOps0_1]) W (Proc.devRef .tc Cert.KernelIdeal.main_arg7)
    ∧ (StableHlo.after (List.flatten [Cert.ReferenceIdeal.Line.p0b]) W' (Proc.devRef .tc Cert.ReferenceIdeal.main_arg8) : (Proc.devRef (τ := Cert.KernelIdeal.τ) .tc Cert.KernelIdeal.main_arg8).ty.Contents (Elt Ideal)) = StableHlo.after (List.flatten [Cert.KernelIdeal.Gen.hostOps0_1]) W (Proc.devRef .tc Cert.KernelIdeal.main_arg8)
    ∧ (StableHlo.after (List.flatten [Cert.ReferenceIdeal.Line.p0b]) W' (Proc.devRef .tc Cert.ReferenceIdeal.main_arg9) : (Proc.devRef (τ := Cert.KernelIdeal.τ) .tc Cert.KernelIdeal.main_arg9).ty.Contents (Elt Ideal)) = StableHlo.after (List.flatten [Cert.KernelIdeal.Gen.hostOps0_1]) W (Proc.devRef .tc Cert.KernelIdeal.main_arg9)
    ∧ (StableHlo.after (List.flatten [Cert.ReferenceIdeal.Line.p0b]) W' (Proc.devRef .tc Cert.ReferenceIdeal.main_arg10) : (Proc.devRef (τ := Cert.KernelIdeal.τ) .tc Cert.KernelIdeal.main_arg10).ty.Contents (Elt Ideal)) = StableHlo.after (List.flatten [Cert.KernelIdeal.Gen.hostOps0_1]) W (Proc.devRef .tc Cert.KernelIdeal.main_arg10) := by
  simp (disch := decide) only [Cert.KernelIdeal.Gen.hostOps0_1, Cert.ReferenceIdeal.Line.p0b, List.flatten_cons, List.flatten_nil, List.append_nil, List.cons_append, List.nil_append,
      StableHlo.TRef.nullary, StableHlo.TRef.unary, StableHlo.TRef.binary, StableHlo.TRef.ternary,
      Cert.Lib.FoldConcat.cat2_fold, ref_v170, ker_v170,
      after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne']
  (try simp only [h_main_v1, h_main_v3, h_main_v5, h_main_c, h_main_arg0, h_main_arg1, h_main_arg2, h_main_arg3, h_main_arg4, h_main_arg5, h_main_arg6, h_main_arg7, h_main_arg8, h_main_arg9, h_main_arg10])
  (try (refine ⟨?_, ?_, ?_, ?_, ?_, ?_, ?_, ?_, ?_, ?_, ?_, ?_, ?_, ?_, ?_⟩)) <;> first | trivial | rfl

set_option maxHeartbeats 40000000 in
/-- The gathered rows, and the rule score with and without rules. -/
theorem stage3 (W : Valuation Cert.KernelIdeal.τ Cert.KernelIdeal.sig (Elt Ideal)) (W' : Valuation Cert.ReferenceIdeal.τ Cert.ReferenceIdeal.sig (Elt Ideal))
    (h_main_v1 : (W' (Proc.devRef .tc Cert.ReferenceIdeal.main_v1) : (Proc.devRef (τ := Cert.KernelIdeal.τ) .tc Cert.KernelIdeal.main_v1).ty.Contents (Elt Ideal)) = W (Proc.devRef .tc Cert.KernelIdeal.main_v1))
    (h_main_v3 : (W' (Proc.devRef .tc Cert.ReferenceIdeal.main_v3) : (Proc.devRef (τ := Cert.KernelIdeal.τ) .tc Cert.KernelIdeal.main_v3).ty.Contents (Elt Ideal)) = W (Proc.devRef .tc Cert.KernelIdeal.main_v3))
    (h_main_v5 : (W' (Proc.devRef .tc Cert.ReferenceIdeal.main_v5) : (Proc.devRef (τ := Cert.KernelIdeal.τ) .tc Cert.KernelIdeal.main_v5).ty.Contents (Elt Ideal)) = W (Proc.devRef .tc Cert.KernelIdeal.main_v5))
    (h_main_v6 : (W' (Proc.devRef .tc Cert.ReferenceIdeal.main_v6) : (Proc.devRef (τ := Cert.KernelIdeal.τ) .tc Cert.KernelIdeal.main_v6).ty.Contents (Elt Ideal)) = W (Proc.devRef .tc Cert.KernelIdeal.main_v6))
    (h_main_arg0 : (W' (Proc.devRef .tc Cert.ReferenceIdeal.main_arg0) : (Proc.devRef (τ := Cert.KernelIdeal.τ) .tc Cert.KernelIdeal.main_arg0).ty.Contents (Elt Ideal)) = W (Proc.devRef .tc Cert.KernelIdeal.main_arg0))
    (h_main_arg1 : (W' (Proc.devRef .tc Cert.ReferenceIdeal.main_arg1) : (Proc.devRef (τ := Cert.KernelIdeal.τ) .tc Cert.KernelIdeal.main_arg1).ty.Contents (Elt Ideal)) = W (Proc.devRef .tc Cert.KernelIdeal.main_arg1))
    (h_main_arg2 : (W' (Proc.devRef .tc Cert.ReferenceIdeal.main_arg2) : (Proc.devRef (τ := Cert.KernelIdeal.τ) .tc Cert.KernelIdeal.main_arg2).ty.Contents (Elt Ideal)) = W (Proc.devRef .tc Cert.KernelIdeal.main_arg2))
    (h_main_arg3 : (W' (Proc.devRef .tc Cert.ReferenceIdeal.main_arg3) : (Proc.devRef (τ := Cert.KernelIdeal.τ) .tc Cert.KernelIdeal.main_arg3).ty.Contents (Elt Ideal)) = W (Proc.devRef .tc Cert.KernelIdeal.main_arg3))
    (h_main_arg4 : (W' (Proc.devRef .tc Cert.ReferenceIdeal.main_arg4) : (Proc.devRef (τ := Cert.KernelIdeal.τ) .tc Cert.KernelIdeal.main_arg4).ty.Contents (Elt Ideal)) = W (Proc.devRef .tc Cert.KernelIdeal.main_arg4))
    (h_main_arg5 : (W' (Proc.devRef .tc Cert.ReferenceIdeal.main_arg5) : (Proc.devRef (τ := Cert.KernelIdeal.τ) .tc Cert.KernelIdeal.main_arg5).ty.Contents (Elt Ideal)) = W (Proc.devRef .tc Cert.KernelIdeal.main_arg5))
    (h_main_arg6 : (W' (Proc.devRef .tc Cert.ReferenceIdeal.main_arg6) : (Proc.devRef (τ := Cert.KernelIdeal.τ) .tc Cert.KernelIdeal.main_arg6).ty.Contents (Elt Ideal)) = W (Proc.devRef .tc Cert.KernelIdeal.main_arg6))
    (h_main_arg7 : (W' (Proc.devRef .tc Cert.ReferenceIdeal.main_arg7) : (Proc.devRef (τ := Cert.KernelIdeal.τ) .tc Cert.KernelIdeal.main_arg7).ty.Contents (Elt Ideal)) = W (Proc.devRef .tc Cert.KernelIdeal.main_arg7))
    (h_main_arg8 : (W' (Proc.devRef .tc Cert.ReferenceIdeal.main_arg8) : (Proc.devRef (τ := Cert.KernelIdeal.τ) .tc Cert.KernelIdeal.main_arg8).ty.Contents (Elt Ideal)) = W (Proc.devRef .tc Cert.KernelIdeal.main_arg8))
    (h_main_arg9 : (W' (Proc.devRef .tc Cert.ReferenceIdeal.main_arg9) : (Proc.devRef (τ := Cert.KernelIdeal.τ) .tc Cert.KernelIdeal.main_arg9).ty.Contents (Elt Ideal)) = W (Proc.devRef .tc Cert.KernelIdeal.main_arg9))
    (h_main_arg10 : (W' (Proc.devRef .tc Cert.ReferenceIdeal.main_arg10) : (Proc.devRef (τ := Cert.KernelIdeal.τ) .tc Cert.KernelIdeal.main_arg10).ty.Contents (Elt Ideal)) = W (Proc.devRef .tc Cert.KernelIdeal.main_arg10)) :
    (StableHlo.after (List.flatten [Cert.ReferenceIdeal.Line.p0c, Cert.ReferenceIdeal.Line.p1a, Cert.ReferenceIdeal.Line.p2a]) W' (Proc.devRef .tc Cert.ReferenceIdeal.main_v13) : (Proc.devRef (τ := Cert.KernelIdeal.τ) .tc Cert.KernelIdeal.main_v13).ty.Contents (Elt Ideal)) = StableHlo.after (List.flatten [Cert.KernelIdeal.Gen.hostOps0_2]) W (Proc.devRef .tc Cert.KernelIdeal.main_v13)
    ∧ (StableHlo.after (List.flatten [Cert.ReferenceIdeal.Line.p0c, Cert.ReferenceIdeal.Line.p1a, Cert.ReferenceIdeal.Line.p2a]) W' (Proc.devRef .tc Cert.ReferenceIdeal.main_v20) : (Proc.devRef (τ := Cert.KernelIdeal.τ) .tc Cert.KernelIdeal.main_v20).ty.Contents (Elt Ideal)) = StableHlo.after (List.flatten [Cert.KernelIdeal.Gen.hostOps0_2]) W (Proc.devRef .tc Cert.KernelIdeal.main_v20)
    ∧ (StableHlo.after (List.flatten [Cert.ReferenceIdeal.Line.p0c, Cert.ReferenceIdeal.Line.p1a, Cert.ReferenceIdeal.Line.p2a]) W' (Proc.devRef .tc Cert.ReferenceIdeal.main_v27) : (Proc.devRef (τ := Cert.KernelIdeal.τ) .tc Cert.KernelIdeal.main_v27).ty.Contents (Elt Ideal)) = StableHlo.after (List.flatten [Cert.KernelIdeal.Gen.hostOps0_2]) W (Proc.devRef .tc Cert.KernelIdeal.main_v27)
    ∧ (StableHlo.after (List.flatten [Cert.ReferenceIdeal.Line.p0c, Cert.ReferenceIdeal.Line.p1a, Cert.ReferenceIdeal.Line.p2a]) W' (Proc.devRef .tc Cert.ReferenceIdeal.main_v42) : (Proc.devRef (τ := Cert.KernelIdeal.τ) .tc Cert.KernelIdeal.main_v42).ty.Contents (Elt Ideal)) = StableHlo.after (List.flatten [Cert.KernelIdeal.Gen.hostOps0_2]) W (Proc.devRef .tc Cert.KernelIdeal.main_v42)
    ∧ (StableHlo.after (List.flatten [Cert.ReferenceIdeal.Line.p0c, Cert.ReferenceIdeal.Line.p1a, Cert.ReferenceIdeal.Line.p2a]) W' (Proc.devRef .tc Cert.ReferenceIdeal.main_v57) : (Proc.devRef (τ := Cert.KernelIdeal.τ) .tc Cert.KernelIdeal.main_v57).ty.Contents (Elt Ideal)) = StableHlo.after (List.flatten [Cert.KernelIdeal.Gen.hostOps0_2]) W (Proc.devRef .tc Cert.KernelIdeal.main_v57)
    ∧ (StableHlo.after (List.flatten [Cert.ReferenceIdeal.Line.p0c, Cert.ReferenceIdeal.Line.p1a, Cert.ReferenceIdeal.Line.p2a]) W' (Proc.devRef .tc Cert.ReferenceIdeal.main_v65) : (Proc.devRef (τ := Cert.KernelIdeal.τ) .tc Cert.KernelIdeal.main_v65).ty.Contents (Elt Ideal)) = StableHlo.after (List.flatten [Cert.KernelIdeal.Gen.hostOps0_2]) W (Proc.devRef .tc Cert.KernelIdeal.main_v65)
    ∧ (StableHlo.after (List.flatten [Cert.ReferenceIdeal.Line.p0c, Cert.ReferenceIdeal.Line.p1a, Cert.ReferenceIdeal.Line.p2a]) W' (Proc.devRef .tc Cert.ReferenceIdeal.main_v94) : (Proc.devRef (τ := Cert.KernelIdeal.τ) .tc Cert.KernelIdeal.main_v94).ty.Contents (Elt Ideal)) = StableHlo.after (List.flatten [Cert.KernelIdeal.Gen.hostOps0_2]) W (Proc.devRef .tc Cert.KernelIdeal.main_v94)
    ∧ (StableHlo.after (List.flatten [Cert.ReferenceIdeal.Line.p0c, Cert.ReferenceIdeal.Line.p1a, Cert.ReferenceIdeal.Line.p2a]) W' (Proc.devRef .tc Cert.ReferenceIdeal.main_v106) : (Proc.devRef (τ := Cert.KernelIdeal.τ) .tc Cert.KernelIdeal.main_v106).ty.Contents (Elt Ideal)) = StableHlo.after (List.flatten [Cert.KernelIdeal.Gen.hostOps0_2]) W (Proc.devRef .tc Cert.KernelIdeal.main_v106) := by
  simp (disch := decide) only [Cert.KernelIdeal.Gen.hostOps0_2, Cert.ReferenceIdeal.Line.p0c, Cert.ReferenceIdeal.Line.p1a, Cert.ReferenceIdeal.Line.p2a, List.flatten_cons, List.flatten_nil, List.append_nil, List.cons_append, List.nil_append,
      StableHlo.TRef.nullary, StableHlo.TRef.unary, StableHlo.TRef.binary, StableHlo.TRef.ternary,
      Cert.Lib.FoldConcat.cat2_fold, ref_v170, ker_v170,
      after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne']
  (try simp only [h_main_v1, h_main_v3, h_main_v5, h_main_v6, h_main_arg0, h_main_arg1, h_main_arg2, h_main_arg3, h_main_arg4, h_main_arg5, h_main_arg6, h_main_arg7, h_main_arg8, h_main_arg9, h_main_arg10])
  (try (refine ⟨?_, ?_, ?_, ?_, ?_, ?_, ?_, ?_⟩)) <;> first | trivial | rfl

set_option maxHeartbeats 40000000 in
/-- The choice between the two rule scores. -/
theorem stage4 (W : Valuation Cert.KernelIdeal.τ Cert.KernelIdeal.sig (Elt Ideal)) (W' : Valuation Cert.ReferenceIdeal.τ Cert.ReferenceIdeal.sig (Elt Ideal))
    (h_main_v13 : (W' (Proc.devRef .tc Cert.ReferenceIdeal.main_v13) : (Proc.devRef (τ := Cert.KernelIdeal.τ) .tc Cert.KernelIdeal.main_v13).ty.Contents (Elt Ideal)) = W (Proc.devRef .tc Cert.KernelIdeal.main_v13))
    (h_main_v20 : (W' (Proc.devRef .tc Cert.ReferenceIdeal.main_v20) : (Proc.devRef (τ := Cert.KernelIdeal.τ) .tc Cert.KernelIdeal.main_v20).ty.Contents (Elt Ideal)) = W (Proc.devRef .tc Cert.KernelIdeal.main_v20))
    (h_main_v27 : (W' (Proc.devRef .tc Cert.ReferenceIdeal.main_v27) : (Proc.devRef (τ := Cert.KernelIdeal.τ) .tc Cert.KernelIdeal.main_v27).ty.Contents (Elt Ideal)) = W (Proc.devRef .tc Cert.KernelIdeal.main_v27))
    (h_main_v42 : (W' (Proc.devRef .tc Cert.ReferenceIdeal.main_v42) : (Proc.devRef (τ := Cert.KernelIdeal.τ) .tc Cert.KernelIdeal.main_v42).ty.Contents (Elt Ideal)) = W (Proc.devRef .tc Cert.KernelIdeal.main_v42))
    (h_main_v57 : (W' (Proc.devRef .tc Cert.ReferenceIdeal.main_v57) : (Proc.devRef (τ := Cert.KernelIdeal.τ) .tc Cert.KernelIdeal.main_v57).ty.Contents (Elt Ideal)) = W (Proc.devRef .tc Cert.KernelIdeal.main_v57))
    (h_main_v65 : (W' (Proc.devRef .tc Cert.ReferenceIdeal.main_v65) : (Proc.devRef (τ := Cert.KernelIdeal.τ) .tc Cert.KernelIdeal.main_v65).ty.Contents (Elt Ideal)) = W (Proc.devRef .tc Cert.KernelIdeal.main_v65))
    (h_main_v94 : (W' (Proc.devRef .tc Cert.ReferenceIdeal.main_v94) : (Proc.devRef (τ := Cert.KernelIdeal.τ) .tc Cert.KernelIdeal.main_v94).ty.Contents (Elt Ideal)) = W (Proc.devRef .tc Cert.KernelIdeal.main_v94))
    (h_main_v106 : (W' (Proc.devRef .tc Cert.ReferenceIdeal.main_v106) : (Proc.devRef (τ := Cert.KernelIdeal.τ) .tc Cert.KernelIdeal.main_v106).ty.Contents (Elt Ideal)) = W (Proc.devRef .tc Cert.KernelIdeal.main_v106)) :
    (StableHlo.after (List.flatten [Cert.ReferenceIdeal.Line.p2b]) W' (Proc.devRef .tc Cert.ReferenceIdeal.main_v13) : (Proc.devRef (τ := Cert.KernelIdeal.τ) .tc Cert.KernelIdeal.main_v13).ty.Contents (Elt Ideal)) = StableHlo.after (List.flatten [Cert.KernelIdeal.Gen.hostOps0_3]) W (Proc.devRef .tc Cert.KernelIdeal.main_v13)
    ∧ (StableHlo.after (List.flatten [Cert.ReferenceIdeal.Line.p2b]) W' (Proc.devRef .tc Cert.ReferenceIdeal.main_v20) : (Proc.devRef (τ := Cert.KernelIdeal.τ) .tc Cert.KernelIdeal.main_v20).ty.Contents (Elt Ideal)) = StableHlo.after (List.flatten [Cert.KernelIdeal.Gen.hostOps0_3]) W (Proc.devRef .tc Cert.KernelIdeal.main_v20)
    ∧ (StableHlo.after (List.flatten [Cert.ReferenceIdeal.Line.p2b]) W' (Proc.devRef .tc Cert.ReferenceIdeal.main_v27) : (Proc.devRef (τ := Cert.KernelIdeal.τ) .tc Cert.KernelIdeal.main_v27).ty.Contents (Elt Ideal)) = StableHlo.after (List.flatten [Cert.KernelIdeal.Gen.hostOps0_3]) W (Proc.devRef .tc Cert.KernelIdeal.main_v27)
    ∧ (StableHlo.after (List.flatten [Cert.ReferenceIdeal.Line.p2b]) W' (Proc.devRef .tc Cert.ReferenceIdeal.main_v42) : (Proc.devRef (τ := Cert.KernelIdeal.τ) .tc Cert.KernelIdeal.main_v42).ty.Contents (Elt Ideal)) = StableHlo.after (List.flatten [Cert.KernelIdeal.Gen.hostOps0_3]) W (Proc.devRef .tc Cert.KernelIdeal.main_v42)
    ∧ (StableHlo.after (List.flatten [Cert.ReferenceIdeal.Line.p2b]) W' (Proc.devRef .tc Cert.ReferenceIdeal.main_v57) : (Proc.devRef (τ := Cert.KernelIdeal.τ) .tc Cert.KernelIdeal.main_v57).ty.Contents (Elt Ideal)) = StableHlo.after (List.flatten [Cert.KernelIdeal.Gen.hostOps0_3]) W (Proc.devRef .tc Cert.KernelIdeal.main_v57)
    ∧ (StableHlo.after (List.flatten [Cert.ReferenceIdeal.Line.p2b]) W' (Proc.devRef .tc Cert.ReferenceIdeal.main_v107) : (Proc.devRef (τ := Cert.KernelIdeal.τ) .tc Cert.KernelIdeal.main_v107).ty.Contents (Elt Ideal)) = StableHlo.after (List.flatten [Cert.KernelIdeal.Gen.hostOps0_3]) W (Proc.devRef .tc Cert.KernelIdeal.main_v107) := by
  simp (disch := decide) only [Cert.KernelIdeal.Gen.hostOps0_3, Cert.ReferenceIdeal.Line.p2b, List.flatten_cons, List.flatten_nil, List.append_nil, List.cons_append, List.nil_append,
      StableHlo.TRef.nullary, StableHlo.TRef.unary, StableHlo.TRef.binary, StableHlo.TRef.ternary,
      Cert.Lib.FoldConcat.cat2_fold, ref_v170, ker_v170,
      after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne']
  (try simp only [h_main_v13, h_main_v20, h_main_v27, h_main_v42, h_main_v57, h_main_v65, h_main_v94, h_main_v106])
  (try (refine ⟨?_, ?_, ?_, ?_, ?_, ?_⟩)) <;> first | trivial | rfl

set_option maxHeartbeats 40000000 in
/-- The relation vector, the four-part product, and the sum of its halves (stored narrow by the kernel's program, which changes nothing at the ideal values). -/
theorem stage5 (W : Valuation Cert.KernelIdeal.τ Cert.KernelIdeal.sig (Elt Ideal)) (W' : Valuation Cert.ReferenceIdeal.τ Cert.ReferenceIdeal.sig (Elt Ideal))
    (h_main_v13 : (W' (Proc.devRef .tc Cert.ReferenceIdeal.main_v13) : (Proc.devRef (τ := Cert.KernelIdeal.τ) .tc Cert.KernelIdeal.main_v13).ty.Contents (Elt Ideal)) = W (Proc.devRef .tc Cert.KernelIdeal.main_v13))
    (h_main_v20 : (W' (Proc.devRef .tc Cert.ReferenceIdeal.main_v20) : (Proc.devRef (τ := Cert.KernelIdeal.τ) .tc Cert.KernelIdeal.main_v20).ty.Contents (Elt Ideal)) = W (Proc.devRef .tc Cert.KernelIdeal.main_v20))
    (h_main_v27 : (W' (Proc.devRef .tc Cert.ReferenceIdeal.main_v27) : (Proc.devRef (τ := Cert.KernelIdeal.τ) .tc Cert.KernelIdeal.main_v27).ty.Contents (Elt Ideal)) = W (Proc.devRef .tc Cert.KernelIdeal.main_v27))
    (h_main_v42 : (W' (Proc.devRef .tc Cert.ReferenceIdeal.main_v42) : (Proc.devRef (τ := Cert.KernelIdeal.τ) .tc Cert.KernelIdeal.main_v42).ty.Contents (Elt Ideal)) = W (Proc.devRef .tc Cert.KernelIdeal.main_v42))
    (h_main_v57 : (W' (Proc.devRef .tc Cert.ReferenceIdeal.main_v57) : (Proc.devRef (τ := Cert.KernelIdeal.τ) .tc Cert.KernelIdeal.main_v57).ty.Contents (Elt Ideal)) = W (Proc.devRef .tc Cert.KernelIdeal.main_v57))
    (h_main_v107 : (W' (Proc.devRef .tc Cert.ReferenceIdeal.main_v107) : (Proc.devRef (τ := Cert.KernelIdeal.τ) .tc Cert.KernelIdeal.main_v107).ty.Contents (Elt Ideal)) = W (Proc.devRef .tc Cert.KernelIdeal.main_v107)) :
    (StableHlo.after (List.flatten [Cert.ReferenceIdeal.Line.p2c, Cert.ReferenceIdeal.Line.p3pre]) W' (Proc.devRef .tc Cert.ReferenceIdeal.main_v173) : (Proc.devRef (τ := Cert.KernelIdeal.τ) .tc Cert.KernelIdeal.main_v174).ty.Contents (Elt Ideal)) = StableHlo.after (List.flatten [Cert.KernelIdeal.Gen.hostOps0_4]) W (Proc.devRef .tc Cert.KernelIdeal.main_v174) := by
  simp (disch := decide) only [Cert.KernelIdeal.Gen.hostOps0_4, Cert.ReferenceIdeal.Line.p2c, Cert.ReferenceIdeal.Line.p3pre, List.flatten_cons, List.flatten_nil, List.append_nil, List.cons_append, List.nil_append,
      StableHlo.TRef.nullary, StableHlo.TRef.unary, StableHlo.TRef.binary, StableHlo.TRef.ternary,
      Cert.Lib.FoldConcat.cat2_fold, ref_v170, ker_v170,
      after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne']
  (try simp only [h_main_v13, h_main_v20, h_main_v27, h_main_v42, h_main_v57, h_main_v107])
  (try (refine ⟨?_⟩)) <;> first | trivial | rfl

end Cert.Bridge

end
-- ==== Proof.RefRun.lean ====
/-
  The reference's run read back: its argument arrays end as launched, and its result is the host's product of the
  left rows (what the line before the last two operations leaves in their buffer) with the transposed table.
-/
import proofs.«108893_j7421703488266_2_alg».proof.Proof.RefLine

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- No operation writes argument 0. -/
theorem arg0_kept (V : Valuation τ sig (Elt F)) : after (ops (F := F)) V (Proc.devRef .tc main_arg0) = V (Proc.devRef .tc main_arg0) :=
  after_of_forall_not_mem (b := Proc.devRef .tc main_arg0) _ _ (List.forall_iff_forall_mem.mp (by
    simp only [ops, pre, p0a, p0b, p0c, p1a, p2a, p2b, p2c, p3a, p3pre, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation writes argument 1. -/
theorem arg1_kept (V : Valuation τ sig (Elt F)) : after (ops (F := F)) V (Proc.devRef .tc main_arg1) = V (Proc.devRef .tc main_arg1) :=
  after_of_forall_not_mem (b := Proc.devRef .tc main_arg1) _ _ (List.forall_iff_forall_mem.mp (by
    simp only [ops, pre, p0a, p0b, p0c, p1a, p2a, p2b, p2c, p3a, p3pre, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation writes argument 2. -/
theorem arg2_kept (V : Valuation τ sig (Elt F)) : after (ops (F := F)) V (Proc.devRef .tc main_arg2) = V (Proc.devRef .tc main_arg2) :=
  after_of_forall_not_mem (b := Proc.devRef .tc main_arg2) _ _ (List.forall_iff_forall_mem.mp (by
    simp only [ops, pre, p0a, p0b, p0c, p1a, p2a, p2b, p2c, p3a, p3pre, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation writes argument 3. -/
theorem arg3_kept (V : Valuation τ sig (Elt F)) : after (ops (F := F)) V (Proc.devRef .tc main_arg3) = V (Proc.devRef .tc main_arg3) :=
  after_of_forall_not_mem (b := Proc.devRef .tc main_arg3) _ _ (List.forall_iff_forall_mem.mp (by
    simp only [ops, pre, p0a, p0b, p0c, p1a, p2a, p2b, p2c, p3a, p3pre, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation writes argument 4. -/
theorem arg4_kept (V : Valuation τ sig (Elt F)) : after (ops (F := F)) V (Proc.devRef .tc main_arg4) = V (Proc.devRef .tc main_arg4) :=
  after_of_forall_not_mem (b := Proc.devRef .tc main_arg4) _ _ (List.forall_iff_forall_mem.mp (by
    simp only [ops, pre, p0a, p0b, p0c, p1a, p2a, p2b, p2c, p3a, p3pre, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation writes argument 5. -/
theorem arg5_kept (V : Valuation τ sig (Elt F)) : after (ops (F := F)) V (Proc.devRef .tc main_arg5) = V (Proc.devRef .tc main_arg5) :=
  after_of_forall_not_mem (b := Proc.devRef .tc main_arg5) _ _ (List.forall_iff_forall_mem.mp (by
    simp only [ops, pre, p0a, p0b, p0c, p1a, p2a, p2b, p2c, p3a, p3pre, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation writes argument 6. -/
theorem arg6_kept (V : Valuation τ sig (Elt F)) : after (ops (F := F)) V (Proc.devRef .tc main_arg6) = V (Proc.devRef .tc main_arg6) :=
  after_of_forall_not_mem (b := Proc.devRef .tc main_arg6) _ _ (List.forall_iff_forall_mem.mp (by
    simp only [ops, pre, p0a, p0b, p0c, p1a, p2a, p2b, p2c, p3a, p3pre, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation writes argument 7. -/
theorem arg7_kept (V : Valuation τ sig (Elt F)) : after (ops (F := F)) V (Proc.devRef .tc main_arg7) = V (Proc.devRef .tc main_arg7) :=
  after_of_forall_not_mem (b := Proc.devRef .tc main_arg7) _ _ (List.forall_iff_forall_mem.mp (by
    simp only [ops, pre, p0a, p0b, p0c, p1a, p2a, p2b, p2c, p3a, p3pre, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation writes argument 8. -/
theorem arg8_kept (V : Valuation τ sig (Elt F)) : after (ops (F := F)) V (Proc.devRef .tc main_arg8) = V (Proc.devRef .tc main_arg8) :=
  after_of_forall_not_mem (b := Proc.devRef .tc main_arg8) _ _ (List.forall_iff_forall_mem.mp (by
    simp only [ops, pre, p0a, p0b, p0c, p1a, p2a, p2b, p2c, p3a, p3pre, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation writes argument 9. -/
theorem arg9_kept (V : Valuation τ sig (Elt F)) : after (ops (F := F)) V (Proc.devRef .tc main_arg9) = V (Proc.devRef .tc main_arg9) :=
  after_of_forall_not_mem (b := Proc.devRef .tc main_arg9) _ _ (List.forall_iff_forall_mem.mp (by
    simp only [ops, pre, p0a, p0b, p0c, p1a, p2a, p2b, p2c, p3a, p3pre, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation writes argument 10. -/
theorem arg10_kept (V : Valuation τ sig (Elt F)) : after (ops (F := F)) V (Proc.devRef .tc main_arg10) = V (Proc.devRef .tc main_arg10) :=
  after_of_forall_not_mem (b := Proc.devRef .tc main_arg10) _ _ (List.forall_iff_forall_mem.mp (by
    simp only [ops, pre, p0a, p0b, p0c, p1a, p2a, p2b, p2c, p3a, p3pre, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- Nor does the line up to the left rows write the table. -/
theorem pre_arg1_kept (V : Valuation τ sig (Elt F)) : after (pre (F := F)) V (Proc.devRef .tc main_arg1) = V (Proc.devRef .tc main_arg1) :=
  after_of_forall_not_mem (b := Proc.devRef .tc main_arg1) _ _ (List.forall_iff_forall_mem.mp (by
    simp only [ops, pre, p0a, p0b, p0c, p1a, p2a, p2b, p2c, p3a, p3pre, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The result: the host's product of the left rows with the transposed table. -/
theorem result_eq (V : Valuation τ sig (Elt F)) :
    after (ops (F := F)) V (Proc.devRef .tc main_v175)
      = Host.dotGeneral dot_S1024x128_S128x40000_S1024x40000_1_0_0_1_n_n none (after (pre (F := F)) V (Proc.devRef .tc main_v173))
          (transpose S128x40000 [1, 0] (V (Proc.devRef .tc main_arg1)) transposes_S40000x128_S128x40000_1_0) := by
  rw [ops_split, after_append, ← pre_arg1_kept V]
  generalize after (pre (F := F)) V = W
  after_results

/-- The reference runs, faults nowhere and leaves its argument arrays as launched; its result is `result_eq`'s. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v175)
        = Host.dotGeneral dot_S1024x128_S128x40000_S1024x40000_1_0_0_1_n_n none (after (pre (F := F)) (launchContents m c) (Proc.devRef .tc main_v173))
          (transpose S128x40000 [1, 0] (m ((c.tc : Thread nD τ).loc main_arg1)) transposes_S40000x128_S128x40000_1_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v175).trans (result_eq _),
    (h c main_arg0).trans (arg0_kept _),
    (h c main_arg1).trans (arg1_kept _),
    (h c main_arg2).trans (arg2_kept _),
    (h c main_arg3).trans (arg3_kept _),
    (h c main_arg4).trans (arg4_kept _),
    (h c main_arg5).trans (arg5_kept _),
    (h c main_arg6).trans (arg6_kept _),
    (h c main_arg7).trans (arg7_kept _),
    (h c main_arg8).trans (arg8_kept _),
    (h c main_arg9).trans (arg9_kept _),
    (h c main_arg10).trans (arg10_kept _)⟩) (run_line m ρ)

end Cert.ReferenceIdeal.Line

end
-- ==== Proof.KernelIdealNamed.lean ====
/-
  The body obligation that names the result buffer: whatever fills a fetched tile past the table's end, the
  part of the product inside the result array is the part the proof data names.
-/
import proofs.«108893_j7421703488266_2_alg».proof.Proof.KernelIdealData

noncomputable section

namespace Cert.KernelIdeal.Body

open Cert.KernelIdeal Cert.KernelIdeal.Gen Cert.KernelIdeal.Entry

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (o : Fin cfg0.N → S1024x2560.Idx → Elt F .f32)

/-- The result buffer after the body is the parameter. -/
theorem after_2 (c : Dev nD) (t : Fin cfg0.N) : (dats m o 0 c).after (2 : Fin 3) t = o t := rfl

/-- The body obligation naming the result: whenever the product of the left rows and a fetched tile — whatever
    fills the tile past the table's end — has `o t`'s part inside the result array. -/
theorem obligation_named (c : Dev nD)
    (ho : ∀ (t : Fin cfg0.N) (d1 : S2560x128.Idx → Elt F .f32),
      win0_2.cut (grid0.coords t) (k0_pay1 (win0_1.fill (grid0.coords t) d1 (iblk m c 1 t)) (iblk m c 0 t))
        = win0_2.cut (grid0.coords t) (o t)) :
    BodyObligationLoose (dats m o 0 c) (defs₀ (F := F)) 𝒱₀ () Set.univ := fun t => by
  rw [bigSep_W0, bigSep_W0]
  simp only
  rw [show (dats m o 0 c).Φ t.succ = (dats m o 0 c).Φ t.castSucc from rfl,
    show (dats m o 0 c).owesAt () t.succ = (dats m o 0 c).owesAt () t.castSucc from rfl]
  iintro ⟨HΦ, Ho, ⟨%d0, H0⟩, ⟨%d1, H1⟩, ⟨%d2, H2⟩⟩
  rw [before_0 m o c t d0, before_1 m o c t d1]
  iapply (sound_body (F := F) c Set.univ (grid0.coords t) (cfg0.slots t 0) (cfg0.slots t 1) (cfg0.slots t 2)
    (iblk m c 0 t) (win0_1.fill (grid0.coords t) d1 (iblk m c 1 t)) ((dats m o 0 c).before (2 : Fin 3) t d2) _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have h1 : win0_1.cut (grid0.coords t) (win0_1.fill (grid0.coords t) (fun _ => Scalar.ofBits .f32 0#32) (iblk m c 1 t)) = iblk m c 1 t :=
    win0_1.cut_fill _ _ _
  isplitl [H0]
  · iexact H0
  isplitl [H1]
  · iexists d1
    change _ ⊢ owns (c : Thread nD τ) (stage0_1 (cfg0.slots t 1)) fullShare (win0_1.fill (grid0.coords t) d1 (win0_1.cut (grid0.coords t) (win0_1.fill (grid0.coords t) (fun _ => Scalar.ofBits .f32 0#32) (iblk m c 1 t))))
    rw [h1]; try iexact H1
  · iexists (k0_pay1 (win0_1.fill (grid0.coords t) d1 (iblk m c 1 t)) (iblk m c 0 t))
    rw [after_2 m o c t]
    erw [← ho t d1, Window.fill_cut]
    iexact H2

end Cert.KernelIdeal.Body

end
-- ==== Proof.LibContractRows.lean ====
/-
  Rows against rows: the contraction `[M, K] × [N, K] → [M, N]` over the LAST axis of both operands, read at an index.

  For the dimension numbers "contract axis 1 with axis 1, no batch axis" (`DotDims.transposedRhs M K N`) the entry
  `(p, q)` of the product is `Σ_k l[p,k] · r[q,k]`: row `p` of the left operand against row `q` of the right one. The
  contraction's own index type has one axis of extent `K`; the sum is re-indexed over `Fin K` through that axis, and the
  operand indices the dimension numbers compute are then `(p, k)` and `(q, k)`. Stated for a matrix product into a zero
  accumulator and for the host's `dot_general`, on the extended reals, where both are that plain sum.
-/
import Idealize.ShloMosaic.PureOps.Ideal.Laws
import Idealize.ShloMosaic.Lib.ValueIdx

noncomputable section

namespace Idealize.ShloMosaic.ContractRows

open Idealize.ShloMosaic Idealize.ShloMosaic.ValueIdx

variable {M K N : Nat}

/-- The left operand's index keeps the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's index runs along its last axis with the contraction. -/
theorem lhs_col (j : (⟨2, ![M, N]⟩ : Shape).Idx) (k : (DotDims.transposedRhs M K N).contr.Idx) :
    ((DotDims.transposedRhs M K N).lhsIdx j k 1).val = (k ⟨0, Nat.zero_lt_one⟩).val :=
  (DotDims.transposedRhs M K N).lhsIdx_val_of_single rfl j k

/-- The right operand's index takes its row from the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's index runs along its last axis with the contraction. -/
theorem rhs_col (j : (⟨2, ![M, N]⟩ : Shape).Idx) (k : (DotDims.transposedRhs M K N).contr.Idx) :
    ((DotDims.transposedRhs M K N).rhsIdx j k 1).val = (k ⟨0, Nat.zero_lt_one⟩).val :=
  (DotDims.transposedRhs M K N).rhsIdx_val_of_single rfl j k

/-- THE SUM: over the contraction's index it is the sum over `k : Fin K` of row `p` against row `q`. -/
theorem sum_rows (l : (⟨2, ![M, K]⟩ : Shape).Idx → EReal) (r : (⟨2, ![N, K]⟩ : Shape).Idx → EReal) (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

/-- A matrix product into the zero accumulator, rows against rows, at `(p, q)`. -/
theorem matmul_zero_apply {φ₁ φ₂ : FTy} (prec : Option ContractPrecision)
    (l : FVec Ideal (⟨2, ![M, K]⟩ : Shape) φ₁) (r : FVec Ideal (⟨2, ![N, K]⟩ : Shape) φ₂) (p : Fin M) (q : Fin N) :
    FloatOps.matmul (DotDims.transposedRhs M K N) prec l r (constant (⟨2, ![M, N]⟩ : Shape) .f32 0x00000000#32) (ix2 p q)
      = ∑ k : Fin K, l (ix2 p k) * r (ix2 q k) :=
  (Ideal.matmul_constant_zero_apply (DotDims.transposedRhs M K N) prec l r (ix2 p q)).trans (sum_rows l r p q)

/-- The host's `dot_general`, rows against rows, at `(p, q)`. -/
theorem dotGeneral_apply {φ₁ φ₂ : FTy} (prec : Option ContractPrecision) (sched : HostSchedule)
    (l : FVec Ideal (⟨2, ![M, K]⟩ : Shape) φ₁) (r : FVec Ideal (⟨2, ![N, K]⟩ : Shape) φ₂) (p : Fin M) (q : Fin N) :
    FloatOps.dotGeneral (DotDims.transposedRhs M K N) prec sched l r (ix2 p q) = ∑ k : Fin K, l (ix2 p k) * r (ix2 q k) :=
  (Ideal.dotGeneral_apply (DotDims.transposedRhs M K N) prec sched l r (ix2 p q)).trans (sum_rows l r p q)

end Idealize.ShloMosaic.ContractRows

end
-- ==== Proof.KernelIdealScores.lean ====
/-
  What the region writes, at the ideal values. The result array ends holding, at row p and column n, the sum
  over the 128 features of (left row p) · (table row n): each point's block is a band of 2560 columns (the last
  one 1600 wide, the rest of its buffer cut off at the array's end), a column of a band depends on one table
  row only, and the bands cover the array.
-/
import proofs.«108893_j7421703488266_2_alg».proof.Proof.KernelIdealNamed
import proofs.«108893_j7421703488266_2_alg».proof.Proof.LibContractRows
import Idealize.ShloMosaic.Lib.Pipeline.Value
import Idealize.ShloMosaic.Lib.ValueIdx
import Idealize.ShloMosaic.PureOps.Ideal.Laws

set_option maxRecDepth 16384

noncomputable section

namespace Cert.KernelIdeal.Scores

open Cert.KernelIdeal Cert.KernelIdeal.Gen Cert.KernelIdeal.Entry Cert.KernelIdeal.Body

open Idealize.ShloMosaic Idealize.ShloMosaic.ValueIdx
open Idealize.ShloMosaic.TcCoe
open Idealize.SL Idealize.SL.Sem
open Idealize.ShloMosaic.Pipeline (Dat Cfg Window)
open Idealize.ShloMosaic.Rounds

/-! ## The schedule's arithmetic, decided over the sixteen points -/

theorem index_0 : ∀ t : Fin cfg0.N, win0_0.index t 0 = 0 ∧ win0_0.index t 1 = 0 :=
  (by decide +kernel : ∀ t : Fin grid0.N, win0_0.index t 0 = 0 ∧ win0_0.index t 1 = 0)
theorem index_1 : ∀ t : Fin cfg0.N, win0_1.index t 0 = t.val ∧ win0_1.index t 1 = 0 :=
  (by decide +kernel : ∀ t : Fin grid0.N, win0_1.index t 0 = t.val ∧ win0_1.index t 1 = 0)
theorem index_2 : ∀ t : Fin cfg0.N, win0_2.index t 0 = 0 ∧ win0_2.index t 1 = t.val :=
  (by decide +kernel : ∀ t : Fin grid0.N, win0_2.index t 0 = 0 ∧ win0_2.index t 1 = t.val)
theorem xsize_1 : ∀ t : Fin cfg0.N, win0_1.xsize (grid0.coords t) 0 = min 2560 (40000 - 2560 * t.val) ∧ win0_1.xsize (grid0.coords t) 1 = 128 :=
  (by decide +kernel : ∀ t : Fin grid0.N, win0_1.xsize (grid0.coords t) 0 = min 2560 (40000 - 2560 * t.val) ∧ win0_1.xsize (grid0.coords t) 1 = 128)
theorem xsize_2 : ∀ t : Fin cfg0.N, win0_2.xsize (grid0.coords t) 0 = 1024 ∧ win0_2.xsize (grid0.coords t) 1 = min 2560 (40000 - 2560 * t.val) :=
  (by decide +kernel : ∀ t : Fin grid0.N, win0_2.xsize (grid0.coords t) 0 = 1024 ∧ win0_2.xsize (grid0.coords t) 1 = min 2560 (40000 - 2560 * t.val))

/-! ## The scores -/

/-- Row `p` of `A` against row `n` of `E`, summed over the features. -/
def G (A : S1024x128.Idx → EReal) (E : S40000x128.Idx → EReal) : S1024x40000.Idx → EReal :=
  fun i => ∑ k : Fin 128, A (ix2 (i 0) k) * E (ix2 (i 1) k)

/-- The printed dimension numbers are "contract the last axis of both". -/
theorem dot_eq : dot_S1024x128_S2560x128_S1024x2560_1_1_0_0_n_n = DotDims.transposedRhs 1024 128 2560 := rfl

/-- The body's product at an entry: left row `p` against tile row `q`. -/
theorem pay_apply (X1 : FVec Ideal S2560x128 .f32) (X0 : FVec Ideal S1024x128 .bf16) (p : Fin 1024) (q : Fin 2560) :
    k0_pay1 (F := Ideal) X1 X0 (ix2 p q) = ∑ k : Fin 128, X0 (ix2 p k) * X1 (ix2 q k) := by
  unfold k0_pay1
  show matmul (F := Ideal) dot_S1024x128_S2560x128_S1024x2560_1_1_0_0_n_n none (shapeCast S1024x128 X0 shapeCasts_S1024x128_S1024x128)
    (truncf (F := Ideal) .bf16 X1 bitsLt_bf16_f32) (constant (F := Ideal) S1024x2560 .f32 0x00000000#32) (ix2 p q) = _
  rw [shapeCast_self, dot_eq]
  exact ContractRows.matmul_zero_apply none X0 X1 p q

variable (m : (ℓ : Loc nD τ sig) → Buf (Elt Ideal) ℓ) (ρ : Dev nD → PrngReg)

/-- The left rows as the region finds them. -/
def A (c : Dev nD) : S1024x128.Idx → EReal := V m c main_v174
/-- The table as the region finds it. -/
def E (c : Dev nD) : S40000x128.Idx → EReal := V m c main_arg1

/-- The left rows' block is the whole array. -/
theorem iblk0_apply (c : Dev nD) (t : Fin cfg0.N) (y : S1024x128.Idx) : iblk m c 0 t y = A m c y := by
  show V m c main_v174 (((cfg0.win 0).blk t).view.emb y) = V m c main_v174 y
  refine congrArg _ (funext fun a => Fin.ext ?_)
  match a with
  | ⟨0, _⟩ =>
    show win0_0.index t 0 * 1024 + 1 * (y 0).val = (y 0).val
    rw [(index_0 t).1]; omega
  | ⟨1, _⟩ =>
    show win0_0.index t 1 * 128 + 1 * (y 1).val = (y 1).val
    rw [(index_0 t).2]; omega

/-- A fetched tile at a row inside the table: table row `2560·t + row`, whatever the buffer held before. -/
theorem fill1_apply (c : Dev nD) (t : Fin cfg0.N) (d1 : S2560x128.Idx → EReal) (q : Fin 2560) (k : Fin 128)
    (hq : q.val < min 2560 (40000 - 2560 * t.val)) (hn : t.val * 2560 + q.val < 40000) :
    win0_1.fill (grid0.coords t) d1 (iblk m c 1 t) (ix2 q k) = E m c (ix2 ⟨t.val * 2560 + q.val, hn⟩ k) := by
  have hmoved : win0_1.moved (grid0.coords t) (ix2 q k) = true := (win0_1.moved_iff _ _).mpr fun a => by
    match a with
    | ⟨0, _⟩ => show q.val < win0_1.xsize (grid0.coords t) 0; rw [(xsize_1 t).1]; exact hq
    | ⟨1, _⟩ => show k.val < win0_1.xsize (grid0.coords t) 1; rw [(xsize_1 t).2]; exact k.isLt
  unfold Window.fill
  rw [dif_pos hmoved]
  show V m c main_arg1 (((cfg0.win 1).blk t).view.emb _) = V m c main_arg1 _
  refine congrArg _ (funext fun a => Fin.ext ?_)
  match a with
  | ⟨0, _⟩ =>
    show win0_1.index t 0 * 2560 + 1 * q.val = t.val * 2560 + q.val
    rw [(index_1 t).1]; omega
  | ⟨1, _⟩ =>
    show win0_1.index t 1 * 128 + 1 * k.val = k.val
    rw [(index_1 t).2]; omega

/-- The result array read through point `t`'s block: rows as they are, columns shifted by `2560·t`. -/
theorem read2_apply (c : Dev nD) (t : Fin cfg0.N) (X : S1024x40000.Idx → EReal) (j : (win0_2.xblock (grid0.coords t)).Idx)
    (h0 : (j 0).val < 1024) (h1 : t.val * 2560 + (j 1).val < 40000) :
    (win0_2.blk t).view.read (Elt Ideal) X j = X (ix2 ⟨(j 0).val, h0⟩ ⟨t.val * 2560 + (j 1).val, h1⟩) := by
  show X ((win0_2.blk t).view.emb j) = _
  refine congrArg _ (funext fun a => Fin.ext ?_)
  match a with
  | ⟨0, _⟩ =>
    show win0_2.index t 0 * 1024 + 1 * (j 0).val = (j 0).val
    rw [(index_2 t).1]; omega
  | ⟨1, _⟩ =>
    show win0_2.index t 1 * 2560 + 1 * (j 1).val = t.val * 2560 + (j 1).val
    rw [(index_2 t).2]; omega

/-- What the result buffer holds after the body at point `t`: the scores' band, the overhang zero. -/
def o (c : Dev nD) (t : Fin cfg0.N) : S1024x2560.Idx → EReal :=
  win0_2.fill (grid0.coords t) (fun _ => 0) ((win0_2.blk t).view.read (Elt Ideal) (G (A m c) (E m c)))

/-- The body's product, on the part of its band inside the result array, is the scores there — whatever the
    fetched tile holds past the table's end: those rows only feed columns past the array's end. -/
theorem product_cut (c : Dev nD) (t : Fin cfg0.N) (d1 : S2560x128.Idx → EReal) :
    win0_2.cut (grid0.coords t) (k0_pay1 (F := Ideal) (win0_1.fill (grid0.coords t) d1 (iblk m c 1 t)) (iblk m c 0 t))
      = win0_2.cut (grid0.coords t) (o m c t) := by
  unfold o
  rw [win0_2.cut_fill]
  funext j
  have h0 : (j 0).val < 1024 := lt_of_lt_of_eq (j 0).isLt (xsize_2 t).1
  have h1' : (j 1).val < min 2560 (40000 - 2560 * t.val) := lt_of_lt_of_eq (j 1).isLt (xsize_2 t).2
  have h1 : (j 1).val < 2560 := by omega
  have hn : t.val * 2560 + (j 1).val < 40000 := by omega
  rw [read2_apply c t _ j h0 hn]
  show k0_pay1 (F := Ideal) _ _ (win0_2.xinj (grid0.coords t) j) = _
  rw [show win0_2.xinj (grid0.coords t) j = ix2 (⟨(j 0).val, h0⟩ : Fin 1024) (⟨(j 1).val, h1⟩ : Fin 2560) from
    funext fun a => by match a with | ⟨0, _⟩ => rfl | ⟨1, _⟩ => rfl]
  rw [pay_apply]
  unfold G
  refine Finset.sum_congr rfl fun k _ => ?_
  rw [iblk0_apply, fill1_apply m c t d1 ⟨(j 1).val, h1⟩ k h1' hn]

/-! ## The run, and the result array -/

/-- The proof data with the result buffer named. -/
abbrev datsN (p : Fin 1) (c : Dev nD) : Dat τ (Elt Ideal) Unit ℕ (UR sig nD τ) ℕ (cfgs p) c := dats m (o m c) p c

set_option backward.isDefEq.respectTransparency.types false in
/-- The region's run with every window named. -/
theorem run_named : θ_run defs (onTc (τ := τ) (main (F := Ideal))) (s₀ m ρ) (Pipeline.FramePost cfgs (datsN m) 0 (V m)) :=
  Pipeline.θ_run_frame cfgs (datsN m) (0 : Fin 1) launch0 defs₀ 𝒱₀ m ρ main
    (fun c => obligation_named m (o m c) c (product_cut m c))
    (fun c => (dats m (o m c) 0 c).share_full fun _ => rfl) (fun _ _ => rfl)
    (V m) (hmain m 𝒱₀) (fun _ _ => rfl) (fun _ _ => rfl)

/-- Every entry of the result array lies in the band of the point `column / 2560`. -/
theorem cover (c : Dev nD) (i : S1024x40000.Idx) :
    ∃ t : Fin cfg0.N, (cfg0.win 2).flush t = true ∧ i ∈ ((cfg0.win 2).blk t).view.set := by
  have hi0 : (i 0).val < 1024 := (i 0).isLt
  have hi1 : (i 1).val < 40000 := (i 1).isLt
  refine ⟨⟨(i 1).val / 2560, by rw [show cfg0.N = 16 from N_0]; omega⟩, flush0_2 _, ?_⟩
  generalize ht : (⟨(i 1).val / 2560, _⟩ : Fin cfg0.N) = t
  have hv : t.val = (i 1).val / 2560 := by rw [← ht]
  show i ∈ ((View.whole main_v175).slice (win0_2.rect t)).set
  rw [View.set_slice_whole, Rect.mem_set_unit]
  intro a
  match a with
  | ⟨0, _⟩ =>
    show win0_2.index t 0 * 1024 ≤ (i 0).val ∧ (i 0).val < win0_2.index t 0 * 1024 + win0_2.xsize (grid0.coords t) 0
    rw [(index_2 t).1, (xsize_2 t).1]; omega
  | ⟨1, _⟩ =>
    show win0_2.index t 1 * 2560 ≤ (i 1).val ∧ (i 1).val < win0_2.index t 1 * 2560 + win0_2.xsize (grid0.coords t) 1
    rw [(index_2 t).2, (xsize_2 t).2]; omega

/-- The result array after the run is the scores. -/
theorem final_scores (c : Dev nD) : (datsN m 0 c).arrAt (2 : Fin 3) cfg0.N = G (A m c) (E m c) :=
  (datsN m 0 c).arrAt_eq_of_cover (2 : Fin 3) (G (A m c) (E m c))
    (fun t _ => by
      show win0_2.cut (grid0.coords t) (o m c t) = _
      unfold o
      rw [win0_2.cut_fill])
    (cover c)

/-- Every weakly fair execution of the idealized kernel terminates with the result array at the scores and every
    argument array as launched. -/
theorem run_scores : θ_run defs (onTc (τ := τ) (main (F := Ideal))) ⟨m, fun _ => 0, ρ⟩ (fun r => ∀ c : Dev nD,
      r.2.mem ((c.tc : Thread nD τ).loc main_v175) = G (A m c) (E m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
    ((h c).1 2).trans (final_scores m c),
    ((h c).2 main_arg0 (Pipeline.mem_restRefs_of main_arg0 (by decide) (by decide))).trans (V_main_arg0 m c),
    ((h c).1 1).trans (((datsN m 0 c).arrAt_in 1 rfl _).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩) (run_named m ρ)

end Cert.KernelIdeal.Scores

end
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.Algebraic.lean ====
/-
  The two idealized programs end with equal results. The kernel's result array holds, at row p and column n,
  the sum over the features of (left row p) · (table row n); the reference's product of the left rows with the
  transposed table is the same sum; and the two programs compute the left rows alike.
-/
import proofs.«108893_j7421703488266_2_alg».proof.Defs
import proofs.«108893_j7421703488266_2_alg».proof.Proof.Bridge
import proofs.«108893_j7421703488266_2_alg».proof.Proof.RefRun
import proofs.«108893_j7421703488266_2_alg».proof.Proof.KernelIdealScores
import proofs.«108893_j7421703488266_2_alg».proof.Proof.LibContractPlain
import proofs.«108893_j7421703488266_2_alg».proof.Proof.KernelRun
import proofs.«108893_j7421703488266_2_alg».proof.Proof.KernelIdealRun
import proofs.«108893_j7421703488266_2_alg».proof.Proof.Gen.Pre_finite_inputs
import Idealize.ShloMosaic.Lib.ValueLayout

set_option maxRecDepth 16384

noncomputable section

namespace Cert.Bridge

open Idealize.ShloMosaic Idealize.ShloMosaic.TcCoe Idealize.SL.Sem Idealize.ShloMosaic.StableHlo Idealize.ShloMosaic.ValueIdx

/-- From launch contents that agree on the eleven arguments, the reference's left rows are the kernel's. -/
theorem left_rows_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev 1)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (StableHlo.after (Cert.ReferenceIdeal.Line.pre (F := Ideal)) (StableHlo.launchContents m' c) (Proc.devRef .tc Cert.ReferenceIdeal.main_v173) : Cert.KernelIdeal.S1024x128.Idx → EReal)
      = Cert.KernelIdeal.Scores.A m c := by
  have s1 := stage1 (fun b => m (c, b)) (StableHlo.launchContents m' c) e0 e1 e2 e3 e4 e5 e6 e7 e8 e9 e10
  obtain ⟨a1, a3, a5, ac, b0, b1, b2, b3, b4, b5, b6, b7, b8, b9, b10⟩ := s1
  have s2 := stage2 _ _ a1 a3 a5 ac b0 b1 b2 b3 b4 b5 b6 b7 b8 b9 b10
  clear a1 a3 a5 ac b0 b1 b2 b3 b4 b5 b6 b7 b8 b9 b10
  obtain ⟨a1, a3, a5, a6, b0, b1, b2, b3, b4, b5, b6, b7, b8, b9, b10⟩ := s2
  have s3 := stage3 _ _ a1 a3 a5 a6 b0 b1 b2 b3 b4 b5 b6 b7 b8 b9 b10
  clear a1 a3 a5 a6 b0 b1 b2 b3 b4 b5 b6 b7 b8 b9 b10
  obtain ⟨d13, d20, d27, d42, d57, d65, d94, d106⟩ := s3
  have s4 := stage4 _ _ d13 d20 d27 d42 d57 d65 d94 d106
  clear d13 d20 d27 d42 d57 d65 d94 d106
  obtain ⟨d13, d20, d27, d42, d57, d107⟩ := s4
  have s5 := stage5 _ _ d13 d20 d27 d42 d57 d107
  clear d13 d20 d27 d42 d57 d107
  unfold Cert.KernelIdeal.Scores.A
  show StableHlo.after (Cert.ReferenceIdeal.Line.pre (F := Ideal)) (StableHlo.launchContents m' c) (Proc.devRef .tc Cert.ReferenceIdeal.main_v173)
    = StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4]) (fun b => m (c, b)) (Proc.devRef .tc Cert.KernelIdeal.main_v174)
  simp only [Cert.ReferenceIdeal.Line.pre, List.flatten_cons, List.flatten_nil, List.append_nil, Cert.ReferenceIdeal.Line.after_append] at s5 ⊢
  exact s5

end Cert.Bridge

namespace Cert.Proof.Claims

open Idealize.ShloMosaic Idealize.ShloMosaic.TcCoe Idealize.SL.Sem Idealize.ShloMosaic.StableHlo Idealize.ShloMosaic.ValueIdx

/-- The reference's product, read at an entry, is the kernel's score there. -/
theorem product_eq (A : FVec Ideal Cert.KernelIdeal.S1024x128 .f32) (E : FVec Ideal Cert.KernelIdeal.S40000x128 .f32) :
    Host.dotGeneral (F := Ideal) Cert.ReferenceIdeal.dot_S1024x128_S128x40000_S1024x40000_1_0_0_1_n_n none A
        (transpose Cert.ReferenceIdeal.S128x40000 [1, 0] E Cert.ReferenceIdeal.Gen.transposes_S40000x128_S128x40000_1_0)
      = Cert.KernelIdeal.Scores.G A E := by
  funext i
  obtain ⟨p, n, rfl⟩ : ∃ (p : Fin 1024) (n : Fin 40000), i = ix2 p n := ⟨i 0, i 1, eq_ix2 i⟩
  rw [Cert.Lib.ContractPlain.hostDot_apply Cert.ReferenceIdeal.dot_S1024x128_S128x40000_S1024x40000_1_0_0_1_n_n rfl]
  unfold Cert.KernelIdeal.Scores.G
  refine Finset.sum_congr rfl fun k _ => ?_
  rw [transpose_ix2_apply]

theorem frame_k : Cert.frame_Kernel := fun m ρ _ => Cert.Kernel.Body.frame m ρ
theorem frame_ki : Cert.frame_KernelIdeal := fun m ρ _ => Cert.KernelIdeal.Body.frame m ρ
theorem frame_ri : Cert.frame_ReferenceIdeal := fun m ρ _ =>
  (θ_run Cert.ReferenceIdeal.defs _ _).mono (fun _ h c => (h c).2) (Cert.ReferenceIdeal.Line.run (F := Ideal) m ρ)

/-- Both idealized programs end with the scores of the same left rows against the same table. -/
theorem algebraic : Cert.algebraic_KernelIdeal_ReferenceIdeal := by
  intro m ρ m' ρ' _ hagree
  refine ⟨fun c => Cert.KernelIdeal.Scores.G (Cert.KernelIdeal.Scores.A m c) (Cert.KernelIdeal.Scores.E m c), Cert.KernelIdeal.Scores.run_scores m ρ, ?_⟩
  refine (θ_run Cert.ReferenceIdeal.defs _ _).mono (fun r h c => ⟨(h c).1.trans ?_, (h c).2⟩)
    (Cert.ReferenceIdeal.Line.run (F := Ideal) m' ρ')
  have hl := Cert.Bridge.left_rows_agree m m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2
  have he : (m' ((c.tc : Thread Cert.ReferenceIdeal.nD Cert.ReferenceIdeal.τ).loc Cert.ReferenceIdeal.main_arg1) : Cert.KernelIdeal.S40000x128.Idx → EReal) = Cert.KernelIdeal.Scores.E m c :=
    ((hagree c).2.1).trans (Cert.KernelIdeal.Entry.V_main_arg1 m c).symm
  exact (congrArg₂ (fun a e => Host.dotGeneral (F := Ideal) Cert.ReferenceIdeal.dot_S1024x128_S128x40000_S1024x40000_1_0_0_1_n_n none a
      (transpose Cert.ReferenceIdeal.S128x40000 [1, 0] e Cert.ReferenceIdeal.Gen.transposes_S40000x128_S128x40000_1_0)) hl he).trans (product_eq _ _)

end Cert.Proof.Claims

end
-- ==== Proof.lean ====
/-
  The certificate: the word-level kernel, its idealization and the idealized reference each run to the end,
  fault nowhere and leave their argument arrays as launched; the idealization is the kernel's own text read at
  the ideal values (nothing was rewritten); and the two idealized programs end with equal results — at row p
  and column n the sum over the 128 features of (left row p) · (table row n), where both programs compute the
  left rows by the same host lines from the same arguments.
-/
import proofs.«108893_j7421703488266_2_alg».proof.Defs
import proofs.«108893_j7421703488266_2_alg».proof.Proof.Gen.Kernel
import proofs.«108893_j7421703488266_2_alg».proof.Proof.Gen.KernelIdeal
import proofs.«108893_j7421703488266_2_alg».proof.Proof.Gen.ReferenceIdeal
import proofs.«108893_j7421703488266_2_alg».proof.Proof.Gen.Pre_finite_inputs
import proofs.«108893_j7421703488266_2_alg».proof.Proof.KernelRun
import proofs.«108893_j7421703488266_2_alg».proof.Proof.KernelIdealRun
import proofs.«108893_j7421703488266_2_alg».proof.Proof.Algebraic

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, trivial, Cert.Proof.Claims.algebraic⟩

end Cert.Proof

end
